-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg13 : FVec F S64x32 .f32) (main_arg14 : FVec F S32 .f32) (main_arg15 : FVec F S64x32 .f32) (main_arg16 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_v63 main_v67

def fn_part2 {F : FTy → Type} [FloatOps F] (main_arg9 : FVec F S128x64 .f32) (main_arg10 : FVec F S64 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_v48 main_v49 main_v50

def fn_part1 {F : FTy → Type} [FloatOps F] (main_arg6 : FVec F S64 .f32) (main_arg7 : FVec F S128x64 .f32) (main_arg8 : FVec F S64 .f32) (main_arg9 : FVec F S128x64 .f32) (main_arg10 : FVec F S64 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : FVec F S1600000 .f32) (main_arg2 : FVec F S1600000 .f32) (main_arg3 : IVec S1600000 32) (main_arg4 : IVec S1600000 32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S128x192 : Shape := ⟨2, ![128, 192]⟩
abbrev S_ : Shape := ⟨0, ![]⟩
abbrev S192 : Shape := ⟨1, ![192]⟩
abbrev S100000x192 : Shape := ⟨2, ![100000, 192]⟩
abbrev S5000x128 : Shape := ⟨2, ![5000, 128]⟩
abbrev S5000x192 : Shape := ⟨2, ![5000, 192]⟩
abbrev S1x192 : Shape := ⟨2, ![1, 192]⟩
abbrev S100000x64 : Shape := ⟨2, ![100000, 64]⟩
abbrev S1600000x1 : Shape := ⟨2, ![1600000, 1]⟩
abbrev S1600000x64 : Shape := ⟨2, ![1600000, 64]⟩
abbrev S5000x64 : Shape := ⟨2, ![5000, 64]⟩
abbrev S1x64 : Shape := ⟨2, ![1, 64]⟩
abbrev S64x96 : Shape := ⟨2, ![64, 96]⟩
abbrev S96 : Shape := ⟨1, ![96]⟩
abbrev S100000x96 : Shape := ⟨2, ![100000, 96]⟩
abbrev S5000x96 : Shape := ⟨2, ![5000, 96]⟩
abbrev S1x96 : Shape := ⟨2, ![1, 96]⟩
abbrev S100000x32 : Shape := ⟨2, ![100000, 32]⟩
abbrev S1600000x32 : Shape := ⟨2, ![1600000, 32]⟩
abbrev S5000x32 : Shape := ⟨2, ![5000, 32]⟩
abbrev S1x32 : Shape := ⟨2, ![1, 32]⟩

abbrev nBuf : Space → Nat
  | .hbm => 103
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S64x32, .f32⟩
  | .hbm, ⟨16, _⟩ => ⟨S32, .f32⟩
  | .hbm, ⟨17, _⟩ => ⟨S128x192, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S192, .f32⟩
  | .hbm, ⟨23, _⟩ => ⟨S100000x192, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S64x96, .f32⟩
  | .hbm, ⟨61, _⟩ => ⟨S_, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S96, .f32⟩
  | .hbm, ⟨66, _⟩ => ⟨S100000x96, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x32, .f32⟩
  | .hbm, ⟨80, _⟩ => ⟨S1600000x32, .f32⟩
  | .hbm, ⟨81, _⟩ => ⟨S1600000x32, .f32⟩
  | .hbm, ⟨82, _⟩ => ⟨S_, .f32⟩
  | .hbm, ⟨83, _⟩ => ⟨S100000x32, .f32⟩
  | .hbm, ⟨84, _⟩ => ⟨S1600000x1, .i32⟩
  | .hbm, ⟨85, _⟩ => ⟨S100000x32, .f32⟩
  | .hbm, ⟨86, _⟩ => ⟨S1600000x1, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x32, .f32⟩
  | .hbm, ⟨96, _⟩ => ⟨S1600000x32, .f32⟩
  | .hbm, ⟨97, _⟩ => ⟨S1600000x32, .f32⟩
  | .hbm, ⟨98, _⟩ => ⟨S_, .f32⟩
  | .hbm, ⟨99, _⟩ => ⟨S100000x32, .f32⟩
  | .hbm, ⟨100, _⟩ => ⟨S1600000x1, .i32⟩
  | .hbm, ⟨101, _⟩ => ⟨S100000x32, .f32⟩
  | .hbm, ⟨102, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x192, .f32⟩
  | .local _ .vmem, ⟨3, _⟩ => ⟨S192, .f32⟩
  | .local _ .vmem, ⟨4, _⟩ => ⟨S5000x192, .f32⟩
  | .local _ .vmem, ⟨5, _⟩ => ⟨S5000x192, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x96, .f32⟩
  | .local _ .vmem, ⟨19, _⟩ => ⟨S96, .f32⟩
  | .local _ .vmem, ⟨20, _⟩ => ⟨S5000x96, .f32⟩
  | .local _ .vmem, ⟨21, _⟩ => ⟨S5000x96, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S32, .f32⟩
  | .local _ .vmem, ⟨29, _⟩ => ⟨S32, .f32⟩
  | .local _ .vmem, ⟨30, _⟩ => ⟨S5000x32, .f32⟩
  | .local _ .vmem, ⟨31, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_c_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S128x64_S128x64_S128x64_S128x192_d1 : Shape.Concatenates [S128x64, S128x64, S128x64] S128x192 1
  bcast_S_S64 : S_.BroadcastsInDim S64 (![] : Fin 0 → Fin S64.rank)
  concatenates_S64_S64_S64_S192_d0 : Shape.Concatenates [S64, S64, S64] S192 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  concatenates_S64x32_S64x32_S64x32_S64x96_d1 : Shape.Concatenates [S64x32, S64x32, S64x32] S64x96 1
  bcast_S_S32 : S_.BroadcastsInDim S32 (![] : Fin 0 → Fin S32.rank)
  concatenates_S32_S32_S32_S96_d0 : Shape.Concatenates [S32, S32, S32] S96 0
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S96_S96_0 : ∀ a, (![0] : Fin 1 → Nat) a + S96.size a ≤ S96.size a
  h_S96 : 0 < S96.numel
  shapeCasts_S96_S96 : S96.ShapeCasts S96
  shapeCasts_S96_S1x96 : S96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  slices_S100000x96_S100000x32_0_0 : S100000x96.Slices ![0, 0] S100000x32
  slices_S100000x96_S100000x32_0_32 : S100000x96.Slices ![0, 32] S100000x32
  slices_S100000x96_S100000x32_0_64 : S100000x96.Slices ![0, 64] S100000x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  dot_S5000x128_S128x192_S5000x192_1_0_0_1_n_n_wf : DotDims.WF S5000x128 S128x192 S5000x192 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x96_S5000x96_1_0_0_1_n_n_wf : DotDims.WF S5000x64 S64x96 S5000x96 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x192.size a ≤ S100000x192.size a
  hwx0_3 : ∀ i : grid0.Coords, EltTy.bits .f32 = 32 ∨ (Rect.block (s := S100000x192) S5000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x96.size a ≤ S64x96.size a
  hwx2_1 : ∀ i : grid2.Coords, EltTy.bits .f32 = 32 ∨ (Rect.block (s := S64x96) S64x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96.size a ≤ S96.size a
  hwx2_2 : ∀ i : grid2.Coords, EltTy.bits .f32 = 32 ∨ (Rect.block (s := S96) S96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S100000x96.size a
  hwx2_3 : ∀ i : grid2.Coords, EltTy.bits .f32 = 32 ∨ (Rect.block (s := S100000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)

variable [Facts₀]

def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S64x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S64x32, .f32⟩
  | .hbm, ⟨16, _⟩ => ⟨S32, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x32, .f32⟩
  | .hbm, ⟨78, _⟩ => ⟨S1600000x32, .f32⟩
  | .hbm, ⟨79, _⟩ => ⟨S1600000x32, .f32⟩
  | .hbm, ⟨80, _⟩ => ⟨S_, .f32⟩
  | .hbm, ⟨81, _⟩ => ⟨S100000x32, .f32⟩
  | .hbm, ⟨82, _⟩ => ⟨S1600000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S100000x32, .f32⟩
  | .hbm, ⟨88, _⟩ => ⟨S1600000x1, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x32, .f32⟩
  | .hbm, ⟨98, _⟩ => ⟨S1600000x32, .f32⟩
  | .hbm, ⟨99, _⟩ => ⟨S1600000x32, .f32⟩
  | .hbm, ⟨100, _⟩ => ⟨S_, .f32⟩
  | .hbm, ⟨101, _⟩ => ⟨S100000x32, .f32⟩
  | .hbm, ⟨102, _⟩ => ⟨S1600000x1, .i32⟩
  | .hbm, ⟨103, _⟩ => ⟨S100000x32, .f32⟩
  | .hbm, ⟨104, _⟩ => ⟨S1x32, .f32⟩
  | .hbm, ⟨105, _⟩ => ⟨S100000x32, .f32⟩
  | .hbm, ⟨106, _⟩ => ⟨S100000x32, .f32⟩
  | .hbm, ⟨107, _⟩ => ⟨S100000x32, .f32⟩
  | .hbm, ⟨108, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_7 : Ref sig .tc := ⟨.hbm, 89, rfl⟩
abbrev main_v63 : Ref sig .tc := ⟨.hbm, 90, rfl⟩
abbrev main_v64 : Ref sig .tc := ⟨.hbm, 91, rfl⟩
abbrev main_c_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.WordBlocks.lean ====
/-
  The four pipelined calls of this program, each read as a map on blocks. A call walks a grid of 20 points; at point
  `t` every input window holds one block of its array (5000 consecutive rows of a tall matrix, or a whole small matrix
  or vector that never moves), the body computes the output window's block from those blocks alone, and the block is
  written back to rows 5000·t … 5000·t + 4999 of the output array. This module names, per call: the block a window
  shows at a point (`iblkK`), the block the body leaves in the output window as a function of the input blocks
  (`outK_w`: the body's single store over the whole block), and the record of what every window's buffer holds
  after each point (`datK`). Calls 0 and 2 are a block of rows times a weight matrix plus a bias row; calls 1 and 3
  add three blocks, two of them shifted by a bias row. Everything here is stated for any float instance.
-/
import proofs.«153592_j83202106458340_1_alg».proof.Proof.Gen.Kernel.Launch
import proofs.«153592_j83202106458340_1_alg».proof.Proof.Gen.Kernel.Skeleton
import proofs.«153592_j83202106458340_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The buffer contents a call is entered from: one array per reference, per core.
variable (V : (c : Dev nD) → (b : Ref sig .tc) → Buf (Elt F) ((c : Thread nD τ).loc b))

/-! # Call 0: a block of 5000 rows times the whole weight matrix plus the bias row -/

/-- The block window `w` of call 0 shows at point `t`, cut out of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the block was fetched at that point or has
    stayed since an earlier one (its index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds its block at every point, whether the block was fetched at that point or has
    stayed since an earlier one (its index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds its block at every point, whether the block was fetched at that point or has
    stayed since an earlier one (its index has not moved). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S5000x128 := Rect.unit (s := S5000x128) ![0, 0] S5000x128.size inb_S5000x128_S5000x128_0_0
abbrev r0_1 : Rect S128x192 := Rect.unit (s := S128x192) ![0, 0] S128x192.size inb_S128x192_S128x192_0_0
abbrev r0_2 : Rect S192 := Rect.unit (s := S192) ![0] S192.size inb_S192_S192_0
abbrev r0_3 : Rect S5000x192 := Rect.unit (s := S5000x192) ![0, 0] S5000x192.size inb_S5000x192_S5000x192_0_0

/-- What the body leaves in the output window: its one store, over the whole block, of the body's value of the
    input blocks. -/
def out0_3 (x0 : Vec F S5000x128 .f32) (x1 : Vec F S128x192 .f32) (x2 : Vec F S192 .f32) : Vec F S5000x192 .f32 :=
  View.canon [⟨r0_3, k0_pay1 (View.ld x0 r0_0) (View.ld x1 r0_1) (View.ld x2 r0_2)⟩]

/-- That store covers the block. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

/-- Call 0's record on core `c`: the arrays as found; after the body at point `t` every input window still shows
    its block and the output window holds the body's value of those blocks; nothing is owed between points. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! # Call 1: the sum of three blocks of 5000 rows, the second and third each shifted by its bias row -/

/-- The block window `w` of call 1 shows at point `t`, cut out of the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the block was fetched at that point or has
    stayed since an earlier one (its index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S5000x64 := Rect.unit (s := S5000x64) ![0, 0] S5000x64.size inb_S5000x64_S5000x64_0_0
abbrev r1_3 : Rect S64 := Rect.unit (s := S64) ![0] S64.size inb_S64_S64_0
abbrev r1_4 : Rect S64 := Rect.unit (s := S64) ![0] S64.size inb_S64_S64_0
abbrev r1_5 : Rect S5000x64 := Rect.unit (s := S5000x64) ![0, 0] S5000x64.size inb_S5000x64_S5000x64_0_0

/-- What the body leaves in the output window: its one store, over the whole block, of the body's value of the
    input blocks. -/
def out1_5 (x0 : Vec F S5000x64 .f32) (x1 : Vec F S5000x64 .f32) (x2 : Vec F S5000x64 .f32) (x3 : Vec F S64 .f32) (x4 : Vec F S64 .f32) : Vec F S5000x64 .f32 :=
  View.canon [⟨r1_5, k1_pay1 (View.ld x0 r1_0) (View.ld x1 r1_1) (View.ld x3 r1_3) (View.ld x2 r1_2) (View.ld x4 r1_4)⟩]

/-- That store covers the block. -/
theorem cover1_5 (p0 : Vec F S5000x64 .f32) (y : S5000x64.Idx) :
    ∃ pc ∈ ([⟨r1_5, p0⟩] : List (View.Piece (Elt F) S5000x64 .f32)), y ∈ pc.1.set :=
  View.cover_of_tiled [⟨r1_5, p0⟩] S5000x64.size (by rfl) y

/-- Call 1's record on core `c`: the arrays as found; after the body at point `t` every input window still shows
    its block and the output window holds the body's value of those blocks; nothing is owed between points. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! # Call 2: a block of 5000 rows times the whole weight matrix plus the bias row -/

/-- The block window `w` of call 2 shows at point `t`, cut out of the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the block was fetched at that point or has
    stayed since an earlier one (its index has not moved). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds its block at every point, whether the block was fetched at that point or has
    stayed since an earlier one (its index has not moved). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds its block at every point, whether the block was fetched at that point or has
    stayed since an earlier one (its index has not moved). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S5000x64 := Rect.unit (s := S5000x64) ![0, 0] S5000x64.size inb_S5000x64_S5000x64_0_0
abbrev r2_1 : Rect S64x96 := Rect.unit (s := S64x96) ![0, 0] S64x96.size inb_S64x96_S64x96_0_0
abbrev r2_2 : Rect S96 := Rect.unit (s := S96) ![0] S96.size inb_S96_S96_0
abbrev r2_3 : Rect S5000x96 := Rect.unit (s := S5000x96) ![0, 0] S5000x96.size inb_S5000x96_S5000x96_0_0

/-- What the body leaves in the output window: its one store, over the whole block, of the body's value of the
    input blocks. -/
def out2_3 (x0 : Vec F S5000x64 .f32) (x1 : Vec F S64x96 .f32) (x2 : Vec F S96 .f32) : Vec F S5000x96 .f32 :=
  View.canon [⟨r2_3, k2_pay1 (View.ld x0 r2_0) (View.ld x1 r2_1) (View.ld x2 r2_2)⟩]

/-- That store covers the block. -/
theorem cover2_3 (p0 : Vec F S5000x96 .f32) (y : S5000x96.Idx) :
    ∃ pc ∈ ([⟨r2_3, p0⟩] : List (View.Piece (Elt F) S5000x96 .f32)), y ∈ pc.1.set :=
  View.cover_of_tiled [⟨r2_3, p0⟩] S5000x96.size (by rfl) y

/-- Call 2's record on core `c`: the arrays as found; after the body at point `t` every input window still shows
    its block and the output window holds the body's value of those blocks; nothing is owed between points. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! # Call 3: the sum of three blocks of 5000 rows, the second and third each shifted by its bias row -/

/-- The block window `w` of call 3 shows at point `t`, cut out of the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the block was fetched at that point or has
    stayed since an earlier one (its index has not moved). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S5000x32 := Rect.unit (s := S5000x32) ![0, 0] S5000x32.size inb_S5000x32_S5000x32_0_0
abbrev r3_1 : Rect S5000x32 := Rect.unit (s := S5000x32) ![0, 0] S5000x32.size inb_S5000x32_S5000x32_0_0
abbrev r3_2 : Rect S5000x32 := Rect.unit (s := S5000x32) ![0, 0] S5000x32.size inb_S5000x32_S5000x32_0_0
abbrev r3_3 : Rect S32 := Rect.unit (s := S32) ![0] S32.size inb_S32_S32_0
abbrev r3_4 : Rect S32 := Rect.unit (s := S32) ![0] S32.size inb_S32_S32_0
abbrev r3_5 : Rect S5000x32 := Rect.unit (s := S5000x32) ![0, 0] S5000x32.size inb_S5000x32_S5000x32_0_0

/-- What the body leaves in the output window: its one store, over the whole block, of the body's value of the
    input blocks. -/
def out3_5 (x0 : Vec F S5000x32 .f32) (x1 : Vec F S5000x32 .f32) (x2 : Vec F S5000x32 .f32) (x3 : Vec F S32 .f32) (x4 : Vec F S32 .f32) : Vec F S5000x32 .f32 :=
  View.canon [⟨r3_5, k3_pay1 (View.ld x0 r3_0) (View.ld x1 r3_1) (View.ld x3 r3_3) (View.ld x2 r3_2) (View.ld x4 r3_4)⟩]

/-- That store covers the block. -/
theorem cover3_5 (p0 : Vec F S5000x32 .f32) (y : S5000x32.Idx) :
    ∃ pc ∈ ([⟨r3_5, p0⟩] : List (View.Piece (Elt F) S5000x32 .f32)), y ∈ pc.1.set :=
  View.cover_of_tiled [⟨r3_5, p0⟩] S5000x32.size (by rfl) y

/-- Call 3's record on core `c`: the arrays as found; after the body at point `t` every input window still shows
    its block and the output window holds the body's value of those blocks; nothing is owed between points. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

end Cert.Kernel.Pipe

end
-- ==== Proof.WordBody0.lean ====
/-
  Call 0's body, run on the staging buffers the pipeline hands it at a grid point: the separation-logic triple of
  the printed body, and from it the obligation the pipeline's record asks of the body at every point.
-/
import proofs.«153592_j83202106458340_1_alg».proof.Proof.Gen.Kernel.Launch
import proofs.«153592_j83202106458340_1_alg».proof.Proof.Gen.Kernel.Skeleton
import proofs.«153592_j83202106458340_1_alg».proof.Proof.Gen.Kernel.Points
import proofs.«153592_j83202106458340_1_alg».proof.Proof.WordBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 0: the body's run on its staging buffers -/

set_option maxHeartbeats 1000000 in
/-- The body of call 0 on whole staging buffers: with every input buffer owned at contents `x_w` and the output
    buffer owned at any contents, it runs to the continuation with the inputs unchanged and the output buffer holding
    `out0_3` of the inputs. The body reads each input block whole, reads the output block once without using the
    value, and stores its value of the inputs over the whole output block; that one store covers the block. -/
theorem sound_kernel0 (c : Dev nD) (E : Set ℕ) (i : grid0.Coords) (arg1 : Memref sig .tc .vmem S5000x128 .f32) (harg1 : arg1.IsWhole) (arg2 : Memref sig .tc .vmem S128x192 .f32) (harg2 : arg2.IsWhole) (arg3 : Memref sig .tc .vmem S192 .f32) (harg3 : arg3.IsWhole) (arg4 : Memref sig .tc .vmem S5000x192 .f32) (harg4 : arg4.IsWhole)
    (x0 : Vec F S5000x128 .f32) (x1 : Vec F S128x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body of call 0 is entered with at point `t`: the call's invariant, what is owed, and every window's
    current staging buffer at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, with every buffer at what the record says it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.Kernel.Pipe

end
-- ==== Proof.WordBody1.lean ====
/-
  Call 1's body, run on the staging buffers the pipeline hands it at a grid point: the separation-logic triple of
  the printed body, and from it the obligation the pipeline's record asks of the body at every point.
-/
import proofs.«153592_j83202106458340_1_alg».proof.Proof.Gen.Kernel.Launch
import proofs.«153592_j83202106458340_1_alg».proof.Proof.Gen.Kernel.Skeleton
import proofs.«153592_j83202106458340_1_alg».proof.Proof.Gen.Kernel.Points
import proofs.«153592_j83202106458340_1_alg».proof.Proof.WordBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 1: the body's run on its staging buffers -/

set_option maxHeartbeats 1000000 in
/-- The body of call 1 on whole staging buffers: with every input buffer owned at contents `x_w` and the output
    buffer owned at any contents, it runs to the continuation with the inputs unchanged and the output buffer holding
    `out1_5` of the inputs. The body reads each input block whole, reads the output block once without using the
    value, and stores its value of the inputs over the whole output block; that one store covers the block. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S5000x64 .f32) (x3 : Vec F S64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- What the body of call 1 is entered with at point `t`: the call's invariant, what is owed, and every window's
    current staging buffer at what the record says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, with every buffer at what the record says it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 1, at every point. -/
theorem body_obligation1 (c : Dev nD) : BodyObligation (dat1 (F := F) V c) (defs₀ (F := F)) Variants.none () Set.univ := fun t => by
  rw [bigSep_W1, bigSep_W1]
  exact sound_body1 V c t

end Cert.Kernel.Pipe

end
-- ==== Proof.WordBody2.lean ====
/-
  Call 2's body, run on the staging buffers the pipeline hands it at a grid point: the separation-logic triple of
  the printed body, and from it the obligation the pipeline's record asks of the body at every point.
-/
import proofs.«153592_j83202106458340_1_alg».proof.Proof.Gen.Kernel.Launch
import proofs.«153592_j83202106458340_1_alg».proof.Proof.Gen.Kernel.Skeleton
import proofs.«153592_j83202106458340_1_alg».proof.Proof.Gen.Kernel.Points
import proofs.«153592_j83202106458340_1_alg».proof.Proof.WordBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 2: the body's run on its staging buffers -/

set_option maxHeartbeats 1000000 in
/-- The body of call 2 on whole staging buffers: with every input buffer owned at contents `x_w` and the output
    buffer owned at any contents, it runs to the continuation with the inputs unchanged and the output buffer holding
    `out2_3` of the inputs. The body reads each input block whole, reads the output block once without using the
    value, and stores its value of the inputs over the whole output block; that one store covers the block. -/
theorem sound_kernel2 (c : Dev nD) (E : Set ℕ) (i : grid2.Coords) (arg1 : Memref sig .tc .vmem S5000x64 .f32) (harg1 : arg1.IsWhole) (arg2 : Memref sig .tc .vmem S64x96 .f32) (harg2 : arg2.IsWhole) (arg3 : Memref sig .tc .vmem S96 .f32) (harg3 : arg3.IsWhole) (arg4 : Memref sig .tc .vmem S5000x96 .f32) (harg4 : arg4.IsWhole)
    (x0 : Vec F S5000x64 .f32) (x1 : Vec F S64x96 .f32) (x2 : Vec F S96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body of call 2 is entered with at point `t`: the call's invariant, what is owed, and every window's
    current staging buffer at what the record says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same, with every buffer at what the record says it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.Kernel.Pipe

end
-- ==== Proof.WordBody3.lean ====
/-
  Call 3's body, run on the staging buffers the pipeline hands it at a grid point: the separation-logic triple of
  the printed body, and from it the obligation the pipeline's record asks of the body at every point.
-/
import proofs.«153592_j83202106458340_1_alg».proof.Proof.Gen.Kernel.Launch
import proofs.«153592_j83202106458340_1_alg».proof.Proof.Gen.Kernel.Skeleton
import proofs.«153592_j83202106458340_1_alg».proof.Proof.Gen.Kernel.Points
import proofs.«153592_j83202106458340_1_alg».proof.Proof.WordBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 3: the body's run on its staging buffers -/

set_option maxHeartbeats 1000000 in
/-- The body of call 3 on whole staging buffers: with every input buffer owned at contents `x_w` and the output
    buffer owned at any contents, it runs to the continuation with the inputs unchanged and the output buffer holding
    `out3_5` of the inputs. The body reads each input block whole, reads the output block once without using the
    value, and stores its value of the inputs over the whole output block; that one store covers the block. -/
theorem sound_kernel3 (c : Dev nD) (E : Set ℕ) (i : grid3.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S32 .f32) (harg4 : arg4.IsWhole) (arg5 : Memref sig .tc .vmem S32 .f32) (harg5 : arg5.IsWhole) (arg6 : Memref sig .tc .vmem S5000x32 .f32) (harg6 : arg6.IsWhole)
    (x0 : Vec F S5000x32 .f32) (x1 : Vec F S5000x32 .f32) (x2 : Vec F S5000x32 .f32) (x3 : Vec F S32 .f32) (x4 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- What the body of call 3 is entered with at point `t`: the call's invariant, what is owed, and every window's
    current staging buffer at what the record says it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, with every buffer at what the record says it holds after the body. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the body's triple applies; the invariant and what
    is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 3, at every point. -/
theorem body_obligation3 (c : Dev nD) : BodyObligation (dat3 (F := F) V c) (defs₀ (F := F)) Variants.none () Set.univ := fun t => by
  rw [bigSep_W3, bigSep_W3]
  exact sound_body3 V c t

end Cert.Kernel.Pipe

end
-- ==== Proof.WordBodies.lean ====
/- The four calls' body obligations, gathered. -/
import proofs.«153592_j83202106458340_1_alg».proof.Proof.WordBody0
import proofs.«153592_j83202106458340_1_alg».proof.Proof.WordBody1
import proofs.«153592_j83202106458340_1_alg».proof.Proof.WordBody2
import proofs.«153592_j83202106458340_1_alg».proof.Proof.WordBody3
-- ==== Proof.WordChain.lean ====
/-
  The whole program as a chain of items: a stretch of host operations, then a pipelined call, four times over. This
  module follows every buffer through the chain. `U1 … U8` are the buffer contents after each item: a host stretch
  maps the contents by its operations; a call changes exactly one array, its output, to what its 20 blocks leave
  there (`res0 … res3`), and leaves every other buffer alone. Each call is then stated as one step of the chain —
  entered with all buffers at `U(2K+1)`, left with them at `U(2K+2)` — and the chain is run from the launch to the
  return: every execution terminates and ends with every buffer at `U8`, in particular each argument as launched.
-/
import proofs.«153592_j83202106458340_1_alg».proof.Proof.WordBlocks
import proofs.«153592_j83202106458340_1_alg».proof.Proof.WordBodies
import proofs.«153592_j83202106458340_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents after each item -/

/-- A family of contents read at the calls' own references. -/
abbrev onRefs (W : Dev nD → Valuation τ sig (Elt F)) : (c : Dev nD) → (b : Ref sig .tc) → Buf (Elt F) ((c : Thread nD τ).loc b) :=
  fun c b => W c b

/-- After the first host stretch. -/
def U1 (c : Dev nD) : Valuation τ sig (Elt F) := StableHlo.after hostOps0 (Gen.V0 m c)
/-- What call 0 leaves in its output array: its 20 blocks written back in turn. -/
def res0 (c : Dev nD) : Buf (Elt F) ((c : Thread nD τ).loc main_v4) := (dat0 (onRefs (U1 m)) c).arrAt 3 cfg0.N
/-- After call 0: its output array replaced, nothing else touched. -/
def U2 (c : Dev nD) : Valuation τ sig (Elt F) := Function.update (U1 m c) main_v4 (res0 m c)
/-- After the next host stretch. -/
def U3 (c : Dev nD) : Valuation τ sig (Elt F) := StableHlo.after hostOps1 (U2 m c)
/-- What call 1 leaves in its output array: its 20 blocks written back in turn. -/
def res1 (c : Dev nD) : Buf (Elt F) ((c : Thread nD τ).loc main_v34) := (dat1 (onRefs (U3 m)) c).arrAt 5 cfg1.N
/-- After call 1: its output array replaced, nothing else touched. -/
def U4 (c : Dev nD) : Valuation τ sig (Elt F) := Function.update (U3 m c) main_v34 (res1 m c)
/-- After the next host stretch. -/
def U5 (c : Dev nD) : Valuation τ sig (Elt F) := StableHlo.after hostOps2 (U4 m c)
/-- What call 2 leaves in its output array: its 20 blocks written back in turn. -/
def res2 (c : Dev nD) : Buf (Elt F) ((c : Thread nD τ).loc main_v39) := (dat2 (onRefs (U5 m)) c).arrAt 3 cfg2.N
/-- After call 2: its output array replaced, nothing else touched. -/
def U6 (c : Dev nD) : Valuation τ sig (Elt F) := Function.update (U5 m c) main_v39 (res2 m c)
/-- After the next host stretch. -/
def U7 (c : Dev nD) : Valuation τ sig (Elt F) := StableHlo.after hostOps3 (U6 m c)
/-- What call 3 leaves in its output array: its 20 blocks written back in turn. -/
def res3 (c : Dev nD) : Buf (Elt F) ((c : Thread nD τ).loc main_v69) := (dat3 (onRefs (U7 m)) c).arrAt 5 cfg3.N
/-- After call 3: its output array replaced, nothing else touched. -/
def U8 (c : Dev nD) : Valuation τ sig (Elt F) := Function.update (U7 m c) main_v69 (res3 m c)

/-- The calls' outputs, in the form the host side of the chain is stated over. -/
def outs : Outs (F := F) := fun J r c =>
  if J = 2 then U2 m c r else if J = 4 then U4 m c r else if J = 6 then U6 m c r else U8 m c r

theorem outs2 (c : Dev nD) : outs m 2 main_v4 c = res0 m c := by
  unfold outs; rw [if_pos rfl]; unfold U2; exact Function.update_self _ _ _
theorem outs4 (c : Dev nD) : outs m 4 main_v34 c = res1 m c := by
  unfold outs; rw [if_neg (by decide), if_pos rfl]; unfold U4; exact Function.update_self _ _ _
theorem outs6 (c : Dev nD) : outs m 6 main_v39 c = res2 m c := by
  unfold outs; rw [if_neg (by decide), if_neg (by decide), if_pos rfl]; unfold U6; exact Function.update_self _ _ _
theorem outs8 (c : Dev nD) : outs m 8 main_v69 c = res3 m c := by
  unfold outs; rw [if_neg (by decide), if_neg (by decide), if_neg (by decide)]; unfold U8; exact Function.update_self _ _ _

/-- The host side's own chain of contents, over those outputs, is this one. -/
theorem V1_eq (c : Dev nD) : Gen.V1 m c = U1 m c := rfl
theorem V2_eq (c : Dev nD) : Gen.V2 m (outs m) c = U2 m c := by
  show Function.update (Gen.V1 m c) main_v4 (outs m 2 main_v4 c) = _
  rw [outs2]; rfl
theorem V3_eq (c : Dev nD) : Gen.V3 m (outs m) c = U3 m c := by
  show StableHlo.after hostOps1 (Gen.V2 m (outs m) c) = _
  rw [V2_eq]; rfl
theorem V4_eq (c : Dev nD) : Gen.V4 m (outs m) c = U4 m c := by
  show Function.update (Gen.V3 m (outs m) c) main_v34 (outs m 4 main_v34 c) = _
  rw [outs4, V3_eq]; rfl
theorem V5_eq (c : Dev nD) : Gen.V5 m (outs m) c = U5 m c := by
  show StableHlo.after hostOps2 (Gen.V4 m (outs m) c) = _
  rw [V4_eq]; rfl
theorem V6_eq (c : Dev nD) : Gen.V6 m (outs m) c = U6 m c := by
  show Function.update (Gen.V5 m (outs m) c) main_v39 (outs m 6 main_v39 c) = _
  rw [outs6, V5_eq]; rfl
theorem V7_eq (c : Dev nD) : Gen.V7 m (outs m) c = U7 m c := by
  show StableHlo.after hostOps3 (Gen.V6 m (outs m) c) = _
  rw [V6_eq]; rfl
theorem V8_eq (c : Dev nD) : Gen.V8 m (outs m) c = U8 m c := by
  show Function.update (Gen.V7 m (outs m) c) main_v69 (outs m 8 main_v69 c) = _
  rw [outs8, V7_eq]; rfl

/-! ## Each call changes its output array and nothing else -/

theorem U2_of_ne (c : Dev nD) (b : Ref sig .tc) (hb : b ≠ main_v4) : U2 m c b = U1 m c b := by
  unfold U2
  exact Function.update_of_ne (StableHlo.devRef_ne_of_ne hb : (Proc.devRef .tc b : DevRef τ sig) ≠ Proc.devRef .tc main_v4) _ _
theorem U2_out (c : Dev nD) : U2 m c main_v4 = res0 m c := by
  unfold U2; exact Function.update_self _ _ _
set_option maxHeartbeats 2000000 in
/-- At call 0's exit each of its arrays holds what the pipeline leaves: an input array what it held, the output the
    blocks written back. -/
theorem hF0 (c : Dev nD) (w : Fin cfg0.W) :
    (dat0 (onRefs (U1 m)) c).arrAt w cfg0.N = onRefs (U2 m) c (Pipeline.arrRef spec0 w) := by
  match w with
  | ⟨0, _⟩ => exact (((dat0 (onRefs (U1 m)) c).arrAt_in 0 rfl _).trans (A_eq0 (onRefs (U1 m)) c 0)).trans (U2_of_ne m c main_arg0 (by decide)).symm
  | ⟨1, _⟩ => exact (((dat0 (onRefs (U1 m)) c).arrAt_in 1 rfl _).trans (A_eq0 (onRefs (U1 m)) c 1)).trans (U2_of_ne m c main_v0 (by decide)).symm
  | ⟨2, _⟩ => exact (((dat0 (onRefs (U1 m)) c).arrAt_in 2 rfl _).trans (A_eq0 (onRefs (U1 m)) c 2)).trans (U2_of_ne m c main_v3 (by decide)).symm
  | ⟨3, _⟩ => exact (U2_out m c).symm
theorem hrest0 (c : Dev nD) : ∀ b, b ∉ Finset.univ.image (Pipeline.arrRef spec0) → onRefs (U2 m) c b = onRefs (U1 m) c b :=
  fun b hb => U2_of_ne m c b fun e => hb (Finset.mem_image.mpr ⟨3, Finset.mem_univ _, e.symm⟩)

theorem U4_of_ne (c : Dev nD) (b : Ref sig .tc) (hb : b ≠ main_v34) : U4 m c b = U3 m c b := by
  unfold U4
  exact Function.update_of_ne (StableHlo.devRef_ne_of_ne hb : (Proc.devRef .tc b : DevRef τ sig) ≠ Proc.devRef .tc main_v34) _ _
theorem U4_out (c : Dev nD) : U4 m c main_v34 = res1 m c := by
  unfold U4; exact Function.update_self _ _ _
set_option maxHeartbeats 2000000 in
/-- At call 1's exit each of its arrays holds what the pipeline leaves: an input array what it held, the output the
    blocks written back. -/
theorem hF1 (c : Dev nD) (w : Fin cfg1.W) :
    (dat1 (onRefs (U3 m)) c).arrAt w cfg1.N = onRefs (U4 m) c (Pipeline.arrRef spec1 w) := by
  match w with
  | ⟨0, _⟩ => exact (((dat1 (onRefs (U3 m)) c).arrAt_in 0 rfl _).trans (A_eq1 (onRefs (U3 m)) c 0)).trans (U4_of_ne m c main_v5 (by decide)).symm
  | ⟨1, _⟩ => exact (((dat1 (onRefs (U3 m)) c).arrAt_in 1 rfl _).trans (A_eq1 (onRefs (U3 m)) c 1)).trans (U4_of_ne m c main_v20 (by decide)).symm
  | ⟨2, _⟩ => exact (((dat1 (onRefs (U3 m)) c).arrAt_in 2 rfl _).trans (A_eq1 (onRefs (U3 m)) c 2)).trans (U4_of_ne m c main_v33 (by decide)).symm
  | ⟨3, _⟩ => exact (((dat1 (onRefs (U3 m)) c).arrAt_in 3 rfl _).trans (A_eq1 (onRefs (U3 m)) c 3)).trans (U4_of_ne m c main_arg8 (by decide)).symm
  | ⟨4, _⟩ => exact (((dat1 (onRefs (U3 m)) c).arrAt_in 4 rfl _).trans (A_eq1 (onRefs (U3 m)) c 4)).trans (U4_of_ne m c main_arg10 (by decide)).symm
  | ⟨5, _⟩ => exact (U4_out m c).symm
theorem hrest1 (c : Dev nD) : ∀ b, b ∉ Finset.univ.image (Pipeline.arrRef spec1) → onRefs (U4 m) c b = onRefs (U3 m) c b :=
  fun b hb => U4_of_ne m c b fun e => hb (Finset.mem_image.mpr ⟨5, Finset.mem_univ _, e.symm⟩)

theorem U6_of_ne (c : Dev nD) (b : Ref sig .tc) (hb : b ≠ main_v39) : U6 m c b = U5 m c b := by
  unfold U6
  exact Function.update_of_ne (StableHlo.devRef_ne_of_ne hb : (Proc.devRef .tc b : DevRef τ sig) ≠ Proc.devRef .tc main_v39) _ _
theorem U6_out (c : Dev nD) : U6 m c main_v39 = res2 m c := by
  unfold U6; exact Function.update_self _ _ _
set_option maxHeartbeats 2000000 in
/-- At call 2's exit each of its arrays holds what the pipeline leaves: an input array what it held, the output the
    blocks written back. -/
theorem hF2 (c : Dev nD) (w : Fin cfg2.W) :
    (dat2 (onRefs (U5 m)) c).arrAt w cfg2.N = onRefs (U6 m) c (Pipeline.arrRef spec2 w) := by
  match w with
  | ⟨0, _⟩ => exact (((dat2 (onRefs (U5 m)) c).arrAt_in 0 rfl _).trans (A_eq2 (onRefs (U5 m)) c 0)).trans (U6_of_ne m c main_v34 (by decide)).symm
  | ⟨1, _⟩ => exact (((dat2 (onRefs (U5 m)) c).arrAt_in 1 rfl _).trans (A_eq2 (onRefs (U5 m)) c 1)).trans (U6_of_ne m c main_v35 (by decide)).symm
  | ⟨2, _⟩ => exact (((dat2 (onRefs (U5 m)) c).arrAt_in 2 rfl _).trans (A_eq2 (onRefs (U5 m)) c 2)).trans (U6_of_ne m c main_v38 (by decide)).symm
  | ⟨3, _⟩ => exact (U6_out m c).symm
theorem hrest2 (c : Dev nD) : ∀ b, b ∉ Finset.univ.image (Pipeline.arrRef spec2) → onRefs (U6 m) c b = onRefs (U5 m) c b :=
  fun b hb => U6_of_ne m c b fun e => hb (Finset.mem_image.mpr ⟨3, Finset.mem_univ _, e.symm⟩)

theorem U8_of_ne (c : Dev nD) (b : Ref sig .tc) (hb : b ≠ main_v69) : U8 m c b = U7 m c b := by
  unfold U8
  exact Function.update_of_ne (StableHlo.devRef_ne_of_ne hb : (Proc.devRef .tc b : DevRef τ sig) ≠ Proc.devRef .tc main_v69) _ _
theorem U8_out (c : Dev nD) : U8 m c main_v69 = res3 m c := by
  unfold U8; exact Function.update_self _ _ _
set_option maxHeartbeats 2000000 in
/-- At call 3's exit each of its arrays holds what the pipeline leaves: an input array what it held, the output the
    blocks written back. -/
theorem hF3 (c : Dev nD) (w : Fin cfg3.W) :
    (dat3 (onRefs (U7 m)) c).arrAt w cfg3.N = onRefs (U8 m) c (Pipeline.arrRef spec3 w) := by
  match w with
  | ⟨0, _⟩ => exact (((dat3 (onRefs (U7 m)) c).arrAt_in 0 rfl _).trans (A_eq3 (onRefs (U7 m)) c 0)).trans (U8_of_ne m c main_v40 (by decide)).symm
  | ⟨1, _⟩ => exact (((dat3 (onRefs (U7 m)) c).arrAt_in 1 rfl _).trans (A_eq3 (onRefs (U7 m)) c 1)).trans (U8_of_ne m c main_v55 (by decide)).symm
  | ⟨2, _⟩ => exact (((dat3 (onRefs (U7 m)) c).arrAt_in 2 rfl _).trans (A_eq3 (onRefs (U7 m)) c 2)).trans (U8_of_ne m c main_v68 (by decide)).symm
  | ⟨3, _⟩ => exact (((dat3 (onRefs (U7 m)) c).arrAt_in 3 rfl _).trans (A_eq3 (onRefs (U7 m)) c 3)).trans (U8_of_ne m c main_arg14 (by decide)).symm
  | ⟨4, _⟩ => exact (((dat3 (onRefs (U7 m)) c).arrAt_in 4 rfl _).trans (A_eq3 (onRefs (U7 m)) c 4)).trans (U8_of_ne m c main_arg16 (by decide)).symm
  | ⟨5, _⟩ => exact (U8_out m c).symm
theorem hrest3 (c : Dev nD) : ∀ b, b ∉ Finset.univ.image (Pipeline.arrRef spec3) → onRefs (U8 m) c b = onRefs (U7 m) c b :=
  fun b hb => U8_of_ne m c b fun e => hb (Finset.mem_image.mpr ⟨5, Finset.mem_univ _, e.symm⟩)

/-! ## The records and what rides beside the buffers -/

/-- Every call's record, each at the contents it is entered from. -/
def pdats : (p : Fin 4) → (c : Dev nD) → Dat τ (Elt F) Unit ℕ (Pipeline.UD sig nD τ) ℕ (Pipeline.pin (pcfgs (F := F)) adm p) c
  | ⟨0, _⟩ => fun c => dat0 (onRefs (U1 m)) c
  | ⟨1, _⟩ => fun c => dat1 (onRefs (U3 m)) c
  | ⟨2, _⟩ => fun c => dat2 (onRefs (U5 m)) c
  | ⟨3, _⟩ => fun c => dat3 (onRefs (U7 m)) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register and owes nothing. -/
abbrev R (c : Dev nD) : sProp 𝕄 := iprop((∃ r, prngReg c r) ∗ ∃ W, owes (c : Thread nD τ) (0 : CellTallies nD τ sig Unit) W)

set_option backward.isDefEq.respectTransparency.types false in
/-- Call 0 as a step of the chain: entered with every buffer at `U1`, left with every buffer at `U2`. Its arrays
    are taken out of the buffers at entry and put back at exit; the generator register passes through the call's
    invariant; nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (onRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (onRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (onRefs (U1 m) c) (onRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a step of the chain: entered with every buffer at `U3`, left with every buffer at `U4`. Its arrays
    are taken out of the buffers at entry and put back at exit; the generator register passes through the call's
    invariant; nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (onRefs (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (onRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (onRefs (U3 m) c) (onRefs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a step of the chain: entered with every buffer at `U5`, left with every buffer at `U6`. Its arrays
    are taken out of the buffers at entry and put back at exit; the generator register passes through the call's
    invariant; nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (onRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (onRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (onRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (onRefs (U5 m) c) (onRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a step of the chain: entered with every buffer at `U7`, left with every buffer at `U8`. Its arrays
    are taken out of the buffers at entry and put back at exit; the generator register passes through the call's
    invariant; nothing is owed; the call has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (onRefs (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (onRefs (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (onRefs (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (onRefs (U7 m) c) (onRefs (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Pipe

end
-- ==== Proof.WordRun.lean ====
/-
  The run of the whole program. From any launch memory with zero counters, every weakly fair execution walks the
  chain of items — a host stretch, a pipelined call, four times — to the end, faulting nowhere, and ends with every
  buffer holding the chain's last contents `U8`: the result array at what call 3's blocks leave, and each of the
  seventeen argument arrays as launched, since no stretch writes an argument and no call has one as its output.
-/
import proofs.«153592_j83202106458340_1_alg».proof.Proof.WordChain
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- What rides beside the buffers between any two items. -/
abbrev E : Fin 5 → Dev nD → sProp 𝕄 := fun _ c => R c

/-- An unscoped reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The items in order, on core `c`. -/
abbrev items (c : Dev nD) := Gen.segs m (outs m) 𝒱₀ L lv (E (F := F)) () (pdats m) (reg0 m) (reg1 m) (reg2 m) (reg3 m) c

set_option backward.isDefEq.respectTransparency.types false in
/-- Every execution ends with every buffer at the chain's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U8 m c b) := by
  refine Pipeline.θ_run_regions_kit_dev (pcfgs (F := F)) adm (pdats m) () cellOf_inj embL defs₀ 𝒱₀ L lv m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (U8 m c) ∗ ∃ r, prngReg c r))
    (hch := fun c => ⟨.rfl,
      .rfl,
      (by show (iprop(StableHlo.held (c : Thread nD τ) (Pipeline.ucRefs τ sig) (U2 m c) ∗ R c) : sProp 𝕄) ⊢ iprop(StableHlo.held (c : Thread nD τ) (Pipeline.ucRefs τ sig) (Gen.V2 m (outs m) c) ∗ R c); rw [V2_eq]),
      (by show (iprop(StableHlo.held (c : Thread nD τ) (Pipeline.ucRefs τ sig) (Gen.V3 m (outs m) c) ∗ R c) : sProp 𝕄) ⊢ iprop(StableHlo.held (c : Thread nD τ) (Pipeline.ucRefs τ sig) (U3 m c) ∗ R c); rw [V3_eq]),
      (by show (iprop(StableHlo.held (c : Thread nD τ) (Pipeline.ucRefs τ sig) (U4 m c) ∗ R c) : sProp 𝕄) ⊢ iprop(StableHlo.held (c : Thread nD τ) (Pipeline.ucRefs τ sig) (Gen.V4 m (outs m) c) ∗ R c); rw [V4_eq]),
      (by show (iprop(StableHlo.held (c : Thread nD τ) (Pipeline.ucRefs τ sig) (Gen.V5 m (outs m) c) ∗ R c) : sProp 𝕄) ⊢ iprop(StableHlo.held (c : Thread nD τ) (Pipeline.ucRefs τ sig) (U5 m c) ∗ R c); rw [V5_eq]),
      (by show (iprop(StableHlo.held (c : Thread nD τ) (Pipeline.ucRefs τ sig) (U6 m c) ∗ R c) : sProp 𝕄) ⊢ iprop(StableHlo.held (c : Thread nD τ) (Pipeline.ucRefs τ sig) (Gen.V6 m (outs m) c) ∗ R c); rw [V6_eq]),
      (by show (iprop(StableHlo.held (c : Thread nD τ) (Pipeline.ucRefs τ sig) (Gen.V7 m (outs m) c) ∗ R c) : sProp 𝕄) ⊢ iprop(StableHlo.held (c : Thread nD τ) (Pipeline.ucRefs τ sig) (U7 m c) ∗ R c); rw [V7_eq]),
      (by
        show (iprop(StableHlo.held (c : Thread nD τ) (Pipeline.ucRefs τ sig) (U8 m c) ∗ R c) : sProp 𝕄) ⊢ iprop((StableHlo.held (c : Thread nD τ) (Pipeline.ucRefs τ sig) (U8 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U8 m c b)
    (hfin := fun c s' => by
      iintro ⟨⟨Hh, -⟩, HSI⟩
      unfold StableHlo.held
      imodintro
      iapply (pointsTo_read_all (Pipeline.ucRefs τ sig) (fun b => (((c : Thread nD τ)).1, b)) (U8 m c) s')
      isplitl [Hh] <;> iassumption)
    (hQ := fun s h => h)

/-- An argument array at the end of the chain is the launched one. -/
theorem U8_arg (c : Dev nD) (a : Ref sig .tc) (h : Gen.V8 m (outs m) c a = m ((c : Thread nD τ).loc a)) :
    U8 m c a = m ((c : Thread nD τ).loc a) := by rw [← V8_eq]; exact h

/-- The frame: every execution terminates and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (U8_arg m c main_arg0 (Gen.V8_main_arg0 m (outs m) c)),
     (h c _ (mem_uc main_arg1 (by decide))).trans (U8_arg m c main_arg1 (Gen.V8_main_arg1 m (outs m) c)),
     (h c _ (mem_uc main_arg2 (by decide))).trans (U8_arg m c main_arg2 (Gen.V8_main_arg2 m (outs m) c)),
     (h c _ (mem_uc main_arg3 (by decide))).trans (U8_arg m c main_arg3 (Gen.V8_main_arg3 m (outs m) c)),
     (h c _ (mem_uc main_arg4 (by decide))).trans (U8_arg m c main_arg4 (Gen.V8_main_arg4 m (outs m) c)),
     (h c _ (mem_uc main_arg5 (by decide))).trans (U8_arg m c main_arg5 (Gen.V8_main_arg5 m (outs m) c)),
     (h c _ (mem_uc main_arg6 (by decide))).trans (U8_arg m c main_arg6 (Gen.V8_main_arg6 m (outs m) c)),
     (h c _ (mem_uc main_arg7 (by decide))).trans (U8_arg m c main_arg7 (Gen.V8_main_arg7 m (outs m) c)),
     (h c _ (mem_uc main_arg8 (by decide))).trans (U8_arg m c main_arg8 (Gen.V8_main_arg8 m (outs m) c)),
     (h c _ (mem_uc main_arg9 (by decide))).trans (U8_arg m c main_arg9 (Gen.V8_main_arg9 m (outs m) c)),
     (h c _ (mem_uc main_arg10 (by decide))).trans (U8_arg m c main_arg10 (Gen.V8_main_arg10 m (outs m) c)),
     (h c _ (mem_uc main_arg11 (by decide))).trans (U8_arg m c main_arg11 (Gen.V8_main_arg11 m (outs m) c)),
     (h c _ (mem_uc main_arg12 (by decide))).trans (U8_arg m c main_arg12 (Gen.V8_main_arg12 m (outs m) c)),
     (h c _ (mem_uc main_arg13 (by decide))).trans (U8_arg m c main_arg13 (Gen.V8_main_arg13 m (outs m) c)),
     (h c _ (mem_uc main_arg14 (by decide))).trans (U8_arg m c main_arg14 (Gen.V8_main_arg14 m (outs m) c)),
     (h c _ (mem_uc main_arg15 (by decide))).trans (U8_arg m c main_arg15 (Gen.V8_main_arg15 m (outs m) c)),
     (h c _ (mem_uc main_arg16 (by decide))).trans (U8_arg m c main_arg16 (Gen.V8_main_arg16 m (outs m) c))⟩)
    (run_all m ρ)

/-- The run with the result named: the result array ends at what call 3 leaves, every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v69) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v69 (by decide))).trans (U8_out m c),
     (h c _ (mem_uc main_arg0 (by decide))).trans (U8_arg m c main_arg0 (Gen.V8_main_arg0 m (outs m) c)),
     (h c _ (mem_uc main_arg1 (by decide))).trans (U8_arg m c main_arg1 (Gen.V8_main_arg1 m (outs m) c)),
     (h c _ (mem_uc main_arg2 (by decide))).trans (U8_arg m c main_arg2 (Gen.V8_main_arg2 m (outs m) c)),
     (h c _ (mem_uc main_arg3 (by decide))).trans (U8_arg m c main_arg3 (Gen.V8_main_arg3 m (outs m) c)),
     (h c _ (mem_uc main_arg4 (by decide))).trans (U8_arg m c main_arg4 (Gen.V8_main_arg4 m (outs m) c)),
     (h c _ (mem_uc main_arg5 (by decide))).trans (U8_arg m c main_arg5 (Gen.V8_main_arg5 m (outs m) c)),
     (h c _ (mem_uc main_arg6 (by decide))).trans (U8_arg m c main_arg6 (Gen.V8_main_arg6 m (outs m) c)),
     (h c _ (mem_uc main_arg7 (by decide))).trans (U8_arg m c main_arg7 (Gen.V8_main_arg7 m (outs m) c)),
     (h c _ (mem_uc main_arg8 (by decide))).trans (U8_arg m c main_arg8 (Gen.V8_main_arg8 m (outs m) c)),
     (h c _ (mem_uc main_arg9 (by decide))).trans (U8_arg m c main_arg9 (Gen.V8_main_arg9 m (outs m) c)),
     (h c _ (mem_uc main_arg10 (by decide))).trans (U8_arg m c main_arg10 (Gen.V8_main_arg10 m (outs m) c)),
     (h c _ (mem_uc main_arg11 (by decide))).trans (U8_arg m c main_arg11 (Gen.V8_main_arg11 m (outs m) c)),
     (h c _ (mem_uc main_arg12 (by decide))).trans (U8_arg m c main_arg12 (Gen.V8_main_arg12 m (outs m) c)),
     (h c _ (mem_uc main_arg13 (by decide))).trans (U8_arg m c main_arg13 (Gen.V8_main_arg13 m (outs m) c)),
     (h c _ (mem_uc main_arg14 (by decide))).trans (U8_arg m c main_arg14 (Gen.V8_main_arg14 m (outs m) c)),
     (h c _ (mem_uc main_arg15 (by decide))).trans (U8_arg m c main_arg15 (Gen.V8_main_arg15 m (outs m) c)),
     (h c _ (mem_uc main_arg16 (by decide))).trans (U8_arg m c main_arg16 (Gen.V8_main_arg16 m (outs m) c))⟩)
    (run_all m ρ)

end Cert.Kernel.Pipe

end
-- ==== Proof.IdealBlocks.lean ====
/-
  The four pipelined calls of this program, each read as a map on blocks. A call walks a grid of 20 points; at point
  `t` every input window holds one block of its array (5000 consecutive rows of a tall matrix, or a whole small matrix
  or vector that never moves), the body computes the output window's block from those blocks alone, and the block is
  written back to rows 5000·t … 5000·t + 4999 of the output array. This module names, per call: the block a window
  shows at a point (`iblkK`), the block the body leaves in the output window as a function of the input blocks
  (`outK_w`: the body's single store over the whole block), and the record of what every window's buffer holds
  after each point (`datK`). Calls 0 and 2 are a block of rows times a weight matrix plus a bias row; calls 1 and 3
  add three blocks, two of them shifted by a bias row. Everything here is stated for any float instance.
-/
import proofs.«153592_j83202106458340_1_alg».proof.Proof.Gen.KernelIdeal.Launch
import proofs.«153592_j83202106458340_1_alg».proof.Proof.Gen.KernelIdeal.Skeleton
import proofs.«153592_j83202106458340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The buffer contents a call is entered from: one array per reference, per core.
variable (V : (c : Dev nD) → (b : Ref sig .tc) → Buf (Elt F) ((c : Thread nD τ).loc b))

/-! # Call 0: a block of 5000 rows times the whole weight matrix plus the bias row -/

/-- The block window `w` of call 0 shows at point `t`, cut out of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the block was fetched at that point or has
    stayed since an earlier one (its index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds its block at every point, whether the block was fetched at that point or has
    stayed since an earlier one (its index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds its block at every point, whether the block was fetched at that point or has
    stayed since an earlier one (its index has not moved). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S5000x128 := Rect.unit (s := S5000x128) ![0, 0] S5000x128.size inb_S5000x128_S5000x128_0_0
abbrev r0_1 : Rect S128x192 := Rect.unit (s := S128x192) ![0, 0] S128x192.size inb_S128x192_S128x192_0_0
abbrev r0_2 : Rect S192 := Rect.unit (s := S192) ![0] S192.size inb_S192_S192_0
abbrev r0_3 : Rect S5000x192 := Rect.unit (s := S5000x192) ![0, 0] S5000x192.size inb_S5000x192_S5000x192_0_0

/-- What the body leaves in the output window: its one store, over the whole block, of the body's value of the
    input blocks. -/
def out0_3 (x0 : Vec F S5000x128 .f32) (x1 : Vec F S128x192 .f32) (x2 : Vec F S192 .f32) : Vec F S5000x192 .f32 :=
  View.canon [⟨r0_3, k0_pay1 (View.ld x0 r0_0) (View.ld x1 r0_1) (View.ld x2 r0_2)⟩]

/-- That store covers the block. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

/-- Call 0's record on core `c`: the arrays as found; after the body at point `t` every input window still shows
    its block and the output window holds the body's value of those blocks; nothing is owed between points. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! # Call 1: the sum of three blocks of 5000 rows, the second and third each shifted by its bias row -/

/-- The block window `w` of call 1 shows at point `t`, cut out of the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the block was fetched at that point or has
    stayed since an earlier one (its index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds its block at every point, whether the block was fetched at that point or has
    stayed since an earlier one (its index has not moved). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S5000x64 := Rect.unit (s := S5000x64) ![0, 0] S5000x64.size inb_S5000x64_S5000x64_0_0
abbrev r1_3 : Rect S64 := Rect.unit (s := S64) ![0] S64.size inb_S64_S64_0
abbrev r1_4 : Rect S64 := Rect.unit (s := S64) ![0] S64.size inb_S64_S64_0
abbrev r1_5 : Rect S5000x64 := Rect.unit (s := S5000x64) ![0, 0] S5000x64.size inb_S5000x64_S5000x64_0_0

/-- What the body leaves in the output window: its one store, over the whole block, of the body's value of the
    input blocks. -/
def out1_5 (x0 : Vec F S5000x64 .f32) (x1 : Vec F S5000x64 .f32) (x2 : Vec F S5000x64 .f32) (x3 : Vec F S64 .f32) (x4 : Vec F S64 .f32) : Vec F S5000x64 .f32 :=
  View.canon [⟨r1_5, k1_pay1 (View.ld x0 r1_0) (View.ld x1 r1_1) (View.ld x3 r1_3) (View.ld x2 r1_2) (View.ld x4 r1_4)⟩]

/-- That store covers the block. -/
theorem cover1_5 (p0 : Vec F S5000x64 .f32) (y : S5000x64.Idx) :
    ∃ pc ∈ ([⟨r1_5, p0⟩] : List (View.Piece (Elt F) S5000x64 .f32)), y ∈ pc.1.set :=
  View.cover_of_tiled [⟨r1_5, p0⟩] S5000x64.size (by rfl) y

/-- Call 1's record on core `c`: the arrays as found; after the body at point `t` every input window still shows
    its block and the output window holds the body's value of those blocks; nothing is owed between points. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! # Call 2: a block of 5000 rows times the whole weight matrix plus the bias row -/

/-- The block window `w` of call 2 shows at point `t`, cut out of the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the block was fetched at that point or has
    stayed since an earlier one (its index has not moved). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds its block at every point, whether the block was fetched at that point or has
    stayed since an earlier one (its index has not moved). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds its block at every point, whether the block was fetched at that point or has
    stayed since an earlier one (its index has not moved). -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S5000x64 := Rect.unit (s := S5000x64) ![0, 0] S5000x64.size inb_S5000x64_S5000x64_0_0
abbrev r2_1 : Rect S64x96 := Rect.unit (s := S64x96) ![0, 0] S64x96.size inb_S64x96_S64x96_0_0
abbrev r2_2 : Rect S96 := Rect.unit (s := S96) ![0] S96.size inb_S96_S96_0
abbrev r2_3 : Rect S5000x96 := Rect.unit (s := S5000x96) ![0, 0] S5000x96.size inb_S5000x96_S5000x96_0_0

/-- What the body leaves in the output window: its one store, over the whole block, of the body's value of the
    input blocks. -/
def out2_3 (x0 : Vec F S5000x64 .f32) (x1 : Vec F S64x96 .f32) (x2 : Vec F S96 .f32) : Vec F S5000x96 .f32 :=
  View.canon [⟨r2_3, k2_pay1 (View.ld x0 r2_0) (View.ld x1 r2_1) (View.ld x2 r2_2)⟩]

/-- That store covers the block. -/
theorem cover2_3 (p0 : Vec F S5000x96 .f32) (y : S5000x96.Idx) :
    ∃ pc ∈ ([⟨r2_3, p0⟩] : List (View.Piece (Elt F) S5000x96 .f32)), y ∈ pc.1.set :=
  View.cover_of_tiled [⟨r2_3, p0⟩] S5000x96.size (by rfl) y

/-- Call 2's record on core `c`: the arrays as found; after the body at point `t` every input window still shows
    its block and the output window holds the body's value of those blocks; nothing is owed between points. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! # Call 3: the sum of three blocks of 5000 rows, the second and third each shifted by its bias row -/

/-- The block window `w` of call 3 shows at point `t`, cut out of the array the call finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the block was fetched at that point or has
    stayed since an earlier one (its index has not moved). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds its block at every point, whether the block was fetched at that point or has
    stayed since an earlier one (its index has not moved). -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S5000x32 := Rect.unit (s := S5000x32) ![0, 0] S5000x32.size inb_S5000x32_S5000x32_0_0
abbrev r3_1 : Rect S5000x32 := Rect.unit (s := S5000x32) ![0, 0] S5000x32.size inb_S5000x32_S5000x32_0_0
abbrev r3_2 : Rect S5000x32 := Rect.unit (s := S5000x32) ![0, 0] S5000x32.size inb_S5000x32_S5000x32_0_0
abbrev r3_3 : Rect S32 := Rect.unit (s := S32) ![0] S32.size inb_S32_S32_0
abbrev r3_4 : Rect S32 := Rect.unit (s := S32) ![0] S32.size inb_S32_S32_0
abbrev r3_5 : Rect S5000x32 := Rect.unit (s := S5000x32) ![0, 0] S5000x32.size inb_S5000x32_S5000x32_0_0

/-- What the body leaves in the output window: its one store, over the whole block, of the body's value of the
    input blocks. -/
def out3_5 (x0 : Vec F S5000x32 .f32) (x1 : Vec F S5000x32 .f32) (x2 : Vec F S5000x32 .f32) (x3 : Vec F S32 .f32) (x4 : Vec F S32 .f32) : Vec F S5000x32 .f32 :=
  View.canon [⟨r3_5, k3_pay1 (View.ld x0 r3_0) (View.ld x1 r3_1) (View.ld x3 r3_3) (View.ld x2 r3_2) (View.ld x4 r3_4)⟩]

/-- That store covers the block. -/
theorem cover3_5 (p0 : Vec F S5000x32 .f32) (y : S5000x32.Idx) :
    ∃ pc ∈ ([⟨r3_5, p0⟩] : List (View.Piece (Elt F) S5000x32 .f32)), y ∈ pc.1.set :=
  View.cover_of_tiled [⟨r3_5, p0⟩] S5000x32.size (by rfl) y

/-- Call 3's record on core `c`: the arrays as found; after the body at point `t` every input window still shows
    its block and the output window holds the body's value of those blocks; nothing is owed between points. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

end Cert.KernelIdeal.Pipe

end
-- ==== Proof.IdealBody0.lean ====
/-
  Call 0's body, run on the staging buffers the pipeline hands it at a grid point: the separation-logic triple of
  the printed body, and from it the obligation the pipeline's record asks of the body at every point.
-/
import proofs.«153592_j83202106458340_1_alg».proof.Proof.Gen.KernelIdeal.Launch
import proofs.«153592_j83202106458340_1_alg».proof.Proof.Gen.KernelIdeal.Skeleton
import proofs.«153592_j83202106458340_1_alg».proof.Proof.Gen.KernelIdeal.Points
import proofs.«153592_j83202106458340_1_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 0: the body's run on its staging buffers -/

set_option maxHeartbeats 1000000 in
/-- The body of call 0 on whole staging buffers: with every input buffer owned at contents `x_w` and the output
    buffer owned at any contents, it runs to the continuation with the inputs unchanged and the output buffer holding
    `out0_3` of the inputs. The body reads each input block whole, reads the output block once without using the
    value, and stores its value of the inputs over the whole output block; that one store covers the block. -/
theorem sound_kernel0 (c : Dev nD) (E : Set ℕ) (i : grid0.Coords) (arg1 : Memref sig .tc .vmem S5000x128 .f32) (harg1 : arg1.IsWhole) (arg2 : Memref sig .tc .vmem S128x192 .f32) (harg2 : arg2.IsWhole) (arg3 : Memref sig .tc .vmem S192 .f32) (harg3 : arg3.IsWhole) (arg4 : Memref sig .tc .vmem S5000x192 .f32) (harg4 : arg4.IsWhole)
    (x0 : Vec F S5000x128 .f32) (x1 : Vec F S128x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- What the body of call 0 is entered with at point `t`: the call's invariant, what is owed, and every window's
    current staging buffer at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same, with every buffer at what the record says it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what
    is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pipe

end
-- ==== Proof.IdealBody1.lean ====
/-
  Call 1's body, run on the staging buffers the pipeline hands it at a grid point: the separation-logic triple of
  the printed body, and from it the obligation the pipeline's record asks of the body at every point.
-/
import proofs.«153592_j83202106458340_1_alg».proof.Proof.Gen.KernelIdeal.Launch
import proofs.«153592_j83202106458340_1_alg».proof.Proof.Gen.KernelIdeal.Skeleton
import proofs.«153592_j83202106458340_1_alg».proof.Proof.Gen.KernelIdeal.Points
import proofs.«153592_j83202106458340_1_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 1: the body's run on its staging buffers -/

set_option maxHeartbeats 1000000 in
/-- The body of call 1 on whole staging buffers: with every input buffer owned at contents `x_w` and the output
    buffer owned at any contents, it runs to the continuation with the inputs unchanged and the output buffer holding
    `out1_5` of the inputs. The body reads each input block whole, reads the output block once without using the
    value, and stores its value of the inputs over the whole output block; that one store covers the block. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64 .f32) (harg4 : arg4.IsWhole) (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S5000x64 .f32) (x3 : Vec F S64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- What the body of call 1 is entered with at point `t`: the call's invariant, what is owed, and every window's
    current staging buffer at what the record says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, with every buffer at what the record says it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pipe

end
-- ==== Proof.IdealBody2.lean ====
/-
  Call 2's body, run on the staging buffers the pipeline hands it at a grid point: the separation-logic triple of
  the printed body, and from it the obligation the pipeline's record asks of the body at every point.
-/
import proofs.«153592_j83202106458340_1_alg».proof.Proof.Gen.KernelIdeal.Launch
import proofs.«153592_j83202106458340_1_alg».proof.Proof.Gen.KernelIdeal.Skeleton
import proofs.«153592_j83202106458340_1_alg».proof.Proof.Gen.KernelIdeal.Points
import proofs.«153592_j83202106458340_1_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 2: the body's run on its staging buffers -/

set_option maxHeartbeats 1000000 in
/-- The body of call 2 on whole staging buffers: with every input buffer owned at contents `x_w` and the output
    buffer owned at any contents, it runs to the continuation with the inputs unchanged and the output buffer holding
    `out2_3` of the inputs. The body reads each input block whole, reads the output block once without using the
    value, and stores its value of the inputs over the whole output block; that one store covers the block. -/
theorem sound_kernel2 (c : Dev nD) (E : Set ℕ) (i : grid2.Coords) (arg1 : Memref sig .tc .vmem S5000x64 .f32) (harg1 : arg1.IsWhole) (arg2 : Memref sig .tc .vmem S64x96 .f32) (harg2 : arg2.IsWhole) (arg3 : Memref sig .tc .vmem S96 .f32) (harg3 : arg3.IsWhole) (arg4 : Memref sig .tc .vmem S5000x96 .f32) (harg4 : arg4.IsWhole)
    (x0 : Vec F S5000x64 .f32) (x1 : Vec F S64x96 .f32) (x2 : Vec F S96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body of call 2 is entered with at point `t`: the call's invariant, what is owed, and every window's
    current staging buffer at what the record says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same, with every buffer at what the record says it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Pipe

end
-- ==== Proof.IdealBody3.lean ====
/-
  Call 3's body, run on the staging buffers the pipeline hands it at a grid point: the separation-logic triple of
  the printed body, and from it the obligation the pipeline's record asks of the body at every point.
-/
import proofs.«153592_j83202106458340_1_alg».proof.Proof.Gen.KernelIdeal.Launch
import proofs.«153592_j83202106458340_1_alg».proof.Proof.Gen.KernelIdeal.Skeleton
import proofs.«153592_j83202106458340_1_alg».proof.Proof.Gen.KernelIdeal.Points
import proofs.«153592_j83202106458340_1_alg».proof.Proof.IdealBlocks
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- The buffer contents a call is entered from: one array per reference, per core.
variable (V : (c : Dev nD) → (b : Ref sig .tc) → Buf (Elt F) ((c : Thread nD τ).loc b))

/-! # Call 3: the body's run on its staging buffers -/

set_option maxHeartbeats 1000000 in
/-- The body of call 3 on whole staging buffers: with every input buffer owned at contents `x_w` and the output
    buffer owned at any contents, it runs to the continuation with the inputs unchanged and the output buffer holding
    `out3_5` of the inputs. The body reads each input block whole, reads the output block once without using the
    value, and stores its value of the inputs over the whole output block; that one store covers the block. -/
theorem sound_kernel3 (c : Dev nD) (E : Set ℕ) (i : grid3.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S32 .f32) (harg4 : arg4.IsWhole) (arg5 : Memref sig .tc .vmem S32 .f32) (harg5 : arg5.IsWhole) (arg6 : Memref sig .tc .vmem S5000x32 .f32) (harg6 : arg6.IsWhole)
    (x0 : Vec F S5000x32 .f32) (x1 : Vec F S5000x32 .f32) (x2 : Vec F S5000x32 .f32) (x3 : Vec F S32 .f32) (x4 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- What the body of call 3 is entered with at point `t`: the call's invariant, what is owed, and every window's
    current staging buffer at what the record says it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, with every buffer at what the record says it holds after the body. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the body's triple applies; the invariant and what
    is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Pipe

end
-- ==== Proof.IdealBodies.lean ====
/- The four calls' body obligations, gathered. -/
import proofs.«153592_j83202106458340_1_alg».proof.Proof.IdealBody0
import proofs.«153592_j83202106458340_1_alg».proof.Proof.IdealBody1
import proofs.«153592_j83202106458340_1_alg».proof.Proof.IdealBody2
import proofs.«153592_j83202106458340_1_alg».proof.Proof.IdealBody3
-- ==== Proof.IdealChain.lean ====
/-
  The whole program as a chain of items: a stretch of host operations, then a pipelined call, four times over. This
  module follows every buffer through the chain. `U1 … U8` are the buffer contents after each item: a host stretch
  maps the contents by its operations; a call changes exactly one array, its output, to what its 20 blocks leave
  there (`res0 … res3`), and leaves every other buffer alone. Each call is then stated as one step of the chain —
  entered with all buffers at `U(2K+1)`, left with them at `U(2K+2)` — and the chain is run from the launch to the
  return: every execution terminates and ends with every buffer at `U8`, in particular each argument as launched.
-/
import proofs.«153592_j83202106458340_1_alg».proof.Proof.IdealBlocks
import proofs.«153592_j83202106458340_1_alg».proof.Proof.IdealBodies
import proofs.«153592_j83202106458340_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents after each item -/

/-- A family of contents read at the calls' own references. -/
abbrev onRefs (W : Dev nD → Valuation τ sig (Elt F)) : (c : Dev nD) → (b : Ref sig .tc) → Buf (Elt F) ((c : Thread nD τ).loc b) :=
  fun c b => W c b

/-- After the first host stretch. -/
def U1 (c : Dev nD) : Valuation τ sig (Elt F) := StableHlo.after hostOps0 (Gen.V0 m c)
/-- What call 0 leaves in its output array: its 20 blocks written back in turn. -/
def res0 (c : Dev nD) : Buf (Elt F) ((c : Thread nD τ).loc main_v4) := (dat0 (onRefs (U1 m)) c).arrAt 3 cfg0.N
/-- After call 0: its output array replaced, nothing else touched. -/
def U2 (c : Dev nD) : Valuation τ sig (Elt F) := Function.update (U1 m c) main_v4 (res0 m c)
/-- After the next host stretch. -/
def U3 (c : Dev nD) : Valuation τ sig (Elt F) := StableHlo.after hostOps1 (U2 m c)
/-- What call 1 leaves in its output array: its 20 blocks written back in turn. -/
def res1 (c : Dev nD) : Buf (Elt F) ((c : Thread nD τ).loc main_v34) := (dat1 (onRefs (U3 m)) c).arrAt 5 cfg1.N
/-- After call 1: its output array replaced, nothing else touched. -/
def U4 (c : Dev nD) : Valuation τ sig (Elt F) := Function.update (U3 m c) main_v34 (res1 m c)
/-- After the next host stretch. -/
def U5 (c : Dev nD) : Valuation τ sig (Elt F) := StableHlo.after hostOps2 (U4 m c)
/-- What call 2 leaves in its output array: its 20 blocks written back in turn. -/
def res2 (c : Dev nD) : Buf (Elt F) ((c : Thread nD τ).loc main_v39) := (dat2 (onRefs (U5 m)) c).arrAt 3 cfg2.N
/-- After call 2: its output array replaced, nothing else touched. -/
def U6 (c : Dev nD) : Valuation τ sig (Elt F) := Function.update (U5 m c) main_v39 (res2 m c)
/-- After the next host stretch. -/
def U7 (c : Dev nD) : Valuation τ sig (Elt F) := StableHlo.after hostOps3 (U6 m c)
/-- What call 3 leaves in its output array: its 20 blocks written back in turn. -/
def res3 (c : Dev nD) : Buf (Elt F) ((c : Thread nD τ).loc main_v69) := (dat3 (onRefs (U7 m)) c).arrAt 5 cfg3.N
/-- After call 3: its output array replaced, nothing else touched. -/
def U8 (c : Dev nD) : Valuation τ sig (Elt F) := Function.update (U7 m c) main_v69 (res3 m c)

/-- The calls' outputs, in the form the host side of the chain is stated over. -/
def outs : Outs (F := F) := fun J r c =>
  if J = 2 then U2 m c r else if J = 4 then U4 m c r else if J = 6 then U6 m c r else U8 m c r

theorem outs2 (c : Dev nD) : outs m 2 main_v4 c = res0 m c := by
  unfold outs; rw [if_pos rfl]; unfold U2; exact Function.update_self _ _ _
theorem outs4 (c : Dev nD) : outs m 4 main_v34 c = res1 m c := by
  unfold outs; rw [if_neg (by decide), if_pos rfl]; unfold U4; exact Function.update_self _ _ _
theorem outs6 (c : Dev nD) : outs m 6 main_v39 c = res2 m c := by
  unfold outs; rw [if_neg (by decide), if_neg (by decide), if_pos rfl]; unfold U6; exact Function.update_self _ _ _
theorem outs8 (c : Dev nD) : outs m 8 main_v69 c = res3 m c := by
  unfold outs; rw [if_neg (by decide), if_neg (by decide), if_neg (by decide)]; unfold U8; exact Function.update_self _ _ _

/-- The host side's own chain of contents, over those outputs, is this one. -/
theorem V1_eq (c : Dev nD) : Gen.V1 m c = U1 m c := rfl
theorem V2_eq (c : Dev nD) : Gen.V2 m (outs m) c = U2 m c := by
  show Function.update (Gen.V1 m c) main_v4 (outs m 2 main_v4 c) = _
  rw [outs2]; rfl
theorem V3_eq (c : Dev nD) : Gen.V3 m (outs m) c = U3 m c := by
  show StableHlo.after hostOps1 (Gen.V2 m (outs m) c) = _
  rw [V2_eq]; rfl
theorem V4_eq (c : Dev nD) : Gen.V4 m (outs m) c = U4 m c := by
  show Function.update (Gen.V3 m (outs m) c) main_v34 (outs m 4 main_v34 c) = _
  rw [outs4, V3_eq]; rfl
theorem V5_eq (c : Dev nD) : Gen.V5 m (outs m) c = U5 m c := by
  show StableHlo.after hostOps2 (Gen.V4 m (outs m) c) = _
  rw [V4_eq]; rfl
theorem V6_eq (c : Dev nD) : Gen.V6 m (outs m) c = U6 m c := by
  show Function.update (Gen.V5 m (outs m) c) main_v39 (outs m 6 main_v39 c) = _
  rw [outs6, V5_eq]; rfl
theorem V7_eq (c : Dev nD) : Gen.V7 m (outs m) c = U7 m c := by
  show StableHlo.after hostOps3 (Gen.V6 m (outs m) c) = _
  rw [V6_eq]; rfl
theorem V8_eq (c : Dev nD) : Gen.V8 m (outs m) c = U8 m c := by
  show Function.update (Gen.V7 m (outs m) c) main_v69 (outs m 8 main_v69 c) = _
  rw [outs8, V7_eq]; rfl

/-! ## Each call changes its output array and nothing else -/

theorem U2_of_ne (c : Dev nD) (b : Ref sig .tc) (hb : b ≠ main_v4) : U2 m c b = U1 m c b := by
  unfold U2
  exact Function.update_of_ne (StableHlo.devRef_ne_of_ne hb : (Proc.devRef .tc b : DevRef τ sig) ≠ Proc.devRef .tc main_v4) _ _
theorem U2_out (c : Dev nD) : U2 m c main_v4 = res0 m c := by
  unfold U2; exact Function.update_self _ _ _
set_option maxHeartbeats 2000000 in
/-- At call 0's exit each of its arrays holds what the pipeline leaves: an input array what it held, the output the
    blocks written back. -/
theorem hF0 (c : Dev nD) (w : Fin cfg0.W) :
    (dat0 (onRefs (U1 m)) c).arrAt w cfg0.N = onRefs (U2 m) c (Pipeline.arrRef spec0 w) := by
  match w with
  | ⟨0, _⟩ => exact (((dat0 (onRefs (U1 m)) c).arrAt_in 0 rfl _).trans (A_eq0 (onRefs (U1 m)) c 0)).trans (U2_of_ne m c main_arg0 (by decide)).symm
  | ⟨1, _⟩ => exact (((dat0 (onRefs (U1 m)) c).arrAt_in 1 rfl _).trans (A_eq0 (onRefs (U1 m)) c 1)).trans (U2_of_ne m c main_v0 (by decide)).symm
  | ⟨2, _⟩ => exact (((dat0 (onRefs (U1 m)) c).arrAt_in 2 rfl _).trans (A_eq0 (onRefs (U1 m)) c 2)).trans (U2_of_ne m c main_v3 (by decide)).symm
  | ⟨3, _⟩ => exact (U2_out m c).symm
theorem hrest0 (c : Dev nD) : ∀ b, b ∉ Finset.univ.image (Pipeline.arrRef spec0) → onRefs (U2 m) c b = onRefs (U1 m) c b :=
  fun b hb => U2_of_ne m c b fun e => hb (Finset.mem_image.mpr ⟨3, Finset.mem_univ _, e.symm⟩)

theorem U4_of_ne (c : Dev nD) (b : Ref sig .tc) (hb : b ≠ main_v34) : U4 m c b = U3 m c b := by
  unfold U4
  exact Function.update_of_ne (StableHlo.devRef_ne_of_ne hb : (Proc.devRef .tc b : DevRef τ sig) ≠ Proc.devRef .tc main_v34) _ _
theorem U4_out (c : Dev nD) : U4 m c main_v34 = res1 m c := by
  unfold U4; exact Function.update_self _ _ _
set_option maxHeartbeats 2000000 in
/-- At call 1's exit each of its arrays holds what the pipeline leaves: an input array what it held, the output the
    blocks written back. -/
theorem hF1 (c : Dev nD) (w : Fin cfg1.W) :
    (dat1 (onRefs (U3 m)) c).arrAt w cfg1.N = onRefs (U4 m) c (Pipeline.arrRef spec1 w) := by
  match w with
  | ⟨0, _⟩ => exact (((dat1 (onRefs (U3 m)) c).arrAt_in 0 rfl _).trans (A_eq1 (onRefs (U3 m)) c 0)).trans (U4_of_ne m c main_v5 (by decide)).symm
  | ⟨1, _⟩ => exact (((dat1 (onRefs (U3 m)) c).arrAt_in 1 rfl _).trans (A_eq1 (onRefs (U3 m)) c 1)).trans (U4_of_ne m c main_v20 (by decide)).symm
  | ⟨2, _⟩ => exact (((dat1 (onRefs (U3 m)) c).arrAt_in 2 rfl _).trans (A_eq1 (onRefs (U3 m)) c 2)).trans (U4_of_ne m c main_v33 (by decide)).symm
  | ⟨3, _⟩ => exact (((dat1 (onRefs (U3 m)) c).arrAt_in 3 rfl _).trans (A_eq1 (onRefs (U3 m)) c 3)).trans (U4_of_ne m c main_arg8 (by decide)).symm
  | ⟨4, _⟩ => exact (((dat1 (onRefs (U3 m)) c).arrAt_in 4 rfl _).trans (A_eq1 (onRefs (U3 m)) c 4)).trans (U4_of_ne m c main_arg10 (by decide)).symm
  | ⟨5, _⟩ => exact (U4_out m c).symm
theorem hrest1 (c : Dev nD) : ∀ b, b ∉ Finset.univ.image (Pipeline.arrRef spec1) → onRefs (U4 m) c b = onRefs (U3 m) c b :=
  fun b hb => U4_of_ne m c b fun e => hb (Finset.mem_image.mpr ⟨5, Finset.mem_univ _, e.symm⟩)

theorem U6_of_ne (c : Dev nD) (b : Ref sig .tc) (hb : b ≠ main_v39) : U6 m c b = U5 m c b := by
  unfold U6
  exact Function.update_of_ne (StableHlo.devRef_ne_of_ne hb : (Proc.devRef .tc b : DevRef τ sig) ≠ Proc.devRef .tc main_v39) _ _
theorem U6_out (c : Dev nD) : U6 m c main_v39 = res2 m c := by
  unfold U6; exact Function.update_self _ _ _
set_option maxHeartbeats 2000000 in
/-- At call 2's exit each of its arrays holds what the pipeline leaves: an input array what it held, the output the
    blocks written back. -/
theorem hF2 (c : Dev nD) (w : Fin cfg2.W) :
    (dat2 (onRefs (U5 m)) c).arrAt w cfg2.N = onRefs (U6 m) c (Pipeline.arrRef spec2 w) := by
  match w with
  | ⟨0, _⟩ => exact (((dat2 (onRefs (U5 m)) c).arrAt_in 0 rfl _).trans (A_eq2 (onRefs (U5 m)) c 0)).trans (U6_of_ne m c main_v34 (by decide)).symm
  | ⟨1, _⟩ => exact (((dat2 (onRefs (U5 m)) c).arrAt_in 1 rfl _).trans (A_eq2 (onRefs (U5 m)) c 1)).trans (U6_of_ne m c main_v35 (by decide)).symm
  | ⟨2, _⟩ => exact (((dat2 (onRefs (U5 m)) c).arrAt_in 2 rfl _).trans (A_eq2 (onRefs (U5 m)) c 2)).trans (U6_of_ne m c main_v38 (by decide)).symm
  | ⟨3, _⟩ => exact (U6_out m c).symm
theorem hrest2 (c : Dev nD) : ∀ b, b ∉ Finset.univ.image (Pipeline.arrRef spec2) → onRefs (U6 m) c b = onRefs (U5 m) c b :=
  fun b hb => U6_of_ne m c b fun e => hb (Finset.mem_image.mpr ⟨3, Finset.mem_univ _, e.symm⟩)

theorem U8_of_ne (c : Dev nD) (b : Ref sig .tc) (hb : b ≠ main_v69) : U8 m c b = U7 m c b := by
  unfold U8
  exact Function.update_of_ne (StableHlo.devRef_ne_of_ne hb : (Proc.devRef .tc b : DevRef τ sig) ≠ Proc.devRef .tc main_v69) _ _
theorem U8_out (c : Dev nD) : U8 m c main_v69 = res3 m c := by
  unfold U8; exact Function.update_self _ _ _
set_option maxHeartbeats 2000000 in
/-- At call 3's exit each of its arrays holds what the pipeline leaves: an input array what it held, the output the
    blocks written back. -/
theorem hF3 (c : Dev nD) (w : Fin cfg3.W) :
    (dat3 (onRefs (U7 m)) c).arrAt w cfg3.N = onRefs (U8 m) c (Pipeline.arrRef spec3 w) := by
  match w with
  | ⟨0, _⟩ => exact (((dat3 (onRefs (U7 m)) c).arrAt_in 0 rfl _).trans (A_eq3 (onRefs (U7 m)) c 0)).trans (U8_of_ne m c main_v40 (by decide)).symm
  | ⟨1, _⟩ => exact (((dat3 (onRefs (U7 m)) c).arrAt_in 1 rfl _).trans (A_eq3 (onRefs (U7 m)) c 1)).trans (U8_of_ne m c main_v55 (by decide)).symm
  | ⟨2, _⟩ => exact (((dat3 (onRefs (U7 m)) c).arrAt_in 2 rfl _).trans (A_eq3 (onRefs (U7 m)) c 2)).trans (U8_of_ne m c main_v68 (by decide)).symm
  | ⟨3, _⟩ => exact (((dat3 (onRefs (U7 m)) c).arrAt_in 3 rfl _).trans (A_eq3 (onRefs (U7 m)) c 3)).trans (U8_of_ne m c main_arg14 (by decide)).symm
  | ⟨4, _⟩ => exact (((dat3 (onRefs (U7 m)) c).arrAt_in 4 rfl _).trans (A_eq3 (onRefs (U7 m)) c 4)).trans (U8_of_ne m c main_arg16 (by decide)).symm
  | ⟨5, _⟩ => exact (U8_out m c).symm
theorem hrest3 (c : Dev nD) : ∀ b, b ∉ Finset.univ.image (Pipeline.arrRef spec3) → onRefs (U8 m) c b = onRefs (U7 m) c b :=
  fun b hb => U8_of_ne m c b fun e => hb (Finset.mem_image.mpr ⟨5, Finset.mem_univ _, e.symm⟩)

/-! ## The records and what rides beside the buffers -/

/-- Every call's record, each at the contents it is entered from. -/
def pdats : (p : Fin 4) → (c : Dev nD) → Dat τ (Elt F) Unit ℕ (Pipeline.UD sig nD τ) ℕ (Pipeline.pin (pcfgs (F := F)) adm p) c
  | ⟨0, _⟩ => fun c => dat0 (onRefs (U1 m)) c
  | ⟨1, _⟩ => fun c => dat1 (onRefs (U3 m)) c
  | ⟨2, _⟩ => fun c => dat2 (onRefs (U5 m)) c
  | ⟨3, _⟩ => fun c => dat3 (onRefs (U7 m)) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register and owes nothing. -/
abbrev R (c : Dev nD) : sProp 𝕄 := iprop((∃ r, prngReg c r) ∗ ∃ W, owes (c : Thread nD τ) (0 : CellTallies nD τ sig Unit) W)

set_option backward.isDefEq.respectTransparency.types false in
/-- Call 0 as a step of the chain: entered with every buffer at `U1`, left with every buffer at `U2`. Its arrays
    are taken out of the buffers at entry and put back at exit; the generator register passes through the call's
    invariant; nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (onRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (onRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (onRefs (U1 m) c) (onRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a step of the chain: entered with every buffer at `U3`, left with every buffer at `U4`. Its arrays
    are taken out of the buffers at entry and put back at exit; the generator register passes through the call's
    invariant; nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (onRefs (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (onRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (onRefs (U3 m) c) (onRefs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a step of the chain: entered with every buffer at `U5`, left with every buffer at `U6`. Its arrays
    are taken out of the buffers at entry and put back at exit; the generator register passes through the call's
    invariant; nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (onRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (onRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (onRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (onRefs (U5 m) c) (onRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a step of the chain: entered with every buffer at `U7`, left with every buffer at `U8`. Its arrays
    are taken out of the buffers at entry and put back at exit; the generator register passes through the call's
    invariant; nothing is owed; the call has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (onRefs (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (onRefs (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (onRefs (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (onRefs (U7 m) c) (onRefs (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Pipe

end
-- ==== Proof.IdealRun.lean ====
/-
  The run of the whole program. From any launch memory with zero counters, every weakly fair execution walks the
  chain of items — a host stretch, a pipelined call, four times — to the end, faulting nowhere, and ends with every
  buffer holding the chain's last contents `U8`: the result array at what call 3's blocks leave, and each of the
  seventeen argument arrays as launched, since no stretch writes an argument and no call has one as its output.
-/
import proofs.«153592_j83202106458340_1_alg».proof.Proof.IdealChain
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- What rides beside the buffers between any two items. -/
abbrev E : Fin 5 → Dev nD → sProp 𝕄 := fun _ c => R c

/-- An unscoped reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The items in order, on core `c`. -/
abbrev items (c : Dev nD) := Gen.segs m (outs m) 𝒱₀ L lv (E (F := F)) () (pdats m) (reg0 m) (reg1 m) (reg2 m) (reg3 m) c

set_option backward.isDefEq.respectTransparency.types false in
/-- Every execution ends with every buffer at the chain's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U8 m c b) := by
  refine Pipeline.θ_run_regions_kit_dev (pcfgs (F := F)) adm (pdats m) () cellOf_inj embL defs₀ 𝒱₀ L lv m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (U8 m c) ∗ ∃ r, prngReg c r))
    (hch := fun c => ⟨.rfl,
      .rfl,
      (by show (iprop(StableHlo.held (c : Thread nD τ) (Pipeline.ucRefs τ sig) (U2 m c) ∗ R c) : sProp 𝕄) ⊢ iprop(StableHlo.held (c : Thread nD τ) (Pipeline.ucRefs τ sig) (Gen.V2 m (outs m) c) ∗ R c); rw [V2_eq]),
      (by show (iprop(StableHlo.held (c : Thread nD τ) (Pipeline.ucRefs τ sig) (Gen.V3 m (outs m) c) ∗ R c) : sProp 𝕄) ⊢ iprop(StableHlo.held (c : Thread nD τ) (Pipeline.ucRefs τ sig) (U3 m c) ∗ R c); rw [V3_eq]),
      (by show (iprop(StableHlo.held (c : Thread nD τ) (Pipeline.ucRefs τ sig) (U4 m c) ∗ R c) : sProp 𝕄) ⊢ iprop(StableHlo.held (c : Thread nD τ) (Pipeline.ucRefs τ sig) (Gen.V4 m (outs m) c) ∗ R c); rw [V4_eq]),
      (by show (iprop(StableHlo.held (c : Thread nD τ) (Pipeline.ucRefs τ sig) (Gen.V5 m (outs m) c) ∗ R c) : sProp 𝕄) ⊢ iprop(StableHlo.held (c : Thread nD τ) (Pipeline.ucRefs τ sig) (U5 m c) ∗ R c); rw [V5_eq]),
      (by show (iprop(StableHlo.held (c : Thread nD τ) (Pipeline.ucRefs τ sig) (U6 m c) ∗ R c) : sProp 𝕄) ⊢ iprop(StableHlo.held (c : Thread nD τ) (Pipeline.ucRefs τ sig) (Gen.V6 m (outs m) c) ∗ R c); rw [V6_eq]),
      (by show (iprop(StableHlo.held (c : Thread nD τ) (Pipeline.ucRefs τ sig) (Gen.V7 m (outs m) c) ∗ R c) : sProp 𝕄) ⊢ iprop(StableHlo.held (c : Thread nD τ) (Pipeline.ucRefs τ sig) (U7 m c) ∗ R c); rw [V7_eq]),
      (by
        show (iprop(StableHlo.held (c : Thread nD τ) (Pipeline.ucRefs τ sig) (U8 m c) ∗ R c) : sProp 𝕄) ⊢ iprop((StableHlo.held (c : Thread nD τ) (Pipeline.ucRefs τ sig) (U8 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U8 m c b)
    (hfin := fun c s' => by
      iintro ⟨⟨Hh, -⟩, HSI⟩
      unfold StableHlo.held
      imodintro
      iapply (pointsTo_read_all (Pipeline.ucRefs τ sig) (fun b => (((c : Thread nD τ)).1, b)) (U8 m c) s')
      isplitl [Hh] <;> iassumption)
    (hQ := fun s h => h)

/-- An argument array at the end of the chain is the launched one. -/
theorem U8_arg (c : Dev nD) (a : Ref sig .tc) (h : Gen.V8 m (outs m) c a = m ((c : Thread nD τ).loc a)) :
    U8 m c a = m ((c : Thread nD τ).loc a) := by rw [← V8_eq]; exact h

/-- The frame: every execution terminates and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (U8_arg m c main_arg0 (Gen.V8_main_arg0 m (outs m) c)),
     (h c _ (mem_uc main_arg1 (by decide))).trans (U8_arg m c main_arg1 (Gen.V8_main_arg1 m (outs m) c)),
     (h c _ (mem_uc main_arg2 (by decide))).trans (U8_arg m c main_arg2 (Gen.V8_main_arg2 m (outs m) c)),
     (h c _ (mem_uc main_arg3 (by decide))).trans (U8_arg m c main_arg3 (Gen.V8_main_arg3 m (outs m) c)),
     (h c _ (mem_uc main_arg4 (by decide))).trans (U8_arg m c main_arg4 (Gen.V8_main_arg4 m (outs m) c)),
     (h c _ (mem_uc main_arg5 (by decide))).trans (U8_arg m c main_arg5 (Gen.V8_main_arg5 m (outs m) c)),
     (h c _ (mem_uc main_arg6 (by decide))).trans (U8_arg m c main_arg6 (Gen.V8_main_arg6 m (outs m) c)),
     (h c _ (mem_uc main_arg7 (by decide))).trans (U8_arg m c main_arg7 (Gen.V8_main_arg7 m (outs m) c)),
     (h c _ (mem_uc main_arg8 (by decide))).trans (U8_arg m c main_arg8 (Gen.V8_main_arg8 m (outs m) c)),
     (h c _ (mem_uc main_arg9 (by decide))).trans (U8_arg m c main_arg9 (Gen.V8_main_arg9 m (outs m) c)),
     (h c _ (mem_uc main_arg10 (by decide))).trans (U8_arg m c main_arg10 (Gen.V8_main_arg10 m (outs m) c)),
     (h c _ (mem_uc main_arg11 (by decide))).trans (U8_arg m c main_arg11 (Gen.V8_main_arg11 m (outs m) c)),
     (h c _ (mem_uc main_arg12 (by decide))).trans (U8_arg m c main_arg12 (Gen.V8_main_arg12 m (outs m) c)),
     (h c _ (mem_uc main_arg13 (by decide))).trans (U8_arg m c main_arg13 (Gen.V8_main_arg13 m (outs m) c)),
     (h c _ (mem_uc main_arg14 (by decide))).trans (U8_arg m c main_arg14 (Gen.V8_main_arg14 m (outs m) c)),
     (h c _ (mem_uc main_arg15 (by decide))).trans (U8_arg m c main_arg15 (Gen.V8_main_arg15 m (outs m) c)),
     (h c _ (mem_uc main_arg16 (by decide))).trans (U8_arg m c main_arg16 (Gen.V8_main_arg16 m (outs m) c))⟩)
    (run_all m ρ)

/-- The run with the result named: the result array ends at what call 3 leaves, every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v69) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v69 (by decide))).trans (U8_out m c),
     (h c _ (mem_uc main_arg0 (by decide))).trans (U8_arg m c main_arg0 (Gen.V8_main_arg0 m (outs m) c)),
     (h c _ (mem_uc main_arg1 (by decide))).trans (U8_arg m c main_arg1 (Gen.V8_main_arg1 m (outs m) c)),
     (h c _ (mem_uc main_arg2 (by decide))).trans (U8_arg m c main_arg2 (Gen.V8_main_arg2 m (outs m) c)),
     (h c _ (mem_uc main_arg3 (by decide))).trans (U8_arg m c main_arg3 (Gen.V8_main_arg3 m (outs m) c)),
     (h c _ (mem_uc main_arg4 (by decide))).trans (U8_arg m c main_arg4 (Gen.V8_main_arg4 m (outs m) c)),
     (h c _ (mem_uc main_arg5 (by decide))).trans (U8_arg m c main_arg5 (Gen.V8_main_arg5 m (outs m) c)),
     (h c _ (mem_uc main_arg6 (by decide))).trans (U8_arg m c main_arg6 (Gen.V8_main_arg6 m (outs m) c)),
     (h c _ (mem_uc main_arg7 (by decide))).trans (U8_arg m c main_arg7 (Gen.V8_main_arg7 m (outs m) c)),
     (h c _ (mem_uc main_arg8 (by decide))).trans (U8_arg m c main_arg8 (Gen.V8_main_arg8 m (outs m) c)),
     (h c _ (mem_uc main_arg9 (by decide))).trans (U8_arg m c main_arg9 (Gen.V8_main_arg9 m (outs m) c)),
     (h c _ (mem_uc main_arg10 (by decide))).trans (U8_arg m c main_arg10 (Gen.V8_main_arg10 m (outs m) c)),
     (h c _ (mem_uc main_arg11 (by decide))).trans (U8_arg m c main_arg11 (Gen.V8_main_arg11 m (outs m) c)),
     (h c _ (mem_uc main_arg12 (by decide))).trans (U8_arg m c main_arg12 (Gen.V8_main_arg12 m (outs m) c)),
     (h c _ (mem_uc main_arg13 (by decide))).trans (U8_arg m c main_arg13 (Gen.V8_main_arg13 m (outs m) c)),
     (h c _ (mem_uc main_arg14 (by decide))).trans (U8_arg m c main_arg14 (Gen.V8_main_arg14 m (outs m) c)),
     (h c _ (mem_uc main_arg15 (by decide))).trans (U8_arg m c main_arg15 (Gen.V8_main_arg15 m (outs m) c)),
     (h c _ (mem_uc main_arg16 (by decide))).trans (U8_arg m c main_arg16 (Gen.V8_main_arg16 m (outs m) c))⟩)
    (run_all m ρ)

end Cert.KernelIdeal.Pipe

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Layers.lean ====
/-
  The two maps the four pipelined calls compute, as functions of whole arrays on the extended reals.
  `affine a w b` is a matrix product plus a bias row: entry (r, j) is ∑ k, a (r, k) · w (k, j) + b j.
  `threeSum x0 a1 a2 b1 b2` adds three arrays, the second and third each shifted by a bias row:
  entry (r, j) is (x0 (r, j) + (a1 (r, j) + b1 j)) + (a2 (r, j) + b2 j), in exactly that grouping.
-/
import Idealize.ShloMosaic.PureOps.Ideal.Laws
import Idealize.ShloMosaic.Lib.ValueIdx
import proofs.«153592_j83202106458340_1_alg».proof.Proof.LibRowsTimes

noncomputable section

namespace Cert.Layers

open Idealize.ShloMosaic Idealize.ShloMosaic.ValueIdx Cert.Dense

/-- Rows of `a` times the weight matrix `w`, plus the bias `b` along every row. -/
def affine {M K N : Nat} (a : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => rowsTimes a w i + b (ix1 (i 1 : Fin N))

/-- `x0 + (a1 + b1) + (a2 + b2)`, the biases along every row, grouped from the left. -/
def threeSum {M N : Nat} (x0 a1 a2 : (⟨2, ![M, N]⟩ : Shape).Idx → EReal)
    (b1 b2 : (⟨1, ![N]⟩ : Shape).Idx → EReal) : (⟨2, ![M, N]⟩ : Shape).Idx → EReal :=
  fun i => (x0 i + (a1 i + b1 (ix1 (i 1 : Fin N)))) + (a2 i + b2 (ix1 (i 1 : Fin N)))

theorem affine_apply {M K N : Nat} (a : (⟨2, ![M, K]⟩ : Shape).Idx → EReal) (w : (⟨2, ![K, N]⟩ : Shape).Idx → EReal)
    (b : (⟨1, ![N]⟩ : Shape).Idx → EReal) (p : Fin M) (q : Fin N) :
    affine a w b (ix2 p q) = (∑ k : Fin K, a (ix2 p k) * w (ix2 k q)) + b (ix1 q) := rfl

theorem threeSum_apply {M N : Nat} (x0 a1 a2 : (⟨2, ![M, N]⟩ : Shape).Idx → EReal)
    (b1 b2 : (⟨1, ![N]⟩ : Shape).Idx → EReal) (p : Fin M) (q : Fin N) :
    threeSum x0 a1 a2 b1 b2 (ix2 p q) = (x0 (ix2 p q) + (a1 (ix2 p q) + b1 (ix1 q))) + (a2 (ix2 p q) + b2 (ix1 q)) := rfl

end Cert.Layers

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«153592_j83202106458340_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Final0.lean ====
/-
  The array call 0 leaves, as one function of the arrays it finds.

  At grid point `t` the input window shows rows 5000·t … 5000·t + 4999 of the tall [100000, 128] array (all 128 columns), the
  weight and bias windows show the whole [128, 192] matrix and the whole 192-entry vector, and the body stores into the
  output block, at (p, q), the sum over k of x (p, k) · w (k, q) — the matrix unit's product into a zero accumulator,
  its operands' change of float format being the identity on the extended reals — plus b q, the bias given a leading
  unit axis and repeated down the 5000 rows. A row of the product depends on that row of the left operand only, so
  the block is the same rows of the product of the whole arrays. It is written back to those rows of the output
  array; row `r` of the output lies in the block of point r / 5000, so the twenty blocks cover the array, and the
  array ends holding, at every (r, q), ∑ k, x (r, k) · w (k, q) + b q.
-/
import proofs.«153592_j83202106458340_1_alg».proof.Proof.IdealBlocks
import proofs.«153592_j83202106458340_1_alg».proof.Proof.Layers
import proofs.«153592_j83202106458340_1_alg».proof.Proof.LibColumnLayout
import proofs.«153592_j83202106458340_1_alg».proof.Proof.LibRowsTimes
import proofs.«153592_j83202106458340_1_alg».proof.Proof.LibRowsCols
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

open Cert.Dense

theorem zeros0_2 : (![0, 0] : Fin 2 → Nat) = fun _ => 0 := funext fun a => by fin_cases a <;> rfl
theorem zeros0_1 : (![0] : Fin 1 → Nat) = fun _ => 0 := funext fun a => by fin_cases a <;> rfl

/-- The printed contraction record is "rows times columns": one contracted axis of extent 128, the left operand read at
    (row, k), the right one at (k, column). -/
theorem rowsCols0 : RowsCols (R := 5000) (K := 128) (N := 192) dot_S5000x128_S128x192_S5000x192_1_0_0_1_n_n where
  rank := rfl
  size := rfl
  l0 := fun j k => rfl
  l1 := fun j k => rfl
  r0 := fun j k => rfl
  r1 := fun j k => rfl

/-- The body's value at row `p`, column `q` of the block: row `p` of the block times column `q` of the weights, plus
    the bias at `q`. The operands' change of float format is the identity on the extended reals. -/
theorem out0_3_apply (x0 : Vec Ideal S5000x128 .f32) (x1 : Vec Ideal S128x192 .f32) (x2 : Vec Ideal S192 .f32) (p : Fin 5000) (q : Fin 192) :
    out0_3 x0 x1 x2 (ix2 p q) = (∑ k : Fin 128, x0 (ix2 p k) * x1 (ix2 k q)) + x2 (ix1 q) := by
  unfold out0_3
  rw [View.canon_unit_zero zeros0_2]
  simp only [View.ld_unit_zero (S := S5000x128) zeros0_2, View.ld_unit_zero (S := S128x192) zeros0_2, View.ld_unit_zero (S := S192) zeros0_1]
  unfold k0_pay1
  simp only [shapeCast_self]
  refine (addf_apply _ _ _).trans ?_
  refine congrArg₂ (· + ·) ?_ (ColumnLayout.row_broadcast_apply x2 _ _ p q)
  exact matmul_zero_apply rowsCols0 none (truncf .bf16 x0 bitsLt_bf16_f32) (truncf .bf16 x1 bitsLt_bf16_f32) (ix2 p q)

/-- The body's value at an index `j` of the block, when the block of rows holds in row `j 0` what a tall array holds in row
    `i 0`, the columns of `j` and `i` agree, and the weight and bias blocks are the whole weight and bias arrays: the
    product plus bias of the arrays at `i`. -/
theorem out0_3_read (x0 : Vec Ideal S5000x128 .f32) (x1 : Vec Ideal S128x192 .f32) (x2 : Vec Ideal S192 .f32)
    (A : S100000x128.Idx → EReal) (W : S128x192.Idx → EReal) (B : S192.Idx → EReal)
    (j : S5000x192.Idx) (i : S100000x192.Idx) (hi : (i 1).val = (j 1).val)
    (h0 : ∀ k : Fin 128, x0 (ix2 (j 0 : Fin 5000) k) = A (ix2 (i 0 : Fin 100000) k)) (h1 : ∀ y, x1 y = W y) (h2 : ∀ y, x2 y = B y) :
    out0_3 x0 x1 x2 j = Cert.Layers.affine A W B i := by
  obtain ⟨p, q, rfl⟩ : ∃ (p : Fin 5000) (q : Fin 192), j = ix2 p q := ⟨j 0, j 1, eq_ix2 j⟩
  have hq : (i 1 : Fin 192) = q := Fin.ext hi
  rw [out0_3_apply]
  show _ = (∑ k : Fin 128, A (ix2 (i 0 : Fin 100000) k) * W (ix2 k (i 1 : Fin 192))) + B (ix1 (i 1 : Fin 192))
  rw [hq, h2]
  refine congrArg (· + B (ix1 q)) (Finset.sum_congr rfl fun k _ => ?_)
  rw [show x0 (ix2 p k) = A (ix2 (i 0 : Fin 100000) k) from h0 k, h1]

/-- The printed index maps over the grid: the two tall windows are at block row `t`, column block 0; the weight and bias
    windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the product plus bias of the arrays the call finds. -/
theorem flushed0_eq (c : Dev nD) (t : Fin cfg0.N) :
    (dat0 (F := Ideal) V c).flushed 3 t = ((cfg0.win 3).blk t).view.read (Elt Ideal)
      (Cert.Layers.affine (V c main_arg0 : S100000x128.Idx → EReal) (V c main_v0 : S128x192.Idx → EReal) (V c main_v3 : S192.Idx → EReal)) := by
  show (cfg0.win 3).cut (grid0.coords t) ((dat0 V c).after 3 t) = _
  rw [after0_3]
  obtain ⟨e00, e01, e10, e11, e2, e30, e31⟩ := idx0 t
  funext j
  refine out0_3_read (iblk0 V c 0 t) (iblk0 V c 1 t) (iblk0 V c 2 t)
    (V c main_arg0 : S100000x128.Idx → EReal) (V c main_v0 : S128x192.Idx → EReal) (V c main_v3 : S192.Idx → EReal)
    j (((cfg0.win 3).blk t).view.emb j) ?_ ?_ ?_ ?_
  · show win0_3.index t (1 : Fin 2) * 192 + 1 * (j 1).val = (j 1).val
    rw [e31]; omega
  · intro k
    show V c main_arg0 (((cfg0.win 0).blk t).view.emb (ix2 (j 0 : Fin 5000) k)) = V c main_arg0 (ix2 ((((cfg0.win 3).blk t).view.emb j) 0 : Fin 100000) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; rw [e00, e30]
    | ⟨1, _⟩ => show win0_0.index t (1 : Fin 2) * 128 + 1 * k.val = k.val; rw [e01]; omega
  · intro y
    show V c main_v0 (((cfg0.win 1).blk t).view.emb y) = V c main_v0 y
    refine congrArg (V c main_v0) (funext fun a => Fin.ext ?_)
    match a with
    | ⟨0, _⟩ => show win0_1.index t (0 : Fin 2) * 128 + 1 * (y 0).val = (y 0).val; rw [e10]; omega
    | ⟨1, _⟩ => show win0_1.index t (1 : Fin 2) * 192 + 1 * (y 1).val = (y 1).val; rw [e11]; omega
  · intro y
    show V c main_v3 (((cfg0.win 2).blk t).view.emb y) = V c main_v3 y
    refine congrArg (V c main_v3) (funext fun a => Fin.ext ?_)
    match a with
    | ⟨0, _⟩ => show win0_2.index t (0 : Fin 1) * 192 + 1 * (y 0).val = (y 0).val; rw [e2]; omega

/-- An index of the array is in point `t`'s block iff each coordinate is in the block's range on its axis. -/
theorem mem_blk0 (t : Fin cfg0.N) (i : S100000x192.Idx) :
    i ∈ ((cfg0.win 3).blk t).view.set ↔ ∀ a : Fin 2, win0_3.index t a * S5000x192.size a ≤ (i a).val ∧ (i a).val < win0_3.index t a * S5000x192.size a + S5000x192.size a := by
  show i ∈ ((View.whole main_v4).slice (win0_3.rect t)).set ↔ _
  rw [View.set_slice_whole, Rect.mem_set_unit]
  exact Iff.rfl

/-- Row `r` of the array lies in the block of point `r / 5000`. -/
theorem cover0 (i : S100000x192.Idx) : ∃ t : Fin cfg0.N, (cfg0.win 3).flush t = true ∧ i ∈ ((cfg0.win 3).blk t).view.set := by
  have hi0 : (i 0).val < 100000 := (i 0).isLt
  have hi1 : (i 1).val < 192 := (i 1).isLt
  refine ⟨(⟨(i 0).val / 5000, by show (i 0).val / 5000 < 20; omega⟩ : Fin cfg0.N), flush0_3 _, ?_⟩
  rw [mem_blk0]
  obtain ⟨-, -, -, -, -, e30, e31⟩ := idx0 ⟨(i 0).val / 5000, by show (i 0).val / 5000 < 20; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 192 ≤ (i 1).val ∧ (i 1).val < win0_3.index _ (1 : Fin 2) * 192 + 192
    rw [e31]; omega

/-- The array call 0 leaves: the product plus bias of the arrays it finds. -/
theorem final0 (c : Dev nD) : (dat0 (F := Ideal) V c).arrAt 3 cfg0.N
    = (Cert.Layers.affine (V c main_arg0 : S100000x128.Idx → EReal) (V c main_v0 : S128x192.Idx → EReal) (V c main_v3 : S192.Idx → EReal)) :=
  (dat0 (F := Ideal) V c).arrAt_eq_of_cover 3 _ (fun t _ => flushed0_eq V c t) cover0

end Cert.KernelIdeal.Pipe

end
-- ==== Proof.Final1.lean ====
/-
  The array call 1 leaves, as one function of the arrays it finds.

  At grid point `t` the three tall windows show rows 5000·t … 5000·t + 4999 of their arrays (all 64 columns), the two
  bias windows show their whole 64-entry vectors, and the body stores into the output block, at (p, q),
  (x0 (p, q) + (x1 (p, q) + b1 q)) + (x2 (p, q) + b2 q): each bias vector is given a leading unit axis and repeated down
  the 5000 rows, and the three terms are added in that grouping. The block is written back to the same rows of the
  output array. Row `r` of the output lies in the block of point r / 5000, so the twenty blocks cover the array, and
  the array ends holding, at every (r, q), the three-term sum of the input arrays at (r, q).
-/
import proofs.«153592_j83202106458340_1_alg».proof.Proof.IdealBlocks
import proofs.«153592_j83202106458340_1_alg».proof.Proof.Layers
import proofs.«153592_j83202106458340_1_alg».proof.Proof.LibColumnLayout
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros1_2 : (![0, 0] : Fin 2 → Nat) = fun _ => 0 := funext fun a => by fin_cases a <;> rfl
theorem zeros1_1 : (![0] : Fin 1 → Nat) = fun _ => 0 := funext fun a => by fin_cases a <;> rfl

/-- The body's value at row `p`, column `q` of the block. -/
theorem out1_5_apply (x0 x1 x2 : Vec Ideal S5000x64 .f32) (x3 x4 : Vec Ideal S64 .f32) (p : Fin 5000) (q : Fin 64) :
    out1_5 x0 x1 x2 x3 x4 (ix2 p q) = (x0 (ix2 p q) + (x1 (ix2 p q) + x3 (ix1 q))) + (x2 (ix2 p q) + x4 (ix1 q)) := by
  unfold out1_5
  rw [View.canon_unit_zero zeros1_2]
  simp only [View.ld_unit_zero (S := S5000x64) zeros1_2, View.ld_unit_zero (S := S64) zeros1_1]
  unfold k1_pay1
  simp only [shapeCast_self]
  refine (addf_apply _ _ _).trans ?_
  refine congrArg₂ (· + ·) ((addf_apply _ _ _).trans (congrArg₂ (· + ·) rfl ((addf_apply _ _ _).trans (congrArg₂ (· + ·) rfl (ColumnLayout.row_broadcast_apply x3 _ _ p q))))) ((addf_apply _ _ _).trans (congrArg₂ (· + ·) rfl (ColumnLayout.row_broadcast_apply x4 _ _ p q)))

/-- The body's value at an index `j` of the block, when the blocks hold at `j` what whole arrays hold at an index `i`
    with the same column, and the bias blocks are the bias arrays: the three-term sum of the arrays at `i`. -/
theorem out1_5_read (x0 x1 x2 : Vec Ideal S5000x64 .f32) (x3 x4 : Vec Ideal S64 .f32)
    (A0 A1 A2 : S100000x64.Idx → EReal) (B1 B2 : S64.Idx → EReal)
    (j : S5000x64.Idx) (i : S100000x64.Idx) (hi : (i 1).val = (j 1).val)
    (h0 : x0 j = A0 i) (h1 : x1 j = A1 i) (h2 : x2 j = A2 i) (h3 : ∀ q, x3 q = B1 q) (h4 : ∀ q, x4 q = B2 q) :
    out1_5 x0 x1 x2 x3 x4 j = Cert.Layers.threeSum A0 A1 A2 B1 B2 i := by
  obtain ⟨p, q, rfl⟩ : ∃ (p : Fin 5000) (q : Fin 64), j = ix2 p q := ⟨j 0, j 1, eq_ix2 j⟩
  have hq : (i 1 : Fin 64) = q := Fin.ext hi
  rw [out1_5_apply, h0, h1, h2, h3, h4]
  show _ = (A0 i + (A1 i + B1 (ix1 (i 1 : Fin 64)))) + (A2 i + B2 (ix1 (i 1 : Fin 64)))
  rw [hq]

/-- The printed index maps over the grid: the tall windows are at block row `t`, column block 0; the bias windows at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the three-term sum of the arrays the call finds. -/
theorem flushed1_eq (c : Dev nD) (t : Fin cfg1.N) :
    (dat1 (F := Ideal) V c).flushed 5 t = ((cfg1.win 5).blk t).view.read (Elt Ideal)
      (Cert.Layers.threeSum (V c main_v5 : S100000x64.Idx → EReal) (V c main_v20 : S100000x64.Idx → EReal) (V c main_v33 : S100000x64.Idx → EReal) (V c main_arg8 : S64.Idx → EReal) (V c main_arg10 : S64.Idx → EReal)) := by
  show (cfg1.win 5).cut (grid1.coords t) ((dat1 V c).after 5 t) = _
  rw [after1_5]
  obtain ⟨e00, e01, e10, e11, e20, e21, e3, e4, e50, e51⟩ := idx1 t
  funext j
  refine out1_5_read (iblk1 V c 0 t) (iblk1 V c 1 t) (iblk1 V c 2 t) (iblk1 V c 3 t) (iblk1 V c 4 t)
    (V c main_v5 : S100000x64.Idx → EReal) (V c main_v20 : S100000x64.Idx → EReal) (V c main_v33 : S100000x64.Idx → EReal) (V c main_arg8 : S64.Idx → EReal) (V c main_arg10 : S64.Idx → EReal)
    j (((cfg1.win 5).blk t).view.emb j) ?_ ?_ ?_ ?_ ?_ ?_
  · show win1_5.index t (1 : Fin 2) * 64 + 1 * (j 1).val = (j 1).val
    rw [e51]; omega
  · show V c main_v5 (((cfg1.win 0).blk t).view.emb j) = V c main_v5 (((cfg1.win 5).blk t).view.emb j)
    refine congrArg (V c main_v5) (funext fun a => Fin.ext ?_)
    match a with
    | ⟨0, _⟩ => show win1_0.index t (0 : Fin 2) * 5000 + 1 * (j 0).val = win1_5.index t (0 : Fin 2) * 5000 + 1 * (j 0).val; rw [e00, e50]
    | ⟨1, _⟩ => show win1_0.index t (1 : Fin 2) * 64 + 1 * (j 1).val = win1_5.index t (1 : Fin 2) * 64 + 1 * (j 1).val; rw [e01, e51]
  · show V c main_v20 (((cfg1.win 1).blk t).view.emb j) = V c main_v20 (((cfg1.win 5).blk t).view.emb j)
    refine congrArg (V c main_v20) (funext fun a => Fin.ext ?_)
    match a with
    | ⟨0, _⟩ => show win1_1.index t (0 : Fin 2) * 5000 + 1 * (j 0).val = win1_5.index t (0 : Fin 2) * 5000 + 1 * (j 0).val; rw [e10, e50]
    | ⟨1, _⟩ => show win1_1.index t (1 : Fin 2) * 64 + 1 * (j 1).val = win1_5.index t (1 : Fin 2) * 64 + 1 * (j 1).val; rw [e11, e51]
  · show V c main_v33 (((cfg1.win 2).blk t).view.emb j) = V c main_v33 (((cfg1.win 5).blk t).view.emb j)
    refine congrArg (V c main_v33) (funext fun a => Fin.ext ?_)
    match a with
    | ⟨0, _⟩ => show win1_2.index t (0 : Fin 2) * 5000 + 1 * (j 0).val = win1_5.index t (0 : Fin 2) * 5000 + 1 * (j 0).val; rw [e20, e50]
    | ⟨1, _⟩ => show win1_2.index t (1 : Fin 2) * 64 + 1 * (j 1).val = win1_5.index t (1 : Fin 2) * 64 + 1 * (j 1).val; rw [e21, e51]
  · intro q
    show V c main_arg8 (((cfg1.win 3).blk t).view.emb q) = V c main_arg8 q
    refine congrArg (V c main_arg8) (funext fun a => Fin.ext ?_)
    match a with
    | ⟨0, _⟩ => show win1_3.index t (0 : Fin 1) * 64 + 1 * (q 0).val = (q 0).val; rw [e3]; omega
  · intro q
    show V c main_arg10 (((cfg1.win 4).blk t).view.emb q) = V c main_arg10 q
    refine congrArg (V c main_arg10) (funext fun a => Fin.ext ?_)
    match a with
    | ⟨0, _⟩ => show win1_4.index t (0 : Fin 1) * 64 + 1 * (q 0).val = (q 0).val; rw [e4]; omega

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v34).slice (win1_5.rect t)).set ↔ _
  rw [View.set_slice_whole, Rect.mem_set_unit]
  exact Iff.rfl

/-- Row `r` of the array lies in the block of point `r / 5000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  refine ⟨(⟨(i 0).val / 5000, by show (i 0).val / 5000 < 20; omega⟩ : Fin cfg1.N), flush1_5 _, ?_⟩
  rw [mem_blk1]
  obtain ⟨-, -, -, -, -, -, -, -, e50, e51⟩ := idx1 ⟨(i 0).val / 5000, by show (i 0).val / 5000 < 20; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e51]; omega

/-- The array call 1 leaves: the three-term sum of the arrays it finds. -/
theorem final1 (c : Dev nD) : (dat1 (F := Ideal) V c).arrAt 5 cfg1.N
    = Cert.Layers.threeSum (V c main_v5 : S100000x64.Idx → EReal) (V c main_v20 : S100000x64.Idx → EReal) (V c main_v33 : S100000x64.Idx → EReal) (V c main_arg8 : S64.Idx → EReal) (V c main_arg10 : S64.Idx → EReal) :=
  (dat1 (F := Ideal) V c).arrAt_eq_of_cover 5 _ (fun t _ => flushed1_eq V c t) cover1

end Cert.KernelIdeal.Pipe

end
-- ==== Proof.Final2.lean ====
/-
  The array call 2 leaves, as one function of the arrays it finds.

  At grid point `t` the input window shows rows 5000·t … 5000·t + 4999 of the tall [100000, 64] array (all 64 columns), the
  weight and bias windows show the whole [64, 96] matrix and the whole 96-entry vector, and the body stores into the
  output block, at (p, q), the sum over k of x (p, k) · w (k, q) — the matrix unit's product into a zero accumulator,
  its operands' change of float format being the identity on the extended reals — plus b q, the bias given a leading
  unit axis and repeated down the 5000 rows. A row of the product depends on that row of the left operand only, so
  the block is the same rows of the product of the whole arrays. It is written back to those rows of the output
  array; row `r` of the output lies in the block of point r / 5000, so the twenty blocks cover the array, and the
  array ends holding, at every (r, q), ∑ k, x (r, k) · w (k, q) + b q.
-/
import proofs.«153592_j83202106458340_1_alg».proof.Proof.IdealBlocks
import proofs.«153592_j83202106458340_1_alg».proof.Proof.Layers
import proofs.«153592_j83202106458340_1_alg».proof.Proof.LibColumnLayout
import proofs.«153592_j83202106458340_1_alg».proof.Proof.LibRowsTimes
import proofs.«153592_j83202106458340_1_alg».proof.Proof.LibRowsCols
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

open Cert.Dense

theorem zeros2_2 : (![0, 0] : Fin 2 → Nat) = fun _ => 0 := funext fun a => by fin_cases a <;> rfl
theorem zeros2_1 : (![0] : Fin 1 → Nat) = fun _ => 0 := funext fun a => by fin_cases a <;> rfl

/-- The printed contraction record is "rows times columns": one contracted axis of extent 64, the left operand read at
    (row, k), the right one at (k, column). -/
theorem rowsCols2 : RowsCols (R := 5000) (K := 64) (N := 96) dot_S5000x64_S64x96_S5000x96_1_0_0_1_n_n where
  rank := rfl
  size := rfl
  l0 := fun j k => rfl
  l1 := fun j k => rfl
  r0 := fun j k => rfl
  r1 := fun j k => rfl

/-- The body's value at row `p`, column `q` of the block: row `p` of the block times column `q` of the weights, plus
    the bias at `q`. The operands' change of float format is the identity on the extended reals. -/
theorem out2_3_apply (x0 : Vec Ideal S5000x64 .f32) (x1 : Vec Ideal S64x96 .f32) (x2 : Vec Ideal S96 .f32) (p : Fin 5000) (q : Fin 96) :
    out2_3 x0 x1 x2 (ix2 p q) = (∑ k : Fin 64, x0 (ix2 p k) * x1 (ix2 k q)) + x2 (ix1 q) := by
  unfold out2_3
  rw [View.canon_unit_zero zeros2_2]
  simp only [View.ld_unit_zero (S := S5000x64) zeros2_2, View.ld_unit_zero (S := S64x96) zeros2_2, View.ld_unit_zero (S := S96) zeros2_1]
  unfold k2_pay1
  simp only [shapeCast_self]
  refine (addf_apply _ _ _).trans ?_
  refine congrArg₂ (· + ·) ?_ (ColumnLayout.row_broadcast_apply x2 _ _ p q)
  exact matmul_zero_apply rowsCols2 none (truncf .bf16 x0 bitsLt_bf16_f32) (truncf .bf16 x1 bitsLt_bf16_f32) (ix2 p q)

/-- The body's value at an index `j` of the block, when the block of rows holds in row `j 0` what a tall array holds in row
    `i 0`, the columns of `j` and `i` agree, and the weight and bias blocks are the whole weight and bias arrays: the
    product plus bias of the arrays at `i`. -/
theorem out2_3_read (x0 : Vec Ideal S5000x64 .f32) (x1 : Vec Ideal S64x96 .f32) (x2 : Vec Ideal S96 .f32)
    (A : S100000x64.Idx → EReal) (W : S64x96.Idx → EReal) (B : S96.Idx → EReal)
    (j : S5000x96.Idx) (i : S100000x96.Idx) (hi : (i 1).val = (j 1).val)
    (h0 : ∀ k : Fin 64, x0 (ix2 (j 0 : Fin 5000) k) = A (ix2 (i 0 : Fin 100000) k)) (h1 : ∀ y, x1 y = W y) (h2 : ∀ y, x2 y = B y) :
    out2_3 x0 x1 x2 j = Cert.Layers.affine A W B i := by
  obtain ⟨p, q, rfl⟩ : ∃ (p : Fin 5000) (q : Fin 96), j = ix2 p q := ⟨j 0, j 1, eq_ix2 j⟩
  have hq : (i 1 : Fin 96) = q := Fin.ext hi
  rw [out2_3_apply]
  show _ = (∑ k : Fin 64, A (ix2 (i 0 : Fin 100000) k) * W (ix2 k (i 1 : Fin 96))) + B (ix1 (i 1 : Fin 96))
  rw [hq, h2]
  refine congrArg (· + B (ix1 q)) (Finset.sum_congr rfl fun k _ => ?_)
  rw [show x0 (ix2 p k) = A (ix2 (i 0 : Fin 100000) k) from h0 k, h1]

/-- The printed index maps over the grid: the two tall windows are at block row `t`, column block 0; the weight and bias
    windows at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the product plus bias of the arrays the call finds. -/
theorem flushed2_eq (c : Dev nD) (t : Fin cfg2.N) :
    (dat2 (F := Ideal) V c).flushed 3 t = ((cfg2.win 3).blk t).view.read (Elt Ideal)
      (Cert.Layers.affine (V c main_v34 : S100000x64.Idx → EReal) (V c main_v35 : S64x96.Idx → EReal) (V c main_v38 : S96.Idx → EReal)) := by
  show (cfg2.win 3).cut (grid2.coords t) ((dat2 V c).after 3 t) = _
  rw [after2_3]
  obtain ⟨e00, e01, e10, e11, e2, e30, e31⟩ := idx2 t
  funext j
  refine out2_3_read (iblk2 V c 0 t) (iblk2 V c 1 t) (iblk2 V c 2 t)
    (V c main_v34 : S100000x64.Idx → EReal) (V c main_v35 : S64x96.Idx → EReal) (V c main_v38 : S96.Idx → EReal)
    j (((cfg2.win 3).blk t).view.emb j) ?_ ?_ ?_ ?_
  · show win2_3.index t (1 : Fin 2) * 96 + 1 * (j 1).val = (j 1).val
    rw [e31]; omega
  · intro k
    show V c main_v34 (((cfg2.win 0).blk t).view.emb (ix2 (j 0 : Fin 5000) k)) = V c main_v34 (ix2 ((((cfg2.win 3).blk t).view.emb j) 0 : Fin 100000) k)
    refine congrArg (V c main_v34) (funext fun a => Fin.ext ?_)
    match a with
    | ⟨0, _⟩ => show win2_0.index t (0 : Fin 2) * 5000 + 1 * (j 0).val = win2_3.index t (0 : Fin 2) * 5000 + 1 * (j 0).val; rw [e00, e30]
    | ⟨1, _⟩ => show win2_0.index t (1 : Fin 2) * 64 + 1 * k.val = k.val; rw [e01]; omega
  · intro y
    show V c main_v35 (((cfg2.win 1).blk t).view.emb y) = V c main_v35 y
    refine congrArg (V c main_v35) (funext fun a => Fin.ext ?_)
    match a with
    | ⟨0, _⟩ => show win2_1.index t (0 : Fin 2) * 64 + 1 * (y 0).val = (y 0).val; rw [e10]; omega
    | ⟨1, _⟩ => show win2_1.index t (1 : Fin 2) * 96 + 1 * (y 1).val = (y 1).val; rw [e11]; omega
  · intro y
    show V c main_v38 (((cfg2.win 2).blk t).view.emb y) = V c main_v38 y
    refine congrArg (V c main_v38) (funext fun a => Fin.ext ?_)
    match a with
    | ⟨0, _⟩ => show win2_2.index t (0 : Fin 1) * 96 + 1 * (y 0).val = (y 0).val; rw [e2]; omega

/-- An index of the array is in point `t`'s block iff each coordinate is in the block's range on its axis. -/
theorem mem_blk2 (t : Fin cfg2.N) (i : S100000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v39).slice (win2_3.rect t)).set ↔ _
  rw [View.set_slice_whole, Rect.mem_set_unit]
  exact Iff.rfl

/-- Row `r` of the array lies in the block of point `r / 5000`. -/
theorem cover2 (i : S100000x96.Idx) : ∃ t : Fin cfg2.N, (cfg2.win 3).flush t = true ∧ i ∈ ((cfg2.win 3).blk t).view.set := by
  have hi0 : (i 0).val < 100000 := (i 0).isLt
  have hi1 : (i 1).val < 96 := (i 1).isLt
  refine ⟨(⟨(i 0).val / 5000, by show (i 0).val / 5000 < 20; omega⟩ : Fin cfg2.N), flush2_3 _, ?_⟩
  rw [mem_blk2]
  obtain ⟨-, -, -, -, -, e30, e31⟩ := idx2 ⟨(i 0).val / 5000, by show (i 0).val / 5000 < 20; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 96 ≤ (i 1).val ∧ (i 1).val < win2_3.index _ (1 : Fin 2) * 96 + 96
    rw [e31]; omega

/-- The array call 2 leaves: the product plus bias of the arrays it finds. -/
theorem final2 (c : Dev nD) : (dat2 (F := Ideal) V c).arrAt 3 cfg2.N
    = (Cert.Layers.affine (V c main_v34 : S100000x64.Idx → EReal) (V c main_v35 : S64x96.Idx → EReal) (V c main_v38 : S96.Idx → EReal)) :=
  (dat2 (F := Ideal) V c).arrAt_eq_of_cover 3 _ (fun t _ => flushed2_eq V c t) cover2

end Cert.KernelIdeal.Pipe

end
-- ==== Proof.Final3.lean ====
/-
  The array call 3 leaves, as one function of the arrays it finds.

  At grid point `t` the three tall windows show rows 5000·t … 5000·t + 4999 of their arrays (all 32 columns), the two
  bias windows show their whole 32-entry vectors, and the body stores into the output block, at (p, q),
  (x0 (p, q) + (x1 (p, q) + b1 q)) + (x2 (p, q) + b2 q): each bias vector is given a leading unit axis and repeated down
  the 5000 rows, and the three terms are added in that grouping. The block is written back to the same rows of the
  output array. Row `r` of the output lies in the block of point r / 5000, so the twenty blocks cover the array, and
  the array ends holding, at every (r, q), the three-term sum of the input arrays at (r, q).
-/
import proofs.«153592_j83202106458340_1_alg».proof.Proof.IdealBlocks
import proofs.«153592_j83202106458340_1_alg».proof.Proof.Layers
import proofs.«153592_j83202106458340_1_alg».proof.Proof.LibColumnLayout
import Idealize.ShloMosaic.Lib.Pipeline.Value

set_option maxRecDepth 16384

noncomputable section

namespace Cert.KernelIdeal.Pipe

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros3_2 : (![0, 0] : Fin 2 → Nat) = fun _ => 0 := funext fun a => by fin_cases a <;> rfl
theorem zeros3_1 : (![0] : Fin 1 → Nat) = fun _ => 0 := funext fun a => by fin_cases a <;> rfl

/-- The body's value at row `p`, column `q` of the block. -/
theorem out3_5_apply (x0 x1 x2 : Vec Ideal S5000x32 .f32) (x3 x4 : Vec Ideal S32 .f32) (p : Fin 5000) (q : Fin 32) :
    out3_5 x0 x1 x2 x3 x4 (ix2 p q) = (x0 (ix2 p q) + (x1 (ix2 p q) + x3 (ix1 q))) + (x2 (ix2 p q) + x4 (ix1 q)) := by
  unfold out3_5
  rw [View.canon_unit_zero zeros3_2]
  simp only [View.ld_unit_zero (S := S5000x32) zeros3_2, View.ld_unit_zero (S := S32) zeros3_1]
  unfold k3_pay1
  simp only [shapeCast_self]
  refine (addf_apply _ _ _).trans ?_
  refine congrArg₂ (· + ·) ((addf_apply _ _ _).trans (congrArg₂ (· + ·) rfl ((addf_apply _ _ _).trans (congrArg₂ (· + ·) rfl (ColumnLayout.row_broadcast_apply x3 _ _ p q))))) ((addf_apply _ _ _).trans (congrArg₂ (· + ·) rfl (ColumnLayout.row_broadcast_apply x4 _ _ p q)))

/-- The body's value at an index `j` of the block, when the blocks hold at `j` what whole arrays hold at an index `i`
    with the same column, and the bias blocks are the bias arrays: the three-term sum of the arrays at `i`. -/
theorem out3_5_read (x0 x1 x2 : Vec Ideal S5000x32 .f32) (x3 x4 : Vec Ideal S32 .f32)
    (A0 A1 A2 : S100000x32.Idx → EReal) (B1 B2 : S32.Idx → EReal)
    (j : S5000x32.Idx) (i : S100000x32.Idx) (hi : (i 1).val = (j 1).val)
    (h0 : x0 j = A0 i) (h1 : x1 j = A1 i) (h2 : x2 j = A2 i) (h3 : ∀ q, x3 q = B1 q) (h4 : ∀ q, x4 q = B2 q) :
    out3_5 x0 x1 x2 x3 x4 j = Cert.Layers.threeSum A0 A1 A2 B1 B2 i := by
  obtain ⟨p, q, rfl⟩ : ∃ (p : Fin 5000) (q : Fin 32), j = ix2 p q := ⟨j 0, j 1, eq_ix2 j⟩
  have hq : (i 1 : Fin 32) = q := Fin.ext hi
  rw [out3_5_apply, h0, h1, h2, h3, h4]
  show _ = (A0 i + (A1 i + B1 (ix1 (i 1 : Fin 32)))) + (A2 i + B2 (ix1 (i 1 : Fin 32)))
  rw [hq]

/-- The printed index maps over the grid: the tall windows are at block row `t`, column block 0; the bias windows at block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- What point `t` writes back is block `t` of the three-term sum of the arrays the call finds. -/
theorem flushed3_eq (c : Dev nD) (t : Fin cfg3.N) :
    (dat3 (F := Ideal) V c).flushed 5 t = ((cfg3.win 5).blk t).view.read (Elt Ideal)
      (Cert.Layers.threeSum (V c main_v40 : S100000x32.Idx → EReal) (V c main_v55 : S100000x32.Idx → EReal) (V c main_v68 : S100000x32.Idx → EReal) (V c main_arg14 : S32.Idx → EReal) (V c main_arg16 : S32.Idx → EReal)) := by
  show (cfg3.win 5).cut (grid3.coords t) ((dat3 V c).after 5 t) = _
  rw [after3_5]
  obtain ⟨e00, e01, e10, e11, e20, e21, e3, e4, e50, e51⟩ := idx3 t
  funext j
  refine out3_5_read (iblk3 V c 0 t) (iblk3 V c 1 t) (iblk3 V c 2 t) (iblk3 V c 3 t) (iblk3 V c 4 t)
    (V c main_v40 : S100000x32.Idx → EReal) (V c main_v55 : S100000x32.Idx → EReal) (V c main_v68 : S100000x32.Idx → EReal) (V c main_arg14 : S32.Idx → EReal) (V c main_arg16 : S32.Idx → EReal)
    j (((cfg3.win 5).blk t).view.emb j) ?_ ?_ ?_ ?_ ?_ ?_
  · show win3_5.index t (1 : Fin 2) * 32 + 1 * (j 1).val = (j 1).val
    rw [e51]; omega
  · show V c main_v40 (((cfg3.win 0).blk t).view.emb j) = V c main_v40 (((cfg3.win 5).blk t).view.emb j)
    refine congrArg (V c main_v40) (funext fun a => Fin.ext ?_)
    match a with
    | ⟨0, _⟩ => show win3_0.index t (0 : Fin 2) * 5000 + 1 * (j 0).val = win3_5.index t (0 : Fin 2) * 5000 + 1 * (j 0).val; rw [e00, e50]
    | ⟨1, _⟩ => show win3_0.index t (1 : Fin 2) * 32 + 1 * (j 1).val = win3_5.index t (1 : Fin 2) * 32 + 1 * (j 1).val; rw [e01, e51]
  · show V c main_v55 (((cfg3.win 1).blk t).view.emb j) = V c main_v55 (((cfg3.win 5).blk t).view.emb j)
    refine congrArg (V c main_v55) (funext fun a => Fin.ext ?_)
    match a with
    | ⟨0, _⟩ => show win3_1.index t (0 : Fin 2) * 5000 + 1 * (j 0).val = win3_5.index t (0 : Fin 2) * 5000 + 1 * (j 0).val; rw [e10, e50]
    | ⟨1, _⟩ => show win3_1.index t (1 : Fin 2) * 32 + 1 * (j 1).val = win3_5.index t (1 : Fin 2) * 32 + 1 * (j 1).val; rw [e11, e51]
  · show V c main_v68 (((cfg3.win 2).blk t).view.emb j) = V c main_v68 (((cfg3.win 5).blk t).view.emb j)
    refine congrArg (V c main_v68) (funext fun a => Fin.ext ?_)
    match a with
    | ⟨0, _⟩ => show win3_2.index t (0 : Fin 2) * 5000 + 1 * (j 0).val = win3_5.index t (0 : Fin 2) * 5000 + 1 * (j 0).val; rw [e20, e50]
    | ⟨1, _⟩ => show win3_2.index t (1 : Fin 2) * 32 + 1 * (j 1).val = win3_5.index t (1 : Fin 2) * 32 + 1 * (j 1).val; rw [e21, e51]
  · intro q
    show V c main_arg14 (((cfg3.win 3).blk t).view.emb q) = V c main_arg14 q
    refine congrArg (V c main_arg14) (funext fun a => Fin.ext ?_)
    match a with
    | ⟨0, _⟩ => show win3_3.index t (0 : Fin 1) * 32 + 1 * (q 0).val = (q 0).val; rw [e3]; omega
  · intro q
    show V c main_arg16 (((cfg3.win 4).blk t).view.emb q) = V c main_arg16 q
    refine congrArg (V c main_arg16) (funext fun a => Fin.ext ?_)
    match a with
    | ⟨0, _⟩ => show win3_4.index t (0 : Fin 1) * 32 + 1 * (q 0).val = (q 0).val; rw [e4]; omega

/-- An index of the array is in point `t`'s block iff each coordinate is in the block's range on its axis. -/
theorem mem_blk3 (t : Fin cfg3.N) (i : S100000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole main_v69).slice (win3_5.rect t)).set ↔ _
  rw [View.set_slice_whole, Rect.mem_set_unit]
  exact Iff.rfl

/-- Row `r` of the array lies in the block of point `r / 5000`. -/
theorem cover3 (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  refine ⟨(⟨(i 0).val / 5000, by show (i 0).val / 5000 < 20; omega⟩ : Fin cfg3.N), flush3_5 _, ?_⟩
  rw [mem_blk3]
  obtain ⟨-, -, -, -, -, -, -, -, e50, e51⟩ := idx3 ⟨(i 0).val / 5000, by show (i 0).val / 5000 < 20; omega⟩
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 32 ≤ (i 1).val ∧ (i 1).val < win3_5.index _ (1 : Fin 2) * 32 + 32
    rw [e51]; omega

/-- The array call 3 leaves: the three-term sum of the arrays it finds. -/
theorem final3 (c : Dev nD) : (dat3 (F := Ideal) V c).arrAt 5 cfg3.N
    = (Cert.Layers.threeSum (V c main_v40 : S100000x32.Idx → EReal) (V c main_v55 : S100000x32.Idx → EReal) (V c main_v68 : S100000x32.Idx → EReal) (V c main_arg14 : S32.Idx → EReal) (V c main_arg16 : S32.Idx → EReal)) :=
  (dat3 (F := Ideal) V c).arrAt_eq_of_cover 5 _ (fun t _ => flushed3_eq V c t) cover3

end Cert.KernelIdeal.Pipe

end
-- ==== Proof.HostStretches.lean ====
/-
  What the plain host operations between the four pipelined calls leave in the buffers the next call reads, for an
  arbitrary starting valuation `W` of the buffers.

  * Before call 0: the three first-layer weight matrices side by side (128 x 192), and the first bias followed by
    two zero vectors (192 entries).
  * Before call 1: the three 64-column slices of call 0's result; the second and third slice each aggregated over
    the edges (`agg64`: gather the source rows, scale by the edge weight, add into the destination rows of zeros).
  * Before call 2 and call 3: the same with the second layer's 64 x 32 weights and 32-column slices (`agg32`).

  The aggregation is carried as one function and never opened: the reference applies literally the same operations.
-/
import proofs.«153592_j83202106458340_1_alg».proof.Proof.Gen.KernelIdeal.Launch
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.StableHlo

/-- A three-operand host operation leaves its result at its function of the operands' contents, each read at its
    own buffer. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The edge aggregation -/

/-- One edge aggregation over 64 columns: read row `src e` of `h` for every edge `e` (a negative index counted from the
    end), scale it by the edge's weight, and add it into row `dst e` of an array of zeros. -/
def agg64 (h : Vec Ideal S100000x64 .f32) (w : Vec Ideal S1600000 .f32) (src dst : Vec Ideal S1600000 .i32) :
    Vec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (F := Ideal)
      (broadcastInDim S1600000x64 ![0, 1] bcast_S1600000x1_S1600000x64_0_1
        (broadcastInDim S1600000x1 ![0] bcast_S1600000_S1600000x1_0 w))
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- The same aggregation over 32 columns. -/
def agg32 (h : Vec Ideal S100000x32 .f32) (w : Vec Ideal S1600000 .f32) (src dst : Vec Ideal S1600000 .i32) :
    Vec Ideal S100000x32 .f32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (mulf (F := Ideal)
      (broadcastInDim S1600000x32 ![0, 1] bcast_S1600000x1_S1600000x32_0_1
        (broadcastInDim S1600000x1 ![0] bcast_S1600000_S1600000x1_0 w))
      (Host.gather gather_S100000x32_S1600000x1_S1600000x32_1_0_n_n_0_1_132 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-! ## Before call 0: the first layer's weights side by side, its bias padded with zeros -/

/-- The 128 x 192 weight matrix is the three 128 x 64 weight matrices side by side. -/
theorem hostOps0_main_v0 (W : Valuation τ sig (Elt Ideal)) :
    after hostOps0 W (Proc.devRef .tc main_v0)
      = concatenate S128x192 1 [⟨S128x64, W (Proc.devRef .tc main_arg5)⟩, ⟨S128x64, W (Proc.devRef .tc main_arg7)⟩,
          ⟨S128x64, W (Proc.devRef .tc main_arg9)⟩] concatenates_S128x64_S128x64_S128x64_S128x192_d1 := by
  after_results
  rfl

/-- The 192-entry bias row is the first bias followed by 128 zeros. -/
theorem hostOps0_main_v3 (W : Valuation τ sig (Elt Ideal)) :
    after hostOps0 W (Proc.devRef .tc main_v3)
      = concatenate S192 0 [⟨S64, W (Proc.devRef .tc main_arg6)⟩,
          ⟨S64, broadcastInDim S64 ![] bcast_S_S64 (constant (F := Ideal) S_ .f32 0x00000000#32)⟩,
          ⟨S64, broadcastInDim S64 ![] bcast_S_S64 (constant (F := Ideal) S_ .f32 0x00000000#32)⟩]
          concatenates_S64_S64_S64_S192_d0 := by
  simp only [after_cons, after_nil]
  rw [nary3_result]
  repeat (first
    | rw [nullary_result] | rw [unary_result]
    | (rw [nullary_result_ne]; rotate_left; decide)
    | (rw [unary_result_ne]; rotate_left; decide)
    | (rw [nary_result_ne]; rotate_left; decide))
  rfl

/-! ## Before call 1: the three column slices of call 0's result, two of them aggregated over the edges -/

/-- Columns 0 … 63 of call 0's result. -/
theorem hostOps1_main_v5 (W : Valuation τ sig (Elt Ideal)) :
    after hostOps1 W (Proc.devRef .tc main_v5)
      = extractStridedSlice S100000x64 ![0, 0] (W (Proc.devRef .tc main_v4)) slices_S100000x192_S100000x64_0_0 := by
  after_results_simp <;> rfl

/-- Columns 64 … 127 of call 0's result. -/
theorem hostOps1_main_v6 (W : Valuation τ sig (Elt Ideal)) :
    after hostOps1 W (Proc.devRef .tc main_v6)
      = extractStridedSlice S100000x64 ![0, 64] (W (Proc.devRef .tc main_v4)) slices_S100000x192_S100000x64_0_64 := by
  after_results_simp <;> rfl

/-- Columns 128 … 191 of call 0's result. -/
theorem hostOps1_main_v7 (W : Valuation τ sig (Elt Ideal)) :
    after hostOps1 W (Proc.devRef .tc main_v7)
      = extractStridedSlice S100000x64 ![0, 128] (W (Proc.devRef .tc main_v4)) slices_S100000x192_S100000x64_0_128 := by
  after_results_simp <;> rfl

/-- The first aggregation: of columns 64 … 127, with the first edge weights. -/
theorem hostOps1_main_v20 (W : Valuation τ sig (Elt Ideal)) :
    after hostOps1 W (Proc.devRef .tc main_v20)
      = agg64 (extractStridedSlice S100000x64 ![0, 64] (W (Proc.devRef .tc main_v4)) slices_S100000x192_S100000x64_0_64)
          (W (Proc.devRef .tc main_arg1)) (W (Proc.devRef .tc main_arg3)) (W (Proc.devRef .tc main_arg4)) := by
  after_results_simp <;> rfl

/-- The second aggregation: of columns 128 … 191, with the second edge weights. -/
theorem hostOps1_main_v33 (W : Valuation τ sig (Elt Ideal)) :
    after hostOps1 W (Proc.devRef .tc main_v33)
      = agg64 (extractStridedSlice S100000x64 ![0, 128] (W (Proc.devRef .tc main_v4)) slices_S100000x192_S100000x64_0_128)
          (W (Proc.devRef .tc main_arg2)) (W (Proc.devRef .tc main_arg3)) (W (Proc.devRef .tc main_arg4)) := by
  after_results_simp <;> rfl

/-! ## Before call 2: the second layer's weights side by side, its bias padded with zeros -/

/-- The 64 x 96 weight matrix is the three 64 x 32 weight matrices side by side. -/
theorem hostOps2_main_v35 (W : Valuation τ sig (Elt Ideal)) :
    after hostOps2 W (Proc.devRef .tc main_v35)
      = concatenate S64x96 1 [⟨S64x32, W (Proc.devRef .tc main_arg11)⟩, ⟨S64x32, W (Proc.devRef .tc main_arg13)⟩,
          ⟨S64x32, W (Proc.devRef .tc main_arg15)⟩] concatenates_S64x32_S64x32_S64x32_S64x96_d1 := by
  after_results
  rfl

/-- The 96-entry bias row is the second layer's first bias followed by 64 zeros. -/
theorem hostOps2_main_v38 (W : Valuation τ sig (Elt Ideal)) :
    after hostOps2 W (Proc.devRef .tc main_v38)
      = concatenate S96 0 [⟨S32, W (Proc.devRef .tc main_arg12)⟩,
          ⟨S32, broadcastInDim S32 ![] bcast_S_S32 (constant (F := Ideal) S_ .f32 0x00000000#32)⟩,
          ⟨S32, broadcastInDim S32 ![] bcast_S_S32 (constant (F := Ideal) S_ .f32 0x00000000#32)⟩]
          concatenates_S32_S32_S32_S96_d0 := by
  simp only [after_cons, after_nil]
  rw [nary3_result]
  repeat (first
    | rw [nullary_result] | rw [unary_result]
    | (rw [nullary_result_ne]; rotate_left; decide)
    | (rw [unary_result_ne]; rotate_left; decide)
    | (rw [nary_result_ne]; rotate_left; decide))
  rfl

/-! ## Before call 3: the three column slices of call 2's result, two of them aggregated over the edges -/

/-- Columns 0 … 31 of call 2's result. -/
theorem hostOps3_main_v40 (W : Valuation τ sig (Elt Ideal)) :
    after hostOps3 W (Proc.devRef .tc main_v40)
      = extractStridedSlice S100000x32 ![0, 0] (W (Proc.devRef .tc main_v39)) slices_S100000x96_S100000x32_0_0 := by
  after_results_simp <;> rfl

/-- Columns 32 … 63 of call 2's result. -/
theorem hostOps3_main_v41 (W : Valuation τ sig (Elt Ideal)) :
    after hostOps3 W (Proc.devRef .tc main_v41)
      = extractStridedSlice S100000x32 ![0, 32] (W (Proc.devRef .tc main_v39)) slices_S100000x96_S100000x32_0_32 := by
  after_results_simp <;> rfl

/-- Columns 64 … 95 of call 2's result. -/
theorem hostOps3_main_v42 (W : Valuation τ sig (Elt Ideal)) :
    after hostOps3 W (Proc.devRef .tc main_v42)
      = extractStridedSlice S100000x32 ![0, 64] (W (Proc.devRef .tc main_v39)) slices_S100000x96_S100000x32_0_64 := by
  after_results_simp <;> rfl

/-- The first aggregation: of columns 32 … 63, with the first edge weights. -/
theorem hostOps3_main_v55 (W : Valuation τ sig (Elt Ideal)) :
    after hostOps3 W (Proc.devRef .tc main_v55)
      = agg32 (extractStridedSlice S100000x32 ![0, 32] (W (Proc.devRef .tc main_v39)) slices_S100000x96_S100000x32_0_32)
          (W (Proc.devRef .tc main_arg1)) (W (Proc.devRef .tc main_arg3)) (W (Proc.devRef .tc main_arg4)) := by
  after_results_simp <;> rfl

/-- The second aggregation: of columns 64 … 95, with the second edge weights. -/
theorem hostOps3_main_v68 (W : Valuation τ sig (Elt Ideal)) :
    after hostOps3 W (Proc.devRef .tc main_v68)
      = agg32 (extractStridedSlice S100000x32 ![0, 64] (W (Proc.devRef .tc main_v39)) slices_S100000x96_S100000x32_0_64)
          (W (Proc.devRef .tc main_arg2)) (W (Proc.devRef .tc main_arg3)) (W (Proc.devRef .tc main_arg4)) := by
  after_results_simp <;> rfl

end Cert.KernelIdeal.Host

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.ConcatLaws.lean ====
/-
  The algebra of the two layers, as equalities of whole arrays on the extended reals.

  The kernel computes each layer's three products at once: it lays the three weight matrices side by side, lays the one
  bias and two zero vectors end to end, forms `X · [w0 | w1 | w2] + [b0 | 0 | 0]`, and the host cuts the result into three
  column groups. The reference forms the three products separately. Entry (r, j) of column group c is
  `∑ k, X (r, k) · [w0 | w1 | w2] (k, c·N + j) + [b0 | 0 | 0] (c·N + j)`; column `c·N + j` of the concatenation is column `j` of
  piece `c`, so the sum is term by term that of `X · w_c`, and the bias entry is `b0 j` for `c = 0` and the zero word
  otherwise, where `a + 0 = a`. The three-branch sum is the same five additions in the same grouping, each bias read
  through the host's two broadcasts.

  Nothing here needs the entries to be finite.
-/
import proofs.«153592_j83202106458340_1_alg».proof.Proof.Layers
import proofs.«153592_j83202106458340_1_alg».proof.Proof.LibRowsTimes
import proofs.«153592_j83202106458340_1_alg».proof.Proof.LibRowsCols
import proofs.«153592_j83202106458340_1_alg».proof.Proof.LibHostColumn
import Idealize.ShloMosaic.Lib.ValueIdx
import Idealize.ShloMosaic.Lib.ValueLayout
import Idealize.ShloMosaic.Lib.Pipeline.Value
import Idealize.ShloMosaic.PureOps.Ideal.Laws
import proofs.«153592_j83202106458340_1_alg».proof.KernelIdeal
import proofs.«153592_j83202106458340_1_alg».proof.ReferenceIdeal

noncomputable section

namespace Cert.Layers

open Idealize.ShloMosaic Idealize.ShloMosaic.ValueIdx Cert.Dense

section Pieces
variable {α : Type}

/-- Three [K, N] matrices laid side by side along the columns: a column `j = q` below `N` reads the first. -/
theorem concat3_cols_fst {K N T : Nat} (w0 w1 w2 : (⟨2, ![K, N]⟩ : Shape).Idx → α)
    (h : Shape.Concatenates [(⟨2, ![K, N]⟩ : Shape), ⟨2, ![K, N]⟩, ⟨2, ![K, N]⟩] ⟨2, ![K, T]⟩ 1)
    (k : Fin K) (q : Fin N) (j : Fin T) (hj : j.val = q.val) :
    concatenate ⟨2, ![K, T]⟩ 1 [⟨⟨2, ![K, N]⟩, w0⟩, ⟨⟨2, ![K, N]⟩, w1⟩, ⟨⟨2, ![K, N]⟩, w2⟩] h (ix2 k j) = w0 (ix2 k q) :=
  concatenate_apply_piece 1 [⟨⟨2, ![K, N]⟩, w0⟩, ⟨⟨2, ![K, N]⟩, w1⟩, ⟨⟨2, ![K, N]⟩, w2⟩] h (ix2 k j) 0 (by show 0 < 3; omega) _ w0 rfl rfl 0 rfl (ix2 k q)
    (fun b hb => match b with | ⟨0, _⟩ => rfl | ⟨1, _⟩ => absurd rfl hb) (by show 0 + q.val = j.val; omega)

/-- A column `j = N + q` reads the second. -/
theorem concat3_cols_snd {K N T : Nat} (w0 w1 w2 : (⟨2, ![K, N]⟩ : Shape).Idx → α)
    (h : Shape.Concatenates [(⟨2, ![K, N]⟩ : Shape), ⟨2, ![K, N]⟩, ⟨2, ![K, N]⟩] ⟨2, ![K, T]⟩ 1)
    (k : Fin K) (q : Fin N) (j : Fin T) (hj : j.val = N + q.val) :
    concatenate ⟨2, ![K, T]⟩ 1 [⟨⟨2, ![K, N]⟩, w0⟩, ⟨⟨2, ![K, N]⟩, w1⟩, ⟨⟨2, ![K, N]⟩, w2⟩] h (ix2 k j) = w1 (ix2 k q) :=
  concatenate_apply_piece 1 [⟨⟨2, ![K, N]⟩, w0⟩, ⟨⟨2, ![K, N]⟩, w1⟩, ⟨⟨2, ![K, N]⟩, w2⟩] h (ix2 k j) 1 (by show 1 < 3; omega) _ w1 rfl rfl N rfl (ix2 k q)
    (fun b hb => match b with | ⟨0, _⟩ => rfl | ⟨1, _⟩ => absurd rfl hb) (by show N + q.val = j.val; omega)

/-- A column `j = N + N + q` reads the third. -/
theorem concat3_cols_thd {K N T : Nat} (w0 w1 w2 : (⟨2, ![K, N]⟩ : Shape).Idx → α)
    (h : Shape.Concatenates [(⟨2, ![K, N]⟩ : Shape), ⟨2, ![K, N]⟩, ⟨2, ![K, N]⟩] ⟨2, ![K, T]⟩ 1)
    (k : Fin K) (q : Fin N) (j : Fin T) (hj : j.val = N + N + q.val) :
    concatenate ⟨2, ![K, T]⟩ 1 [⟨⟨2, ![K, N]⟩, w0⟩, ⟨⟨2, ![K, N]⟩, w1⟩, ⟨⟨2, ![K, N]⟩, w2⟩] h (ix2 k j) = w2 (ix2 k q) :=
  concatenate_apply_piece 1 [⟨⟨2, ![K, N]⟩, w0⟩, ⟨⟨2, ![K, N]⟩, w1⟩, ⟨⟨2, ![K, N]⟩, w2⟩] h (ix2 k j) 2 (by show 2 < 3; omega) _ w2 rfl rfl (N + N) rfl (ix2 k q)
    (fun b hb => match b with | ⟨0, _⟩ => rfl | ⟨1, _⟩ => absurd rfl hb) (by show N + N + q.val = j.val; omega)

/-- Three vectors of `N` entries laid end to end: an entry `j = q` below `N` reads the first. -/
theorem concat3_vec_fst {N T : Nat} (b0 b1 b2 : (⟨1, ![N]⟩ : Shape).Idx → α)
    (h : Shape.Concatenates [(⟨1, ![N]⟩ : Shape), ⟨1, ![N]⟩, ⟨1, ![N]⟩] ⟨1, ![T]⟩ 0)
    (q : Fin N) (j : Fin T) (hj : j.val = q.val) :
    concatenate ⟨1, ![T]⟩ 0 [⟨⟨1, ![N]⟩, b0⟩, ⟨⟨1, ![N]⟩, b1⟩, ⟨⟨1, ![N]⟩, b2⟩] h (ix1 j) = b0 (ix1 q) :=
  concatenate_apply_piece 0 [⟨⟨1, ![N]⟩, b0⟩, ⟨⟨1, ![N]⟩, b1⟩, ⟨⟨1, ![N]⟩, b2⟩] h (ix1 j) 0 (by show 0 < 3; omega) _ b0 rfl rfl 0 rfl (ix1 q)
    (fun b hb => match b with | ⟨0, _⟩ => absurd rfl hb) (by show 0 + q.val = j.val; omega)

theorem concat3_vec_snd {N T : Nat} (b0 b1 b2 : (⟨1, ![N]⟩ : Shape).Idx → α)
    (h : Shape.Concatenates [(⟨1, ![N]⟩ : Shape), ⟨1, ![N]⟩, ⟨1, ![N]⟩] ⟨1, ![T]⟩ 0)
    (q : Fin N) (j : Fin T) (hj : j.val = N + q.val) :
    concatenate ⟨1, ![T]⟩ 0 [⟨⟨1, ![N]⟩, b0⟩, ⟨⟨1, ![N]⟩, b1⟩, ⟨⟨1, ![N]⟩, b2⟩] h (ix1 j) = b1 (ix1 q) :=
  concatenate_apply_piece 0 [⟨⟨1, ![N]⟩, b0⟩, ⟨⟨1, ![N]⟩, b1⟩, ⟨⟨1, ![N]⟩, b2⟩] h (ix1 j) 1 (by show 1 < 3; omega) _ b1 rfl rfl N rfl (ix1 q)
    (fun b hb => match b with | ⟨0, _⟩ => absurd rfl hb) (by show N + q.val = j.val; omega)

theorem concat3_vec_thd {N T : Nat} (b0 b1 b2 : (⟨1, ![N]⟩ : Shape).Idx → α)
    (h : Shape.Concatenates [(⟨1, ![N]⟩ : Shape), ⟨1, ![N]⟩, ⟨1, ![N]⟩] ⟨1, ![T]⟩ 0)
    (q : Fin N) (j : Fin T) (hj : j.val = N + N + q.val) :
    concatenate ⟨1, ![T]⟩ 0 [⟨⟨1, ![N]⟩, b0⟩, ⟨⟨1, ![N]⟩, b1⟩, ⟨⟨1, ![N]⟩, b2⟩] h (ix1 j) = b2 (ix1 q) :=
  concatenate_apply_piece 0 [⟨⟨1, ![N]⟩, b0⟩, ⟨⟨1, ![N]⟩, b1⟩, ⟨⟨1, ![N]⟩, b2⟩] h (ix1 j) 2 (by show 2 < 3; omega) _ b2 rfl rfl (N + N) rfl (ix1 q)
    (fun b hb => match b with | ⟨0, _⟩ => absurd rfl hb) (by show N + N + q.val = j.val; omega)

end Pieces

section Affine

/-- Columns `o … o + N - 1` of `X · W + b` are `X · w + b'`, when those columns of `W` are `w` and those entries of
    `b` are `b'`: each entry is the same sum of the same products, plus the same bias entry. -/
theorem slice_affine {M K N T : Nat} (o : Nat) (X : (⟨2, ![M, K]⟩ : Shape).Idx → EReal)
    (W : (⟨2, ![K, T]⟩ : Shape).Idx → EReal) (b : (⟨1, ![T]⟩ : Shape).Idx → EReal)
    (w : (⟨2, ![K, N]⟩ : Shape).Idx → EReal) (b' : (⟨1, ![N]⟩ : Shape).Idx → EReal)
    (hs : (⟨2, ![M, T]⟩ : Shape).Slices ![0, o] ⟨2, ![M, N]⟩)
    (hW : ∀ (k : Fin K) (q : Fin N) (j : Fin T), j.val = o + q.val → W (ix2 k j) = w (ix2 k q))
    (hb : ∀ (q : Fin N) (j : Fin T), j.val = o + q.val → b (ix1 j) = b' (ix1 q)) :
    extractStridedSlice ⟨2, ![M, N]⟩ ![0, o] (affine X W b) hs = affine X w b' := by
  funext i
  obtain ⟨p, q, rfl⟩ : ∃ p q, i = ix2 p q := ⟨i 0, i 1, eq_ix2 i⟩
  rw [slice2_axis1_eq, affine_apply, affine_apply]
  congr 1
  · exact Finset.sum_congr rfl fun k _ => by rw [hW k q _ rfl]
  · exact hb q _ rfl

/-- The host's spelling of `X · w + b`: its `dot_general` plus the bias repeated down the rows by two broadcasts. -/
theorem affine_eq_dot_add {M K N : Nat} {d : DotDims ⟨2, ![M, K]⟩ ⟨2, ![K, N]⟩ ⟨2, ![M, N]⟩} (hd : RowsCols d)
    (prec : Option ContractPrecision) (X : FVec Ideal ⟨2, ![M, K]⟩ .f32) (w : FVec Ideal ⟨2, ![K, N]⟩ .f32)
    (b : FVec Ideal ⟨1, ![N]⟩ .f32)
    (h3 : (⟨1, ![N]⟩ : Shape).BroadcastsInDim ⟨2, ![1, N]⟩ ![1])
    (h4 : (⟨2, ![1, N]⟩ : Shape).BroadcastsInDim ⟨2, ![M, N]⟩ ![0, 1]) :
    affine X w b = addf (Host.dotGeneral d prec X w)
      (broadcastInDim ⟨2, ![M, N]⟩ ![0, 1] h4 (broadcastInDim ⟨2, ![1, N]⟩ ![1] h3 b)) := by
  funext i
  obtain ⟨p, q, rfl⟩ : ∃ p q, i = ix2 p q := ⟨i 0, i 1, eq_ix2 i⟩
  rw [addf_apply, dotGeneral_apply hd, HostColumn.row_apply]
  rfl

/-- With a bias that is zero at every entry, `X · w + b` is the host's `dot_general` alone: `a + 0 = a`. -/
theorem affine_eq_dot_of_zero {M K N : Nat} {d : DotDims ⟨2, ![M, K]⟩ ⟨2, ![K, N]⟩ ⟨2, ![M, N]⟩} (hd : RowsCols d)
    (prec : Option ContractPrecision) (X : FVec Ideal ⟨2, ![M, K]⟩ .f32) (w : FVec Ideal ⟨2, ![K, N]⟩ .f32)
    (b : FVec Ideal ⟨1, ![N]⟩ .f32) (hb : ∀ q : Fin N, b (ix1 q) = 0) :
    affine X w b = Host.dotGeneral d prec X w := by
  funext i
  obtain ⟨p, q, rfl⟩ : ∃ p q, i = ix2 p q := ⟨i 0, i 1, eq_ix2 i⟩
  rw [dotGeneral_apply hd]
  show rowsTimes X w (ix2 p q) + b (ix1 q) = _
  rw [hb q, add_zero]

/-- The zero word broadcast to a vector is zero at every entry. -/
theorem zeros_apply {N : Nat} (hz : (⟨0, ![]⟩ : Shape).BroadcastsInDim ⟨1, ![N]⟩ (![] : Fin 0 → Fin 1)) (q : Fin N) :
    broadcastInDim ⟨1, ![N]⟩ ![] hz (constant (F := Ideal) ⟨0, ![]⟩ .f32 0x00000000#32) (ix1 q) = 0 :=
  (broadcastInDim_apply _ hz _ (ix1 q) ix0 (fun a => a.elim0)).trans Ideal.ofBits_zero_f32

/-- The reference's spelling of the three-branch sum: `(x0 + (a1 + b1)) + (a2 + b2)`, each bias repeated down the rows
    by the host's two broadcasts. -/
theorem threeSum_eq_adds {M N : Nat} (x0 a1 a2 : FVec Ideal ⟨2, ![M, N]⟩ .f32) (b1 b2 : FVec Ideal ⟨1, ![N]⟩ .f32)
    (h3 : (⟨1, ![N]⟩ : Shape).BroadcastsInDim ⟨2, ![1, N]⟩ ![1])
    (h4 : (⟨2, ![1, N]⟩ : Shape).BroadcastsInDim ⟨2, ![M, N]⟩ ![0, 1]) :
    threeSum x0 a1 a2 b1 b2 =
      addf (addf x0 (addf a1 (broadcastInDim ⟨2, ![M, N]⟩ ![0, 1] h4 (broadcastInDim ⟨2, ![1, N]⟩ ![1] h3 b1))))
        (addf a2 (broadcastInDim ⟨2, ![M, N]⟩ ![0, 1] h4 (broadcastInDim ⟨2, ![1, N]⟩ ![1] h3 b2))) := by
  funext i
  obtain ⟨p, q, rfl⟩ : ∃ p q, i = ix2 p q := ⟨i 0, i 1, eq_ix2 i⟩
  rw [addf_apply, addf_apply, addf_apply, addf_apply, HostColumn.row_apply, HostColumn.row_apply]
  rfl

end Affine

/-! ## The two layers of this program, in the printed spelling

  The kernel multiplies by the three weight matrices laid side by side and adds the first bias followed by zeros; the host
  then cuts the product into its three column groups. Each group is the reference's own product with that weight matrix
  (plus, for the first group, the bias repeated down the rows). -/

section Printed

/-- The reference's first-layer `dot_general` record contracts the one shared axis: rows times columns. -/
theorem rowsCols_dot128 [Cert.ReferenceIdeal.Facts₀] :
    RowsCols Cert.ReferenceIdeal.dot_S100000x128_S128x64_S100000x64_1_0_0_1_n_n :=
  ⟨rfl, rfl, fun _ _ => rfl, fun _ _ => rfl, fun _ _ => rfl, fun _ _ => rfl⟩

/-- The reference's second-layer `dot_general` record, likewise. -/
theorem rowsCols_dot64 [Cert.ReferenceIdeal.Facts₀] :
    RowsCols Cert.ReferenceIdeal.dot_S100000x64_S64x32_S100000x32_1_0_0_1_n_n :=
  ⟨rfl, rfl, fun _ _ => rfl, fun _ _ => rfl, fun _ _ => rfl, fun _ _ => rfl⟩

end Printed

section layer1
open Cert.KernelIdeal
variable [Cert.ReferenceIdeal.Facts₀]

/-- Columns 0 … 63 of the kernel's product are the reference's `X · w0 + b0`. -/
theorem layer1_slice0 (X : FVec Ideal S100000x128 .f32) (w0 w1 w2 : FVec Ideal S128x64 .f32) (b0 : FVec Ideal S64 .f32)
    (hc : Shape.Concatenates [S128x64, S128x64, S128x64] S128x192 1) (hz : S_.BroadcastsInDim S64 (![] : Fin 0 → Fin S64.rank))
    (hv : Shape.Concatenates [S64, S64, S64] S192 0)
    (hs : S100000x192.Slices ![0, 0] S100000x64) (h3 : S64.BroadcastsInDim S1x64 ![1])
    (h4 : S1x64.BroadcastsInDim S100000x64 ![0, 1]) :
    extractStridedSlice S100000x64 ![0, 0]
        (affine X (concatenate S128x192 1 [⟨S128x64, w0⟩, ⟨S128x64, w1⟩, ⟨S128x64, w2⟩] hc)
          (concatenate S192 0 [⟨S64, b0⟩, ⟨S64, broadcastInDim S64 ![] hz (constant (F := Ideal) S_ .f32 0x00000000#32)⟩,
          ⟨S64, broadcastInDim S64 ![] hz (constant (F := Ideal) S_ .f32 0x00000000#32)⟩] hv)) hs
      = addf (Host.dotGeneral Cert.ReferenceIdeal.dot_S100000x128_S128x64_S100000x64_1_0_0_1_n_n none X w0)
          (broadcastInDim S100000x64 ![0, 1] h4 (broadcastInDim S1x64 ![1] h3 b0)) :=
  (slice_affine 0 X _ _ w0 b0 hs (fun k q j hj => concat3_cols_fst w0 w1 w2 hc k q j (by omega))
    (fun q j hj => concat3_vec_fst _ _ _ hv q j (by omega))).trans (affine_eq_dot_add rowsCols_dot128 none X w0 b0 h3 h4)

/-- Columns 64 … 127 are the reference's `X · w1`: the bias there is the zero word, and `a + 0 = a`. -/
theorem layer1_slice1 (X : FVec Ideal S100000x128 .f32) (w0 w1 w2 : FVec Ideal S128x64 .f32) (b0 : FVec Ideal S64 .f32)
    (hc : Shape.Concatenates [S128x64, S128x64, S128x64] S128x192 1) (hz : S_.BroadcastsInDim S64 (![] : Fin 0 → Fin S64.rank))
    (hv : Shape.Concatenates [S64, S64, S64] S192 0)
    (hs : S100000x192.Slices ![0, 64] S100000x64) :
    extractStridedSlice S100000x64 ![0, 64]
        (affine X (concatenate S128x192 1 [⟨S128x64, w0⟩, ⟨S128x64, w1⟩, ⟨S128x64, w2⟩] hc)
          (concatenate S192 0 [⟨S64, b0⟩, ⟨S64, broadcastInDim S64 ![] hz (constant (F := Ideal) S_ .f32 0x00000000#32)⟩,
          ⟨S64, broadcastInDim S64 ![] hz (constant (F := Ideal) S_ .f32 0x00000000#32)⟩] hv)) hs
      = Host.dotGeneral Cert.ReferenceIdeal.dot_S100000x128_S128x64_S100000x64_1_0_0_1_n_n none X w1 :=
  (slice_affine 64 X _ _ w1 _ hs (fun k q j hj => concat3_cols_snd w0 w1 w2 hc k q j hj)
    (fun q j hj => concat3_vec_snd _ _ _ hv q j hj)).trans
    (affine_eq_dot_of_zero rowsCols_dot128 none X w1 _ (zeros_apply hz))

/-- Columns 128 … 191 are the reference's `X · w2`, likewise. -/
theorem layer1_slice2 (X : FVec Ideal S100000x128 .f32) (w0 w1 w2 : FVec Ideal S128x64 .f32) (b0 : FVec Ideal S64 .f32)
    (hc : Shape.Concatenates [S128x64, S128x64, S128x64] S128x192 1) (hz : S_.BroadcastsInDim S64 (![] : Fin 0 → Fin S64.rank))
    (hv : Shape.Concatenates [S64, S64, S64] S192 0)
    (hs : S100000x192.Slices ![0, 128] S100000x64) :
    extractStridedSlice S100000x64 ![0, 128]
        (affine X (concatenate S128x192 1 [⟨S128x64, w0⟩, ⟨S128x64, w1⟩, ⟨S128x64, w2⟩] hc)
          (concatenate S192 0 [⟨S64, b0⟩, ⟨S64, broadcastInDim S64 ![] hz (constant (F := Ideal) S_ .f32 0x00000000#32)⟩,
          ⟨S64, broadcastInDim S64 ![] hz (constant (F := Ideal) S_ .f32 0x00000000#32)⟩] hv)) hs
      = Host.dotGeneral Cert.ReferenceIdeal.dot_S100000x128_S128x64_S100000x64_1_0_0_1_n_n none X w2 :=
  (slice_affine 128 X _ _ w2 _ hs (fun k q j hj => concat3_cols_thd w0 w1 w2 hc k q j (by omega))
    (fun q j hj => concat3_vec_thd _ _ _ hv q j (by omega))).trans
    (affine_eq_dot_of_zero rowsCols_dot128 none X w2 _ (zeros_apply hz))

/-- The three-branch sum in the reference's spelling, at this layer's width. -/
theorem layer1_threeSum (x0 a1 a2 : FVec Ideal S100000x64 .f32) (b1 b2 : FVec Ideal S64 .f32)
    (h3 : S64.BroadcastsInDim S1x64 ![1]) (h4 : S1x64.BroadcastsInDim S100000x64 ![0, 1]) :
    threeSum x0 a1 a2 b1 b2 =
      addf (addf x0 (addf a1 (broadcastInDim S100000x64 ![0, 1] h4 (broadcastInDim S1x64 ![1] h3 b1))))
        (addf a2 (broadcastInDim S100000x64 ![0, 1] h4 (broadcastInDim S1x64 ![1] h3 b2))) :=
  threeSum_eq_adds x0 a1 a2 b1 b2 h3 h4

end layer1

section layer2
open Cert.KernelIdeal
variable [Cert.ReferenceIdeal.Facts₀]

/-- Columns 0 … 31 of the kernel's product are the reference's `X · w0 + b0`. -/
theorem layer2_slice0 (X : FVec Ideal S100000x64 .f32) (w0 w1 w2 : FVec Ideal S64x32 .f32) (b0 : FVec Ideal S32 .f32)
    (hc : Shape.Concatenates [S64x32, S64x32, S64x32] S64x96 1) (hz : S_.BroadcastsInDim S32 (![] : Fin 0 → Fin S32.rank))
    (hv : Shape.Concatenates [S32, S32, S32] S96 0)
    (hs : S100000x96.Slices ![0, 0] S100000x32) (h3 : S32.BroadcastsInDim S1x32 ![1])
    (h4 : S1x32.BroadcastsInDim S100000x32 ![0, 1]) :
    extractStridedSlice S100000x32 ![0, 0]
        (affine X (concatenate S64x96 1 [⟨S64x32, w0⟩, ⟨S64x32, w1⟩, ⟨S64x32, w2⟩] hc)
          (concatenate S96 0 [⟨S32, b0⟩, ⟨S32, broadcastInDim S32 ![] hz (constant (F := Ideal) S_ .f32 0x00000000#32)⟩,
          ⟨S32, broadcastInDim S32 ![] hz (constant (F := Ideal) S_ .f32 0x00000000#32)⟩] hv)) hs
      = addf (Host.dotGeneral Cert.ReferenceIdeal.dot_S100000x64_S64x32_S100000x32_1_0_0_1_n_n none X w0)
          (broadcastInDim S100000x32 ![0, 1] h4 (broadcastInDim S1x32 ![1] h3 b0)) :=
  (slice_affine 0 X _ _ w0 b0 hs (fun k q j hj => concat3_cols_fst w0 w1 w2 hc k q j (by omega))
    (fun q j hj => concat3_vec_fst _ _ _ hv q j (by omega))).trans (affine_eq_dot_add rowsCols_dot64 none X w0 b0 h3 h4)

/-- Columns 32 … 63 are the reference's `X · w1`: the bias there is the zero word, and `a + 0 = a`. -/
theorem layer2_slice1 (X : FVec Ideal S100000x64 .f32) (w0 w1 w2 : FVec Ideal S64x32 .f32) (b0 : FVec Ideal S32 .f32)
    (hc : Shape.Concatenates [S64x32, S64x32, S64x32] S64x96 1) (hz : S_.BroadcastsInDim S32 (![] : Fin 0 → Fin S32.rank))
    (hv : Shape.Concatenates [S32, S32, S32] S96 0)
    (hs : S100000x96.Slices ![0, 32] S100000x32) :
    extractStridedSlice S100000x32 ![0, 32]
        (affine X (concatenate S64x96 1 [⟨S64x32, w0⟩, ⟨S64x32, w1⟩, ⟨S64x32, w2⟩] hc)
          (concatenate S96 0 [⟨S32, b0⟩, ⟨S32, broadcastInDim S32 ![] hz (constant (F := Ideal) S_ .f32 0x00000000#32)⟩,
          ⟨S32, broadcastInDim S32 ![] hz (constant (F := Ideal) S_ .f32 0x00000000#32)⟩] hv)) hs
      = Host.dotGeneral Cert.ReferenceIdeal.dot_S100000x64_S64x32_S100000x32_1_0_0_1_n_n none X w1 :=
  (slice_affine 32 X _ _ w1 _ hs (fun k q j hj => concat3_cols_snd w0 w1 w2 hc k q j hj)
    (fun q j hj => concat3_vec_snd _ _ _ hv q j hj)).trans
    (affine_eq_dot_of_zero rowsCols_dot64 none X w1 _ (zeros_apply hz))

/-- Columns 64 … 95 are the reference's `X · w2`, likewise. -/
theorem layer2_slice2 (X : FVec Ideal S100000x64 .f32) (w0 w1 w2 : FVec Ideal S64x32 .f32) (b0 : FVec Ideal S32 .f32)
    (hc : Shape.Concatenates [S64x32, S64x32, S64x32] S64x96 1) (hz : S_.BroadcastsInDim S32 (![] : Fin 0 → Fin S32.rank))
    (hv : Shape.Concatenates [S32, S32, S32] S96 0)
    (hs : S100000x96.Slices ![0, 64] S100000x32) :
    extractStridedSlice S100000x32 ![0, 64]
        (affine X (concatenate S64x96 1 [⟨S64x32, w0⟩, ⟨S64x32, w1⟩, ⟨S64x32, w2⟩] hc)
          (concatenate S96 0 [⟨S32, b0⟩, ⟨S32, broadcastInDim S32 ![] hz (constant (F := Ideal) S_ .f32 0x00000000#32)⟩,
          ⟨S32, broadcastInDim S32 ![] hz (constant (F := Ideal) S_ .f32 0x00000000#32)⟩] hv)) hs
      = Host.dotGeneral Cert.ReferenceIdeal.dot_S100000x64_S64x32_S100000x32_1_0_0_1_n_n none X w2 :=
  (slice_affine 64 X _ _ w2 _ hs (fun k q j hj => concat3_cols_thd w0 w1 w2 hc k q j (by omega))
    (fun q j hj => concat3_vec_thd _ _ _ hv q j (by omega))).trans
    (affine_eq_dot_of_zero rowsCols_dot64 none X w2 _ (zeros_apply hz))

/-- The three-branch sum in the reference's spelling, at this layer's width. -/
theorem layer2_threeSum (x0 a1 a2 : FVec Ideal S100000x32 .f32) (b1 b2 : FVec Ideal S32 .f32)
    (h3 : S32.BroadcastsInDim S1x32 ![1]) (h4 : S1x32.BroadcastsInDim S100000x32 ![0, 1]) :
    threeSum x0 a1 a2 b1 b2 =
      addf (addf x0 (addf a1 (broadcastInDim S100000x32 ![0, 1] h4 (broadcastInDim S1x32 ![1] h3 b1))))
        (addf a2 (broadcastInDim S100000x32 ![0, 1] h4 (broadcastInDim S1x32 ![1] h3 b2))) :=
  threeSum_eq_adds x0 a1 a2 b1 b2 h3 h4

end layer2

end Cert.Layers

end
-- ==== Proof.RefTerm.lean ====
/-
  The reference program read as one term: its run ends with the result array at the composition of its host
  operations applied to the argument arrays. Written in layers: a layer is a product of the input with a weight matrix
  plus a bias row, plus two edge aggregations of further products, each shifted by its own bias row; the result is
  the second layer (64 to 32 columns) applied to the first (128 to 64 columns). The edge aggregations are the very
  functions the kernel program's host operations compute.
-/
import proofs.«153592_j83202106458340_1_alg».proof.Proof.Gen.ReferenceIdeal.Run
import proofs.«153592_j83202106458340_1_alg».proof.Proof.HostStretches

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.KernelIdeal.Host (agg64 agg32)

/-- The first layer: `X·w0 + b0`, plus the aggregation of `X·w1` shifted by `b1`, plus the aggregation of `X·w2`
    shifted by `b2` (biases along every row), grouped from the left. -/
def layer1 (X : FVec Ideal S100000x128 .f32) (ew1 ew2 : FVec Ideal S1600000 .f32) (src dst : IVec S1600000 32)
    (w0 : FVec Ideal S128x64 .f32) (b0 : FVec Ideal S64 .f32) (w1 : FVec Ideal S128x64 .f32) (b1 : FVec Ideal S64 .f32)
    (w2 : FVec Ideal S128x64 .f32) (b2 : FVec Ideal S64 .f32) : FVec Ideal S100000x64 .f32 :=
  addf (F := Ideal)
    (addf (F := Ideal)
      (addf (F := Ideal) (Host.dotGeneral (F := Ideal) dot_S100000x128_S128x64_S100000x64_1_0_0_1_n_n none X w0)
        (broadcastInDim S100000x64 ![0, 1] bcast_S1x64_S100000x64_0_1 (broadcastInDim S1x64 ![1] bcast_S64_S1x64_1 b0)))
      (addf (F := Ideal)
        (agg64 (Host.dotGeneral (F := Ideal) dot_S100000x128_S128x64_S100000x64_1_0_0_1_n_n none X w1) ew1 src dst)
        (broadcastInDim S100000x64 ![0, 1] bcast_S1x64_S100000x64_0_1 (broadcastInDim S1x64 ![1] bcast_S64_S1x64_1 b1))))
    (addf (F := Ideal)
      (agg64 (Host.dotGeneral (F := Ideal) dot_S100000x128_S128x64_S100000x64_1_0_0_1_n_n none X w2) ew2 src dst)
      (broadcastInDim S100000x64 ![0, 1] bcast_S1x64_S100000x64_0_1 (broadcastInDim S1x64 ![1] bcast_S64_S1x64_1 b2)))

/-- The second layer: the same on 64 input columns and 32 output columns. -/
def layer2 (H : FVec Ideal S100000x64 .f32) (ew1 ew2 : FVec Ideal S1600000 .f32) (src dst : IVec S1600000 32)
    (w0 : FVec Ideal S64x32 .f32) (b0 : FVec Ideal S32 .f32) (w1 : FVec Ideal S64x32 .f32) (b1 : FVec Ideal S32 .f32)
    (w2 : FVec Ideal S64x32 .f32) (b2 : FVec Ideal S32 .f32) : FVec Ideal S100000x32 .f32 :=
  addf (F := Ideal)
    (addf (F := Ideal)
      (addf (F := Ideal) (Host.dotGeneral (F := Ideal) dot_S100000x64_S64x32_S100000x32_1_0_0_1_n_n none H w0)
        (broadcastInDim S100000x32 ![0, 1] bcast_S1x32_S100000x32_0_1 (broadcastInDim S1x32 ![1] bcast_S32_S1x32_1 b0)))
      (addf (F := Ideal)
        (agg32 (Host.dotGeneral (F := Ideal) dot_S100000x64_S64x32_S100000x32_1_0_0_1_n_n none H w1) ew1 src dst)
        (broadcastInDim S100000x32 ![0, 1] bcast_S1x32_S100000x32_0_1 (broadcastInDim S1x32 ![1] bcast_S32_S1x32_1 b1))))
    (addf (F := Ideal)
      (agg32 (Host.dotGeneral (F := Ideal) dot_S100000x64_S64x32_S100000x32_1_0_0_1_n_n none H w2) ew2 src dst)
      (broadcastInDim S100000x32 ![0, 1] bcast_S1x32_S100000x32_0_1 (broadcastInDim S1x32 ![1] bcast_S32_S1x32_1 b2)))

/-- The reference's result as a function of its seventeen argument arrays, in the order the program takes them:
    the second layer of the first layer of `X`. -/
def refResult (X : FVec Ideal S100000x128 .f32) (ew1 ew2 : FVec Ideal S1600000 .f32) (src dst : IVec S1600000 32)
    (ln1_w : FVec Ideal S128x64 .f32) (ln1_b : FVec Ideal S64 .f32) (c11_w : FVec Ideal S128x64 .f32) (c11_b : FVec Ideal S64 .f32)
    (c12_w : FVec Ideal S128x64 .f32) (c12_b : FVec Ideal S64 .f32)
    (ln2_w : FVec Ideal S64x32 .f32) (ln2_b : FVec Ideal S32 .f32) (c21_w : FVec Ideal S64x32 .f32) (c21_b : FVec Ideal S32 .f32)
    (c22_w : FVec Ideal S64x32 .f32) (c22_b : FVec Ideal S32 .f32) : FVec Ideal S100000x32 .f32 :=
  layer2 (layer1 X ew1 ew2 src dst ln1_w ln1_b c11_w c11_b c12_w c12_b) ew1 ew2 src dst ln2_w ln2_b c21_w c21_b c22_w c22_b

/-- The term the reference's run ends at is `refResult` of the launch contents of the seventeen arguments. -/
theorem ref_eq (m : (ℓ : Loc nD τ sig) → Buf (Elt Ideal) ℓ) (c : Dev nD) :
    res_main_v79 (F := Ideal) m c
      = refResult (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  unfold res_main_v79 refResult layer2 layer1 agg64 agg32
  rfl

end Cert.ReferenceIdeal.RefValue

end
-- ==== Proof.Bridge.lean ====
/-
  The bridge between the two programs, as one equality of functions of the seventeen argument arrays on the extended reals.

  The kernel program is four stages. Stage 0 multiplies the input by the three first-layer weight matrices laid side
  by side and adds the first bias followed by zeros; stage 1 adds the first column group of that product to the edge
  aggregations of the second and third column groups, each shifted by its own bias; stages 2 and 3 do the same with the
  second layer's weights on stage 1's result. The reference computes each layer from three separate products. Column
  group c of the joint product is the product with weight matrix c (plus the bias for c = 0, plus zero otherwise), so
  every argument of an edge aggregation is the same array in both programs, and the aggregation itself, applied
  literally by both, is never opened.
-/
import proofs.«153592_j83202106458340_1_alg».proof.Proof.ConcatLaws
import proofs.«153592_j83202106458340_1_alg».proof.Proof.HostStretches
import proofs.«153592_j83202106458340_1_alg».proof.Proof.RefTerm

noncomputable section

namespace Cert.Layers

open Idealize.ShloMosaic Idealize.ShloMosaic.ValueIdx
open Cert.KernelIdeal Cert.KernelIdeal.Gen
open Cert.KernelIdeal.Host (agg64 agg32)
open Cert.ReferenceIdeal.RefValue (layer1 layer2 refResult)

/-! ## The kernel program's four stages as maps on whole arrays -/

/-- The first pipelined stage: `X` times the three first-layer weight matrices side by side, plus the first bias
    followed by zeros. -/
def stage0 (X : Vec Ideal S100000x128 .f32) (w0 w1 w2 : Vec Ideal S128x64 .f32) (b0 : Vec Ideal S64 .f32) :
    Vec Ideal S100000x192 .f32 :=
  affine X
    (concatenate S128x192 1 [⟨S128x64, w0⟩, ⟨S128x64, w1⟩, ⟨S128x64, w2⟩] concatenates_S128x64_S128x64_S128x64_S128x192_d1)
    (concatenate S192 0 [⟨S64, b0⟩,
      ⟨S64, broadcastInDim S64 ![] bcast_S_S64 (constant (F := Ideal) S_ .f32 0x00000000#32)⟩,
      ⟨S64, broadcastInDim S64 ![] bcast_S_S64 (constant (F := Ideal) S_ .f32 0x00000000#32)⟩]
      concatenates_S64_S64_S64_S192_d0)

/-- The second stage, from the first stage's result `y`: its columns 0 … 63, plus the edge aggregation of its columns
    64 … 127 shifted by `b1`, plus the edge aggregation of its columns 128 … 191 shifted by `b2`. -/
def stage1 (y : Vec Ideal S100000x192 .f32) (ew1 ew2 : Vec Ideal S1600000 .f32) (src dst : Vec Ideal S1600000 .i32)
    (b1 b2 : Vec Ideal S64 .f32) : Vec Ideal S100000x64 .f32 :=
  threeSum (extractStridedSlice S100000x64 ![0, 0] y slices_S100000x192_S100000x64_0_0)
    (agg64 (extractStridedSlice S100000x64 ![0, 64] y slices_S100000x192_S100000x64_0_64) ew1 src dst)
    (agg64 (extractStridedSlice S100000x64 ![0, 128] y slices_S100000x192_S100000x64_0_128) ew2 src dst) b1 b2

/-- The third stage: `x` times the three second-layer weight matrices side by side, plus the bias followed by zeros. -/
def stage2 (x : Vec Ideal S100000x64 .f32) (w0 w1 w2 : Vec Ideal S64x32 .f32) (b0 : Vec Ideal S32 .f32) :
    Vec Ideal S100000x96 .f32 :=
  affine x
    (concatenate S64x96 1 [⟨S64x32, w0⟩, ⟨S64x32, w1⟩, ⟨S64x32, w2⟩] concatenates_S64x32_S64x32_S64x32_S64x96_d1)
    (concatenate S96 0 [⟨S32, b0⟩,
      ⟨S32, broadcastInDim S32 ![] bcast_S_S32 (constant (F := Ideal) S_ .f32 0x00000000#32)⟩,
      ⟨S32, broadcastInDim S32 ![] bcast_S_S32 (constant (F := Ideal) S_ .f32 0x00000000#32)⟩]
      concatenates_S32_S32_S32_S96_d0)

/-- The fourth stage, from the third stage's result `y`: its columns 0 … 31, plus the two edge aggregations of its
    columns 32 … 63 and 64 … 95, each shifted by its bias. -/
def stage3 (y : Vec Ideal S100000x96 .f32) (ew1 ew2 : Vec Ideal S1600000 .f32) (src dst : Vec Ideal S1600000 .i32)
    (b1 b2 : Vec Ideal S32 .f32) : Vec Ideal S100000x32 .f32 :=
  threeSum (extractStridedSlice S100000x32 ![0, 0] y slices_S100000x96_S100000x32_0_0)
    (agg32 (extractStridedSlice S100000x32 ![0, 32] y slices_S100000x96_S100000x32_0_32) ew1 src dst)
    (agg32 (extractStridedSlice S100000x32 ![0, 64] y slices_S100000x96_S100000x32_0_64) ew2 src dst) b1 b2

/-- The kernel program's result as a function of its seventeen argument arrays, in the order both programs take them. -/
def kernelResult (X : Vec Ideal S100000x128 .f32) (ew1 ew2 : Vec Ideal S1600000 .f32) (src dst : Vec Ideal S1600000 .i32)
    (ln1_w : Vec Ideal S128x64 .f32) (ln1_b : Vec Ideal S64 .f32) (c11_w : Vec Ideal S128x64 .f32) (c11_b : Vec Ideal S64 .f32)
    (c12_w : Vec Ideal S128x64 .f32) (c12_b : Vec Ideal S64 .f32)
    (ln2_w : Vec Ideal S64x32 .f32) (ln2_b : Vec Ideal S32 .f32) (c21_w : Vec Ideal S64x32 .f32) (c21_b : Vec Ideal S32 .f32)
    (c22_w : Vec Ideal S64x32 .f32) (c22_b : Vec Ideal S32 .f32) : Vec Ideal S100000x32 .f32 :=
  stage3 (stage2 (stage1 (stage0 X ln1_w c11_w c12_w ln1_b) ew1 ew2 src dst c11_b c12_b) ln2_w c21_w c22_w ln2_b)
    ew1 ew2 src dst c21_b c22_b

/-! ## Each pair of stages is one layer of the reference -/

/-- Stages 0 and 1 together are the reference's first layer: the three column groups of the joint product are the
    three separate products, and the three-branch sum is the reference's five additions. -/
theorem stage1_stage0_eq (X : Vec Ideal S100000x128 .f32) (ew1 ew2 : Vec Ideal S1600000 .f32)
    (src dst : Vec Ideal S1600000 .i32) (w0 : Vec Ideal S128x64 .f32) (b0 : Vec Ideal S64 .f32)
    (w1 : Vec Ideal S128x64 .f32) (b1 : Vec Ideal S64 .f32) (w2 : Vec Ideal S128x64 .f32) (b2 : Vec Ideal S64 .f32) :
    stage1 (stage0 X w0 w1 w2 b0) ew1 ew2 src dst b1 b2 = layer1 X ew1 ew2 src dst w0 b0 w1 b1 w2 b2 := by
  unfold stage1 stage0 layer1
  rw [layer1_threeSum _ _ _ _ _ Cert.ReferenceIdeal.Gen.bcast_S64_S1x64_1 Cert.ReferenceIdeal.Gen.bcast_S1x64_S100000x64_0_1,
    layer1_slice0 X w0 w1 w2 b0 _ _ _ _ Cert.ReferenceIdeal.Gen.bcast_S64_S1x64_1 Cert.ReferenceIdeal.Gen.bcast_S1x64_S100000x64_0_1,
    layer1_slice1 X w0 w1 w2 b0, layer1_slice2 X w0 w1 w2 b0]

/-- Stages 2 and 3 together are the reference's second layer. -/
theorem stage3_stage2_eq (H : Vec Ideal S100000x64 .f32) (ew1 ew2 : Vec Ideal S1600000 .f32)
    (src dst : Vec Ideal S1600000 .i32) (w0 : Vec Ideal S64x32 .f32) (b0 : Vec Ideal S32 .f32)
    (w1 : Vec Ideal S64x32 .f32) (b1 : Vec Ideal S32 .f32) (w2 : Vec Ideal S64x32 .f32) (b2 : Vec Ideal S32 .f32) :
    stage3 (stage2 H w0 w1 w2 b0) ew1 ew2 src dst b1 b2 = layer2 H ew1 ew2 src dst w0 b0 w1 b1 w2 b2 := by
  unfold stage3 stage2 layer2
  rw [layer2_threeSum _ _ _ _ _ Cert.ReferenceIdeal.Gen.bcast_S32_S1x32_1 Cert.ReferenceIdeal.Gen.bcast_S1x32_S100000x32_0_1,
    layer2_slice0 H w0 w1 w2 b0 _ _ _ _ Cert.ReferenceIdeal.Gen.bcast_S32_S1x32_1 Cert.ReferenceIdeal.Gen.bcast_S1x32_S100000x32_0_1,
    layer2_slice1 H w0 w1 w2 b0, layer2_slice2 H w0 w1 w2 b0]

/-- The two programs compute the same function of their seventeen arguments. -/
theorem kernelResult_eq (X : Vec Ideal S100000x128 .f32) (ew1 ew2 : Vec Ideal S1600000 .f32) (src dst : Vec Ideal S1600000 .i32)
    (ln1_w : Vec Ideal S128x64 .f32) (ln1_b : Vec Ideal S64 .f32) (c11_w : Vec Ideal S128x64 .f32) (c11_b : Vec Ideal S64 .f32)
    (c12_w : Vec Ideal S128x64 .f32) (c12_b : Vec Ideal S64 .f32)
    (ln2_w : Vec Ideal S64x32 .f32) (ln2_b : Vec Ideal S32 .f32) (c21_w : Vec Ideal S64x32 .f32) (c21_b : Vec Ideal S32 .f32)
    (c22_w : Vec Ideal S64x32 .f32) (c22_b : Vec Ideal S32 .f32) :
    kernelResult X ew1 ew2 src dst ln1_w ln1_b c11_w c11_b c12_w c12_b ln2_w ln2_b c21_w c21_b c22_w c22_b
      = refResult X ew1 ew2 src dst ln1_w ln1_b c11_w c11_b c12_w c12_b ln2_w ln2_b c21_w c21_b c22_w c22_b := by
  unfold kernelResult refResult
  rw [stage3_stage2_eq, stage1_stage0_eq]

end Cert.Layers

end
-- ==== Proof.IdealValue.lean ====
/-
  The kernel program's result as one function of its seventeen argument arrays, on the extended reals.

  The program is a chain: a stretch of host operations, then a pipelined call, four times. Each call leaves in its
  output array one function of the arrays it finds (a product plus a bias row for calls 0 and 2, a three-term sum for
  calls 1 and 3), and each host stretch leaves in the buffers the next call reads a composition of its operations
  applied to buffers that the earlier items either wrote once or never touched. Following every buffer back to the
  launch gives, stage by stage, the four stages' maps applied to the launch contents of the arguments.
-/
import proofs.«153592_j83202106458340_1_alg».proof.Proof.IdealChain
import proofs.«153592_j83202106458340_1_alg».proof.Proof.Final0
import proofs.«153592_j83202106458340_1_alg».proof.Proof.Final1
import proofs.«153592_j83202106458340_1_alg».proof.Proof.Final2
import proofs.«153592_j83202106458340_1_alg».proof.Proof.Final3
import proofs.«153592_j83202106458340_1_alg».proof.Proof.HostStretches
import proofs.«153592_j83202106458340_1_alg».proof.Proof.Bridge

set_option maxRecDepth 16384

noncomputable section

namespace Cert.KernelIdeal.Pipe

open Cert.KernelIdeal Cert.KernelIdeal.Gen
open Idealize.ShloMosaic Idealize.ShloMosaic.TcCoe
open Idealize.SL.Sem
open Cert.Layers (stage0 stage1 stage2 stage3 kernelResult)

variable (m : (ℓ : Loc nD τ sig) → Buf (Elt Ideal) ℓ)

/-! ## A buffer no earlier item writes still holds its launch contents -/

/-- The first host stretch leaves a buffer it does not write at its launch contents. -/
theorem U1_of (c : Dev nD) (r : Ref sig .tc) (h0 : r ∉ hostOps0_W) : U1 m c r = m ((c : Thread nD τ).loc r) :=
  (Gen.V1_of m c r h0).trans rfl
/-- The second host stretch leaves a buffer it does not write as call 0 left it. -/
theorem U3_of (c : Dev nD) (r : Ref sig .tc) (h1 : r ∉ hostOps1_W) : U3 m c r = U2 m c r := by
  rw [← V3_eq, ← V2_eq]; exact Gen.V3_of m (outs m) c r h1
/-- The third host stretch leaves a buffer it does not write as call 1 left it. -/
theorem U5_of (c : Dev nD) (r : Ref sig .tc) (h2 : r ∉ hostOps2_W) : U5 m c r = U4 m c r := by
  rw [← V5_eq, ← V4_eq]; exact Gen.V5_of m (outs m) c r h2
/-- The fourth host stretch leaves a buffer it does not write as call 2 left it. -/
theorem U7_of (c : Dev nD) (r : Ref sig .tc) (h3 : r ∉ hostOps3_W) : U7 m c r = U6 m c r := by
  rw [← V7_eq, ← V6_eq]; exact Gen.V7_of m (outs m) c r h3

theorem U2_arg (c : Dev nD) (r : Ref sig .tc) (h0 : r ∉ hostOps0_W) (e0 : r ≠ main_v4) :
    U2 m c r = m ((c : Thread nD τ).loc r) := (U2_of_ne m c r e0).trans (U1_of m c r h0)
theorem U3_arg (c : Dev nD) (r : Ref sig .tc) (h0 : r ∉ hostOps0_W) (e0 : r ≠ main_v4) (h1 : r ∉ hostOps1_W) :
    U3 m c r = m ((c : Thread nD τ).loc r) := (U3_of m c r h1).trans (U2_arg m c r h0 e0)
theorem U4_arg (c : Dev nD) (r : Ref sig .tc) (h0 : r ∉ hostOps0_W) (e0 : r ≠ main_v4) (h1 : r ∉ hostOps1_W) (e1 : r ≠ main_v34) :
    U4 m c r = m ((c : Thread nD τ).loc r) := (U4_of_ne m c r e1).trans (U3_arg m c r h0 e0 h1)
theorem U5_arg (c : Dev nD) (r : Ref sig .tc) (h0 : r ∉ hostOps0_W) (e0 : r ≠ main_v4) (h1 : r ∉ hostOps1_W) (e1 : r ≠ main_v34)
    (h2 : r ∉ hostOps2_W) : U5 m c r = m ((c : Thread nD τ).loc r) := (U5_of m c r h2).trans (U4_arg m c r h0 e0 h1 e1)
theorem U6_arg (c : Dev nD) (r : Ref sig .tc) (h0 : r ∉ hostOps0_W) (e0 : r ≠ main_v4) (h1 : r ∉ hostOps1_W) (e1 : r ≠ main_v34)
    (h2 : r ∉ hostOps2_W) (e2 : r ≠ main_v39) : U6 m c r = m ((c : Thread nD τ).loc r) :=
  (U6_of_ne m c r e2).trans (U5_arg m c r h0 e0 h1 e1 h2)
theorem U7_arg (c : Dev nD) (r : Ref sig .tc) (h0 : r ∉ hostOps0_W) (e0 : r ≠ main_v4) (h1 : r ∉ hostOps1_W) (e1 : r ≠ main_v34)
    (h2 : r ∉ hostOps2_W) (e2 : r ≠ main_v39) (h3 : r ∉ hostOps3_W) : U7 m c r = m ((c : Thread nD τ).loc r) :=
  (U7_of m c r h3).trans (U6_arg m c r h0 e0 h1 e1 h2 e2)

/-! ## Call 0 -/

theorem U1_main_v0 (c : Dev nD) : U1 m c main_v0
    = concatenate S128x192 1 [⟨S128x64, (m ((c : Thread nD τ).loc main_arg5))⟩, ⟨S128x64, (m ((c : Thread nD τ).loc main_arg7))⟩, ⟨S128x64, (m ((c : Thread nD τ).loc main_arg9))⟩]
        concatenates_S128x64_S128x64_S128x64_S128x192_d1 := by
  unfold U1; exact (Host.hostOps0_main_v0 (Gen.V0 m c)).trans rfl

theorem U1_main_v3 (c : Dev nD) : U1 m c main_v3
    = concatenate S192 0 [⟨S64, (m ((c : Thread nD τ).loc main_arg6))⟩,
        ⟨S64, broadcastInDim S64 ![] bcast_S_S64 (constant (F := Ideal) S_ .f32 0x00000000#32)⟩,
        ⟨S64, broadcastInDim S64 ![] bcast_S_S64 (constant (F := Ideal) S_ .f32 0x00000000#32)⟩]
        concatenates_S64_S64_S64_S192_d0 := by
  unfold U1; exact (Host.hostOps0_main_v3 (Gen.V0 m c)).trans rfl

/-- Call 0 leaves the first stage of the launch arguments. -/
theorem res0_eq (c : Dev nD) : res0 m c = stage0 (m ((c : Thread nD τ).loc main_arg0)) (m ((c : Thread nD τ).loc main_arg5)) (m ((c : Thread nD τ).loc main_arg7)) (m ((c : Thread nD τ).loc main_arg9)) (m ((c : Thread nD τ).loc main_arg6)) := by
  unfold res0 stage0
  rw [final0]
  show Cert.Layers.affine (U1 m c main_arg0 : S100000x128.Idx → EReal) (U1 m c main_v0 : S128x192.Idx → EReal)
    (U1 m c main_v3 : S192.Idx → EReal) = _
  rw [U1_of m c main_arg0 (by decide), U1_main_v0, U1_main_v3]

/-! ## Call 1 -/

theorem U3_main_v5 (c : Dev nD) : U3 m c main_v5
    = extractStridedSlice S100000x64 ![0, 0] (res0 m c) slices_S100000x192_S100000x64_0_0 := by
  unfold U3; rw [Host.hostOps1_main_v5, U2_out]

theorem U3_main_v20 (c : Dev nD) : U3 m c main_v20
    = Host.agg64 (extractStridedSlice S100000x64 ![0, 64] (res0 m c) slices_S100000x192_S100000x64_0_64)
        (m ((c : Thread nD τ).loc main_arg1)) (m ((c : Thread nD τ).loc main_arg3)) (m ((c : Thread nD τ).loc main_arg4)) := by
  unfold U3
  rw [Host.hostOps1_main_v20, U2_out, U2_arg m c main_arg1 (by decide) (by decide), U2_arg m c main_arg3 (by decide) (by decide),
    U2_arg m c main_arg4 (by decide) (by decide)]

theorem U3_main_v33 (c : Dev nD) : U3 m c main_v33
    = Host.agg64 (extractStridedSlice S100000x64 ![0, 128] (res0 m c) slices_S100000x192_S100000x64_0_128)
        (m ((c : Thread nD τ).loc main_arg2)) (m ((c : Thread nD τ).loc main_arg3)) (m ((c : Thread nD τ).loc main_arg4)) := by
  unfold U3
  rw [Host.hostOps1_main_v33, U2_out, U2_arg m c main_arg2 (by decide) (by decide), U2_arg m c main_arg3 (by decide) (by decide),
    U2_arg m c main_arg4 (by decide) (by decide)]

/-- Call 1 leaves the second stage of call 0's result and the launch arguments. -/
theorem res1_eq (c : Dev nD) : res1 m c = stage1 (res0 m c) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg10)) := by
  unfold res1 stage1
  rw [final1]
  show Cert.Layers.threeSum (U3 m c main_v5 : S100000x64.Idx → EReal) (U3 m c main_v20 : S100000x64.Idx → EReal)
    (U3 m c main_v33 : S100000x64.Idx → EReal) (U3 m c main_arg8 : S64.Idx → EReal) (U3 m c main_arg10 : S64.Idx → EReal) = _
  rw [U3_main_v5, U3_main_v20, U3_main_v33, U3_arg m c main_arg8 (by decide) (by decide) (by decide),
    U3_arg m c main_arg10 (by decide) (by decide) (by decide)]

/-! ## Call 2 -/

theorem U5_main_v34 (c : Dev nD) : U5 m c main_v34 = res1 m c :=
  (U5_of m c main_v34 (by decide)).trans (U4_out m c)

theorem U5_main_v35 (c : Dev nD) : U5 m c main_v35
    = concatenate S64x96 1 [⟨S64x32, (m ((c : Thread nD τ).loc main_arg11))⟩, ⟨S64x32, (m ((c : Thread nD τ).loc main_arg13))⟩, ⟨S64x32, (m ((c : Thread nD τ).loc main_arg15))⟩]
        concatenates_S64x32_S64x32_S64x32_S64x96_d1 := by
  unfold U5
  rw [Host.hostOps2_main_v35, U4_arg m c main_arg11 (by decide) (by decide) (by decide) (by decide),
    U4_arg m c main_arg13 (by decide) (by decide) (by decide) (by decide),
    U4_arg m c main_arg15 (by decide) (by decide) (by decide) (by decide)]

theorem U5_main_v38 (c : Dev nD) : U5 m c main_v38
    = concatenate S96 0 [⟨S32, (m ((c : Thread nD τ).loc main_arg12))⟩,
        ⟨S32, broadcastInDim S32 ![] bcast_S_S32 (constant (F := Ideal) S_ .f32 0x00000000#32)⟩,
        ⟨S32, broadcastInDim S32 ![] bcast_S_S32 (constant (F := Ideal) S_ .f32 0x00000000#32)⟩]
        concatenates_S32_S32_S32_S96_d0 := by
  unfold U5
  rw [Host.hostOps2_main_v38, U4_arg m c main_arg12 (by decide) (by decide) (by decide) (by decide)]

/-- Call 2 leaves the third stage of call 1's result and the launch arguments. -/
theorem res2_eq (c : Dev nD) : res2 m c = stage2 (res1 m c) (m ((c : Thread nD τ).loc main_arg11)) (m ((c : Thread nD τ).loc main_arg13)) (m ((c : Thread nD τ).loc main_arg15)) (m ((c : Thread nD τ).loc main_arg12)) := by
  unfold res2 stage2
  rw [final2]
  show Cert.Layers.affine (U5 m c main_v34 : S100000x64.Idx → EReal) (U5 m c main_v35 : S64x96.Idx → EReal)
    (U5 m c main_v38 : S96.Idx → EReal) = _
  rw [U5_main_v34, U5_main_v35, U5_main_v38]

/-! ## Call 3 -/

theorem U7_main_v40 (c : Dev nD) : U7 m c main_v40
    = extractStridedSlice S100000x32 ![0, 0] (res2 m c) slices_S100000x96_S100000x32_0_0 := by
  unfold U7; rw [Host.hostOps3_main_v40, U6_out]

theorem U7_main_v55 (c : Dev nD) : U7 m c main_v55
    = Host.agg32 (extractStridedSlice S100000x32 ![0, 32] (res2 m c) slices_S100000x96_S100000x32_0_32)
        (m ((c : Thread nD τ).loc main_arg1)) (m ((c : Thread nD τ).loc main_arg3)) (m ((c : Thread nD τ).loc main_arg4)) := by
  unfold U7
  rw [Host.hostOps3_main_v55, U6_out,
    U6_arg m c main_arg1 (by decide) (by decide) (by decide) (by decide) (by decide) (by decide),
    U6_arg m c main_arg3 (by decide) (by decide) (by decide) (by decide) (by decide) (by decide),
    U6_arg m c main_arg4 (by decide) (by decide) (by decide) (by decide) (by decide) (by decide)]

theorem U7_main_v68 (c : Dev nD) : U7 m c main_v68
    = Host.agg32 (extractStridedSlice S100000x32 ![0, 64] (res2 m c) slices_S100000x96_S100000x32_0_64)
        (m ((c : Thread nD τ).loc main_arg2)) (m ((c : Thread nD τ).loc main_arg3)) (m ((c : Thread nD τ).loc main_arg4)) := by
  unfold U7
  rw [Host.hostOps3_main_v68, U6_out,
    U6_arg m c main_arg2 (by decide) (by decide) (by decide) (by decide) (by decide) (by decide),
    U6_arg m c main_arg3 (by decide) (by decide) (by decide) (by decide) (by decide) (by decide),
    U6_arg m c main_arg4 (by decide) (by decide) (by decide) (by decide) (by decide) (by decide)]

/-- Call 3 leaves the fourth stage of call 2's result and the launch arguments. -/
theorem res3_eq (c : Dev nD) : res3 m c = stage3 (res2 m c) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg16)) := by
  unfold res3 stage3
  rw [final3]
  show Cert.Layers.threeSum (U7 m c main_v40 : S100000x32.Idx → EReal) (U7 m c main_v55 : S100000x32.Idx → EReal)
    (U7 m c main_v68 : S100000x32.Idx → EReal) (U7 m c main_arg14 : S32.Idx → EReal) (U7 m c main_arg16 : S32.Idx → EReal) = _
  rw [U7_main_v40, U7_main_v55, U7_main_v68,
    U7_arg m c main_arg14 (by decide) (by decide) (by decide) (by decide) (by decide) (by decide) (by decide),
    U7_arg m c main_arg16 (by decide) (by decide) (by decide) (by decide) (by decide) (by decide) (by decide)]

/-! ## The whole program -/

/-- The array the program returns holds the four stages applied in turn to the launch contents of the seventeen
    arguments. -/
theorem result_eq (c : Dev nD) : res3 m c
    = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold kernelResult
  rw [res3_eq, res2_eq, res1_eq, res0_eq]

end Cert.KernelIdeal.Pipe

end
-- ==== Proof.lean ====
/-
  Two layers of a graph network on 100000 nodes and 1600000 weighted edges, computed two ways.

  A layer maps node features x to  (x·W₀ + b₀) + (A₁(x·W₁) + b₁) + (A₂(x·W₂) + b₂),  where Aᵢ(h) gathers the rows of h at
  the edges' sources, scales row e by the i-th weight of edge e, and adds it into the row of the edge's target, starting
  from zero. The reference computes the three products of a layer separately. The kernel concatenates the three weight
  matrices side by side and the bias b₀ with two zero vectors, computes the one product x·[W₀|W₁|W₂] + [b₀|0|0] in a
  pipelined call over 20 blocks of 5000 rows, slices the three column ranges apart on the host, aggregates the second and
  third with the very same host operations as the reference, and adds the three pieces and the two remaining biases in a
  second pipelined call; then the same again for the second layer (128 → 64 → 32 columns).

  On the extended reals the two agree entry by entry: column j of x·[W₀|W₁|W₂] inside the i-th range is column j of x·Wᵢ,
  a sum compared term by term; the padded bias entries are zero and a + 0 = a; the three-term sum is grouped the same
  way on both sides; and the aggregation is one and the same function of its operand on both sides, so it is never
  opened. No law here needs finiteness, so the precondition is not used.

  The frames: each pipelined call is run block by block (its body's loads and single store executed symbolically), the
  calls and the host stretches are chained from the launch to the return, and no item writes an argument array.
  The reference is a straight line of host operations; its run is read back as one term of the arguments.
-/
import proofs.«153592_j83202106458340_1_alg».proof.Defs
import proofs.«153592_j83202106458340_1_alg».proof.Proof.Gen.Kernel
import proofs.«153592_j83202106458340_1_alg».proof.Proof.Gen.KernelIdeal
import proofs.«153592_j83202106458340_1_alg».proof.Proof.Gen.ReferenceIdeal
import proofs.«153592_j83202106458340_1_alg».proof.Proof.Gen.Pre_finite_inputs
import proofs.«153592_j83202106458340_1_alg».proof.Proof.WordRun
import proofs.«153592_j83202106458340_1_alg».proof.Proof.IdealRun
import proofs.«153592_j83202106458340_1_alg».proof.Proof.IdealValue
import proofs.«153592_j83202106458340_1_alg».proof.Proof.Bridge
import proofs.«153592_j83202106458340_1_alg».proof.Proof.RefTerm
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Pipe.frame m ρ

/-- So does the idealized kernel. -/
theorem frame_kernelIdeal : Cert.frame_KernelIdeal := fun m ρ _ => Cert.KernelIdeal.Pipe.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at one and the same function of the arguments: the kernel's chain of
    calls and host stretches read as the layered term, that term rewritten into the reference's by the column laws. -/
theorem algebraic : Cert.algebraic_KernelIdeal_ReferenceIdeal := by
  intro m ρ m' ρ' _ hagree
  refine ⟨fun c => Cert.KernelIdeal.Pipe.res3 m c, Cert.KernelIdeal.Pipe.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v79 (F := Ideal) m' c = Cert.KernelIdeal.Pipe.res3 m c
  obtain ⟨h0, h1, h2, h3, h4, h5, h6, h7, h8, h9, h10, h11, h12, h13, h14, h15, h16⟩ := hagree c
  rw [Cert.ReferenceIdeal.RefValue.ref_eq, Cert.KernelIdeal.Pipe.result_eq, Cert.Layers.kernelResult_eq,
    h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
